-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S2x256x256 : Shape := ⟨3, ![2, 256, 256]⟩
abbrev S2x256 : Shape := ⟨2, ![2, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_

variable [Facts]

def fn_part4 {F : FTy → Type} [FloatOps F] (main_arg16 : FVec F S2x256 .f32) (main_arg17 : FVec F S2x256 .f32) (main_arg18 : FVec F S2x256 .f32) (main_v63 : IVec S_ 1) (main_v67 : IVec S_ 1) : IVec S_ 1 :=
  let main_v68 : IVec S_ 1 := andi main_v63 main_v67
  let main_v69 : FVec F S2x256 .f32 := Host.absf main_arg16
  let main_cst_26 : FVec F S_ .f32 := constant S_ .f32 0x7F800000#32
  let main_v70 : FVec F S2x256 .f32 := broadcastInDim S2x256 ![] bcast_S_S2x256 main_cst_26
  let main_v71 : IVec S2x256 1 := cmpf .olt main_v69 main_v70
  let main_c_27 : IVec S_ 1 := constantI S_ 1 1#1
  let main_v72 : IVec S_ 1 := (fun x v => Host.reduce IntOp.andi x v reducesTo_S2x256_S_d0_1 h_S_) main_v71 main_c_27
  let main_v73 : IVec S_ 1 := andi main_v68 main_v72
  let main_v74 : FVec F S2x256 .f32 := Host.absf main_arg17
  let main_cst_28 : FVec F S_ .f32 := constant S_ .f32 0x7F800000#32
  let main_v75 : FVec F S2x256 .f32 := broadcastInDim S2x256 ![] bcast_S_S2x256 main_cst_28
  let main_v76 : IVec S2x256 1 := cmpf .olt main_v74 main_v75
  let main_c_29 : IVec S_ 1 := constantI S_ 1 1#1
  let main_v77 : IVec S_ 1 := (fun x v => Host.reduce IntOp.andi x v reducesTo_S2x256_S_d0_1 h_S_) main_v76 main_c_29
  let main_v78 : IVec S_ 1 := andi main_v73 main_v77
  let main_v79 : FVec F S2x256 .f32 := Host.absf main_arg18
  let main_cst_30 : FVec F S_ .f32 := constant S_ .f32 0x7F800000#32
  let main_v80 : FVec F S2x256 .f32 := broadcastInDim S2x256 ![] bcast_S_S2x256 main_cst_30
  let main_v81 : IVec S2x256 1 := cmpf .olt main_v79 main_v80
  let main_c_31 : IVec S_ 1 := constantI S_ 1 1#1
  let main_v82 : IVec S_ 1 := (fun x v => Host.reduce IntOp.andi x v reducesTo_S2x256_S_d0_1 h_S_) main_v81 main_c_31
  let main_v83 : IVec S_ 1 := andi main_v78 main_v82
  main_v83

def fn_part3 {F : FTy → Type} [FloatOps F] (main_arg13 : FVec F S2x256x256 .f32) (main_arg14 : FVec F S2x256 .f32) (main_arg15 : FVec F S2x256 .f32) (main_arg16 : FVec F S2x256 .f32) (main_arg17 : FVec F S2x256 .f32) (main_arg18 : FVec F S2x256 .f32) (main_v48 : IVec S_ 1) (main_v49 : FVec F S2x256 .f32) (main_v50 : FVec F S2x256 .f32) : IVec S_ 1 :=
  let main_v51 : IVec S2x256 1 := cmpf .olt main_v49 main_v50
  let main_c_19 : IVec S_ 1 := constantI S_ 1 1#1
  let main_v52 : IVec S_ 1 := (fun x v => Host.reduce IntOp.andi x v reducesTo_S2x256_S_d0_1 h_S_) main_v51 main_c_19
  let main_v53 : IVec S_ 1 := andi main_v48 main_v52
  let main_v54 : FVec F S2x256x256 .f32 := Host.absf main_arg13
  let main_cst_20 : FVec F S_ .f32 := constant S_ .f32 0x7F800000#32
  let main_v55 : FVec F S2x256x256 .f32 := broadcastInDim S2x256x256 ![] bcast_S_S2x256x256 main_cst_20
  let main_v56 : IVec S2x256x256 1 := cmpf .olt main_v54 main_v55
  let main_c_21 : IVec S_ 1 := constantI S_ 1 1#1
  let main_v57 : IVec S_ 1 := (fun x v => Host.reduce IntOp.andi x v reducesTo_S2x256x256_S_d0_1_2 h_S_) main_v56 main_c_21
  let main_v58 : IVec S_ 1 := andi main_v53 main_v57
  let main_v59 : FVec F S2x256 .f32 := Host.absf main_arg14
  let main_cst_22 : FVec F S_ .f32 := constant S_ .f32 0x7F800000#32
  let main_v60 : FVec F S2x256 .f32 := broadcastInDim S2x256 ![] bcast_S_S2x256 main_cst_22
  let main_v61 : IVec S2x256 1 := cmpf .olt main_v59 main_v60
  let main_c_23 : IVec S_ 1 := constantI S_ 1 1#1
  let main_v62 : IVec S_ 1 := (fun x v => Host.reduce IntOp.andi x v reducesTo_S2x256_S_d0_1 h_S_) main_v61 main_c_23
  let main_v63 : IVec S_ 1 := andi main_v58 main_v62
  let main_v64 : FVec F S2x256 .f32 := Host.absf main_arg15
  let main_cst_24 : FVec F S_ .f32 := constant S_ .f32 0x7F800000#32
  let main_v65 : FVec F S2x256 .f32 := broadcastInDim S2x256 ![] bcast_S_S2x256 main_cst_24
  let main_v66 : IVec S2x256 1 := cmpf .olt main_v64 main_v65
  let main_c_25 : IVec S_ 1 := constantI S_ 1 1#1
  let main_v67 : IVec S_ 1 := (fun x v => Host.reduce IntOp.andi x v reducesTo_S2x256_S_d0_1 h_S_) main_v66 main_c_25
  fn_part4 (F := F) main_arg16 main_arg17 main_arg18 main_v63 main_v67

def fn_part2 {F : FTy → Type} [FloatOps F] (main_arg9 : FVec F S256 .f32) (main_arg10 : FVec F S256 .f32) (main_arg11 : FVec F S2x256x256 .f32) (main_arg12 : FVec F S2x256 .f32) (main_arg13 : FVec F S2x256x256 .f32) (main_arg14 : FVec F S2x256 .f32) (main_arg15 : FVec F S2x256 .f32) (main_arg16 : FVec F S2x256 .f32) (main_arg17 : FVec F S2x256 .f32) (main_arg18 : FVec F S2x256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S2x256x256 .f32 := Host.absf main_arg11
  let main_cst_16 : FVec F S_ .f32 := constant S_ .f32 0x7F800000#32
  let main_v45 : FVec F S2x256x256 .f32 := broadcastInDim S2x256x256 ![] bcast_S_S2x256x256 main_cst_16
  let main_v46 : IVec S2x256x256 1 := cmpf .olt main_v44 main_v45
  let main_c_17 : IVec S_ 1 := constantI S_ 1 1#1
  let main_v47 : IVec S_ 1 := (fun x v => Host.reduce IntOp.andi x v reducesTo_S2x256x256_S_d0_1_2 h_S_) main_v46 main_c_17
  let main_v48 : IVec S_ 1 := andi main_v43 main_v47
  let main_v49 : FVec F S2x256 .f32 := Host.absf main_arg12
  let main_cst_18 : FVec F S_ .f32 := constant S_ .f32 0x7F800000#32
  let main_v50 : FVec F S2x256 .f32 := broadcastInDim S2x256 ![] bcast_S_S2x256 main_cst_18
  fn_part3 (F := F) main_arg13 main_arg14 main_arg15 main_arg16 main_arg17 main_arg18 main_v48 main_v49 main_v50

def fn_part1 {F : FTy → Type} [FloatOps F] (main_arg6 : FVec F S256 .f32) (main_arg7 : FVec F S256 .f32) (main_arg8 : FVec F S256 .f32) (main_arg9 : FVec F S256 .f32) (main_arg10 : FVec F S256 .f32) (main_arg11 : FVec F S2x256x256 .f32) (main_arg12 : FVec F S2x256 .f32) (main_arg13 : FVec F S2x256x256 .f32) (main_arg14 : FVec F S2x256 .f32) (main_arg15 : FVec F S2x256 .f32) (main_arg16 : FVec F S2x256 .f32) (main_arg17 : FVec F S2x256 .f32) (main_arg18 : FVec F S2x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x128 .f32) (main_arg1 : IVec S800000 32) (main_arg2 : IVec S800000 32) (main_arg3 : FVec F S128x256 .f32) (main_arg4 : FVec F S256 .f32) (main_arg5 : FVec F S256x256 .f32) (main_arg6 : FVec F S256 .f32) (main_arg7 : FVec F S256 .f32) (main_arg8 : FVec F S256 .f32) (main_arg9 : FVec F S256 .f32) (main_arg10 : FVec F S256 .f32) (main_arg11 : FVec F S2x256x256 .f32) (main_arg12 : FVec F S2x256 .f32) (main_arg13 : FVec F S2x256x256 .f32) (main_arg14 : FVec F S2x256 .f32) (main_arg15 : FVec F S2x256 .f32) (main_arg16 : FVec F S2x256 .f32) (main_arg17 : FVec F S2x256 .f32) (main_arg18 : FVec F S2x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S2x256x256 : Shape := ⟨3, ![2, 256, 256]⟩
abbrev S2x256 : Shape := ⟨2, ![2, 256]⟩
abbrev S_ : Shape := ⟨0, ![]⟩
abbrev S800000x1 : Shape := ⟨2, ![800000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x256x256 : Shape := ⟨3, ![1, 256, 256]⟩

abbrev nBuf : Space → Nat
  | .hbm => 117
  | .vmem => 42
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S2x256x256, .f32⟩
  | .hbm, ⟨12, _⟩ => ⟨S2x256, .f32⟩
  | .hbm, ⟨13, _⟩ => ⟨S2x256x256, .f32⟩
  | .hbm, ⟨14, _⟩ => ⟨S2x256, .f32⟩
  | .hbm, ⟨15, _⟩ => ⟨S2x256, .f32⟩
  | .hbm, ⟨16, _⟩ => ⟨S2x256, .f32⟩
  | .hbm, ⟨17, _⟩ => ⟨S2x256, .f32⟩
  | .hbm, ⟨18, _⟩ => ⟨S2x256, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S128x256, .bf16⟩
  | .hbm, ⟨33, _⟩ => ⟨S256x256, .bf16⟩
  | .hbm, ⟨34, _⟩ => ⟨S1x256, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S50000x256, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x256, .f32⟩
  | .hbm, ⟨50, _⟩ => ⟨S_, .f32⟩
  | .hbm, ⟨51, _⟩ => ⟨S50000x256, .f32⟩
  | .hbm, ⟨52, _⟩ => ⟨S800000x1, .i32⟩
  | .hbm, ⟨53, _⟩ => ⟨S50000x256, .f32⟩
  | .hbm, ⟨54, _⟩ => ⟨S1x256x256, .f32⟩
  | .hbm, ⟨55, _⟩ => ⟨S256x256, .f32⟩
  | .hbm, ⟨56, _⟩ => ⟨S1x256, .f32⟩
  | .hbm, ⟨57, _⟩ => ⟨S256, .f32⟩
  | .hbm, ⟨58, _⟩ => ⟨S1x256x256, .f32⟩
  | .hbm, ⟨59, _⟩ => ⟨S256x256, .f32⟩
  | .hbm, ⟨60, _⟩ => ⟨S1x256, .f32⟩
  | .hbm, ⟨61, _⟩ => ⟨S256, .f32⟩
  | .hbm, ⟨62, _⟩ => ⟨S1x256, .f32⟩
  | .hbm, ⟨63, _⟩ => ⟨S256, .f32⟩
  | .hbm, ⟨64, _⟩ => ⟨S1x256, .f32⟩
  | .hbm, ⟨65, _⟩ => ⟨S256, .f32⟩
  | .hbm, ⟨66, _⟩ => ⟨S1x256, .f32⟩
  | .hbm, ⟨67, _⟩ => ⟨S256, .f32⟩
  | .hbm, ⟨68, _⟩ => ⟨S1x256, .f32⟩
  | .hbm, ⟨69, _⟩ => ⟨S256, .f32⟩
  | .hbm, ⟨70, _⟩ => ⟨S256x256, .bf16⟩
  | .hbm, ⟨71, _⟩ => ⟨S256x256, .bf16⟩
  | .hbm, ⟨72, _⟩ => ⟨S1x256, .f32⟩
  | .hbm, ⟨73, _⟩ => ⟨S1x256, .f32⟩
  | .hbm, ⟨74, _⟩ => ⟨S1x256, .f32⟩
  | .hbm, ⟨75, _⟩ => ⟨S1x256, .f32⟩
  | .hbm, ⟨76, _⟩ => ⟨S1x256, .f32⟩
  | .hbm, ⟨77, _⟩ => ⟨S1x256, .f32⟩
  | .hbm, ⟨78, _⟩ => ⟨S50000x256, .f32⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S800000x256, .f32⟩
  | .hbm, ⟨88, _⟩ => ⟨S_, .f32⟩
  | .hbm, ⟨89, _⟩ => ⟨S50000x256, .f32⟩
  | .hbm, ⟨90, _⟩ => ⟨S800000x1, .i32⟩
  | .hbm, ⟨91, _⟩ => ⟨S50000x256, .f32⟩
  | .hbm, ⟨92, _⟩ => ⟨S1x256x256, .f32⟩
  | .hbm, ⟨93, _⟩ => ⟨S256x256, .f32⟩
  | .hbm, ⟨94, _⟩ => ⟨S1x256, .f32⟩
  | .hbm, ⟨95, _⟩ => ⟨S256, .f32⟩
  | .hbm, ⟨96, _⟩ => ⟨S1x256x256, .f32⟩
  | .hbm, ⟨97, _⟩ => ⟨S256x256, .f32⟩
  | .hbm, ⟨98, _⟩ => ⟨S1x256, .f32⟩
  | .hbm, ⟨99, _⟩ => ⟨S256, .f32⟩
  | .hbm, ⟨100, _⟩ => ⟨S1x256, .f32⟩
  | .hbm, ⟨101, _⟩ => ⟨S256, .f32⟩
  | .hbm, ⟨102, _⟩ => ⟨S1x256, .f32⟩
  | .hbm, ⟨103, _⟩ => ⟨S256, .f32⟩
  | .hbm, ⟨104, _⟩ => ⟨S1x256, .f32⟩
  | .hbm, ⟨105, _⟩ => ⟨S256, .f32⟩
  | .hbm, ⟨106, _⟩ => ⟨S1x256, .f32⟩
  | .hbm, ⟨107, _⟩ => ⟨S256, .f32⟩
  | .hbm, ⟨108, _⟩ => ⟨S256x256, .bf16⟩
  | .hbm, ⟨109, _⟩ => ⟨S256x256, .bf16⟩
  | .hbm, ⟨110, _⟩ => ⟨S1x256, .f32⟩
  | .hbm, ⟨111, _⟩ => ⟨S1x256, .f32⟩
  | .hbm, ⟨112, _⟩ => ⟨S1x256, .f32⟩
  | .hbm, ⟨113, _⟩ => ⟨S1x256, .f32⟩
  | .hbm, ⟨114, _⟩ => ⟨S1x256, .f32⟩
  | .hbm, ⟨115, _⟩ => ⟨S1x256, .f32⟩
  | .hbm, ⟨116, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S256x256, .bf16⟩
  | .local _ .vmem, ⟨19, _⟩ => ⟨S1x256, .f32⟩
  | .local _ .vmem, ⟨20, _⟩ => ⟨S256x256, .bf16⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S256x256, .bf16⟩
  | .local _ .vmem, ⟨33, _⟩ => ⟨S1x256, .f32⟩
  | .local _ .vmem, ⟨34, _⟩ => ⟨S256x256, .bf16⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S1x256, .f32⟩
  | .local _ .vmem, ⟨39, _⟩ => ⟨S1x256, .f32⟩
  | .local _ .vmem, ⟨40, _⟩ => ⟨S2000x256, .f32⟩
  | .local _ .vmem, ⟨41, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_1 : Ref sig .tc := ⟨.hbm, 41, rfl⟩
abbrev main_v19 : Ref sig .tc := ⟨.hbm, 42, rfl⟩
abbrev main_v20 : Ref sig .tc := ⟨.hbm, 43, rfl⟩
abbrev main_c_2 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_4 : Ref sig .tc := ⟨.hbm, 79, rfl⟩
abbrev main_v54 : Ref sig .tc := ⟨.hbm, 80, rfl⟩
abbrev main_v55 : Ref sig .tc := ⟨.hbm, 81, rfl⟩
abbrev main_c_5 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_6 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x256 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bitsLt_bf16_f32 : FTy.bits .bf16 < FTy.bits .f32
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  shapeCasts_S2000x256_S2000x256 : S2000x256.ShapeCasts S2000x256
  slices_S2x256x256_S1x256x256_1_0_0 : S2x256x256.Slices ![1, 0, 0] S1x256x256
  slices_S2x256_S1x256_1_0 : S2x256.Slices ![1, 0] S1x256
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x256.size a ≤ S50000x256.size a
  hwx0_10 : ∀ i : grid0.Coords, EltTy.bits .f32 = 32 ∨ (Rect.block (s := S50000x256) S2000x256.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x256.size a ≤ S50000x256.size a
  hwx1_10 : ∀ i : grid1.Coords, EltTy.bits .f32 = 32 ∨ (Rect.block (s := S50000x256) S2000x256.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .bf16 = 32 ∨ (Rect.block (s := S256x256) S256x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .bf16 = 32 ∨ (Rect.block (s := S256x256) S256x256.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x256.size a ≤ S1x256.size a
  hwx2_9 : ∀ i : grid2.Coords, EltTy.bits .f32 = 32 ∨ (Rect.block (s := S1x256) S1x256.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x256.size a ≤ S50000x256.size a
  hwx2_10 : ∀ i : grid2.Coords, EltTy.bits .f32 = 32 ∨ (Rect.block (s := S50000x256) S2000x256.size (cc2_transform_10 i) (hinb2_10 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S2000x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v18) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v50) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v51) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v52) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v53) S2000x256.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v53) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v80) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v82) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v81) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v83) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v84) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v85) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v86) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v87) S1x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v88) S2000x256.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S2x256x256 : Shape := ⟨3, ![2, 256, 256]⟩
abbrev S2x256 : Shape := ⟨2, ![2, 256]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S1x256x256 : Shape := ⟨3, ![1, 256, 256]⟩
abbrev S800000x256 : Shape := ⟨2, ![800000, 256]⟩

abbrev nBuf : Space → Nat
  | .hbm => 205
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x256, .f32⟩
  | 4 => ⟨S256, .f32⟩
  | 5 => ⟨S256x256, .f32⟩
  | 6 => ⟨S256, .f32⟩
  | 7 => ⟨S256, .f32⟩
  | 8 => ⟨S256, .f32⟩
  | 9 => ⟨S256, .f32⟩
  | 10 => ⟨S256, .f32⟩
  | 11 => ⟨S2x256x256, .f32⟩
  | 12 => ⟨S2x256, .f32⟩
  | 13 => ⟨S2x256x256, .f32⟩
  | 14 => ⟨S2x256, .f32⟩
  | 15 => ⟨S2x256, .f32⟩
  | 16 => ⟨S2x256, .f32⟩
  | 17 => ⟨S2x256, .f32⟩
  | 18 => ⟨S2x256, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S_, .f32⟩
  | 29 => ⟨S50000x128, .f32⟩
  | 30 => ⟨S800000x1, .i32⟩
  | 31 => ⟨S50000x128, .f32⟩
  | 32 => ⟨S50000x128, .f32⟩
  | 33 => ⟨S50000x256, .f32⟩
  | 34 => ⟨S1x256, .f32⟩
  | 35 => ⟨S50000x256, .f32⟩
  | 36 => ⟨S50000x256, .f32⟩
  | 37 => ⟨S_, .f32⟩
  | 38 => ⟨S_, .f32⟩
  | 39 => ⟨S50000x256, .f32⟩
  | 40 => ⟨S50000x256, .i1⟩
  | 41 => ⟨S_, .f32⟩
  | 42 => ⟨S50000x256, .f32⟩
  | 43 => ⟨S50000x256, .f32⟩
  | 44 => ⟨S50000x256, .f32⟩
  | 45 => ⟨S50000x256, .f32⟩
  | 46 => ⟨S1x256, .f32⟩
  | 47 => ⟨S50000x256, .f32⟩
  | 48 => ⟨S50000x256, .f32⟩
  | 49 => ⟨S1x256, .f32⟩
  | 50 => ⟨S50000x256, .f32⟩
  | 51 => ⟨S50000x256, .f32⟩
  | 52 => ⟨S_, .f32⟩
  | 53 => ⟨S256, .f32⟩
  | 54 => ⟨S256, .f32⟩
  | 55 => ⟨S256, .f32⟩
  | 56 => ⟨S1x256, .f32⟩
  | 57 => ⟨S50000x256, .f32⟩
  | 58 => ⟨S50000x256, .f32⟩
  | 59 => ⟨S1x256, .f32⟩
  | 60 => ⟨S50000x256, .f32⟩
  | 61 => ⟨S50000x256, .f32⟩
  | 62 => ⟨S1x256, .f32⟩
  | 63 => ⟨S50000x256, .f32⟩
  | 64 => ⟨S50000x256, .f32⟩
  | 65 => ⟨S_, .f32⟩
  | 66 => ⟨S_, .f32⟩
  | 67 => ⟨S50000x256, .f32⟩
  | 68 => ⟨S50000x256, .i1⟩
  | 69 => ⟨S_, .f32⟩
  | 70 => ⟨S50000x256, .f32⟩
  | 71 => ⟨S50000x256, .f32⟩
  | 72 => ⟨S50000x256, .f32⟩
  | 73 => ⟨S1x256x256, .f32⟩
  | 74 => ⟨S256x256, .f32⟩
  | 75 => ⟨S1x256, .f32⟩
  | 76 => ⟨S256, .f32⟩
  | 77 => ⟨S1x256x256, .f32⟩
  | 78 => ⟨S256x256, .f32⟩
  | 79 => ⟨S1x256, .f32⟩
  | 80 => ⟨S256, .f32⟩
  | 81 => ⟨S1x256, .f32⟩
  | 82 => ⟨S256, .f32⟩
  | 83 => ⟨S1x256, .f32⟩
  | 84 => ⟨S256, .f32⟩
  | 85 => ⟨S1x256, .f32⟩
  | 86 => ⟨S256, .f32⟩
  | 87 => ⟨S1x256, .f32⟩
  | 88 => ⟨S256, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x256, .f32⟩
  | 98 => ⟨S_, .f32⟩
  | 99 => ⟨S50000x256, .f32⟩
  | 100 => ⟨S800000x1, .i32⟩
  | 101 => ⟨S50000x256, .f32⟩
  | 102 => ⟨S50000x256, .f32⟩
  | 103 => ⟨S50000x256, .f32⟩
  | 104 => ⟨S1x256, .f32⟩
  | 105 => ⟨S50000x256, .f32⟩
  | 106 => ⟨S50000x256, .f32⟩
  | 107 => ⟨S_, .f32⟩
  | 108 => ⟨S_, .f32⟩
  | 109 => ⟨S50000x256, .f32⟩
  | 110 => ⟨S50000x256, .i1⟩
  | 111 => ⟨S_, .f32⟩
  | 112 => ⟨S50000x256, .f32⟩
  | 113 => ⟨S50000x256, .f32⟩
  | 114 => ⟨S50000x256, .f32⟩
  | 115 => ⟨S50000x256, .f32⟩
  | 116 => ⟨S1x256, .f32⟩
  | 117 => ⟨S50000x256, .f32⟩
  | 118 => ⟨S50000x256, .f32⟩
  | 119 => ⟨S1x256, .f32⟩
  | 120 => ⟨S50000x256, .f32⟩
  | 121 => ⟨S50000x256, .f32⟩
  | 122 => ⟨S_, .f32⟩
  | 123 => ⟨S256, .f32⟩
  | 124 => ⟨S256, .f32⟩
  | 125 => ⟨S256, .f32⟩
  | 126 => ⟨S1x256, .f32⟩
  | 127 => ⟨S50000x256, .f32⟩
  | _ => ⟨S50000x128, .f32⟩

abbrev hbmTy0_1 (i : Nat) : BufTy := match i % 128 with
  | 0 => ⟨S50000x256, .f32⟩
  | 1 => ⟨S1x256, .f32⟩
  | 2 => ⟨S50000x256, .f32⟩
  | 3 => ⟨S50000x256, .f32⟩
  | 4 => ⟨S1x256, .f32⟩
  | 5 => ⟨S50000x256, .f32⟩
  | 6 => ⟨S50000x256, .f32⟩
  | 7 => ⟨S_, .f32⟩
  | 8 => ⟨S_, .f32⟩
  | 9 => ⟨S50000x256, .f32⟩
  | 10 => ⟨S50000x256, .i1⟩
  | 11 => ⟨S_, .f32⟩
  | 12 => ⟨S50000x256, .f32⟩
  | 13 => ⟨S50000x256, .f32⟩
  | 14 => ⟨S50000x256, .f32⟩
  | 15 => ⟨S1x256x256, .f32⟩
  | 16 => ⟨S256x256, .f32⟩
  | 17 => ⟨S1x256, .f32⟩
  | 18 => ⟨S256, .f32⟩
  | 19 => ⟨S1x256x256, .f32⟩
  | 20 => ⟨S256x256, .f32⟩
  | 21 => ⟨S1x256, .f32⟩
  | 22 => ⟨S256, .f32⟩
  | 23 => ⟨S1x256, .f32⟩
  | 24 => ⟨S256, .f32⟩
  | 25 => ⟨S1x256, .f32⟩
  | 26 => ⟨S256, .f32⟩
  | 27 => ⟨S1x256, .f32⟩
  | 28 => ⟨S256, .f32⟩
  | 29 => ⟨S1x256, .f32⟩
  | 30 => ⟨S256, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x256, .f32⟩
  | 40 => ⟨S_, .f32⟩
  | 41 => ⟨S50000x256, .f32⟩
  | 42 => ⟨S800000x1, .i32⟩
  | 43 => ⟨S50000x256, .f32⟩
  | 44 => ⟨S50000x256, .f32⟩
  | 45 => ⟨S50000x256, .f32⟩
  | 46 => ⟨S1x256, .f32⟩
  | 47 => ⟨S50000x256, .f32⟩
  | 48 => ⟨S50000x256, .f32⟩
  | 49 => ⟨S_, .f32⟩
  | 50 => ⟨S_, .f32⟩
  | 51 => ⟨S50000x256, .f32⟩
  | 52 => ⟨S50000x256, .i1⟩
  | 53 => ⟨S_, .f32⟩
  | 54 => ⟨S50000x256, .f32⟩
  | 55 => ⟨S50000x256, .f32⟩
  | 56 => ⟨S50000x256, .f32⟩
  | 57 => ⟨S50000x256, .f32⟩
  | 58 => ⟨S1x256, .f32⟩
  | 59 => ⟨S50000x256, .f32⟩
  | 60 => ⟨S50000x256, .f32⟩
  | 61 => ⟨S1x256, .f32⟩
  | 62 => ⟨S50000x256, .f32⟩
  | 63 => ⟨S50000x256, .f32⟩
  | 64 => ⟨S_, .f32⟩
  | 65 => ⟨S256, .f32⟩
  | 66 => ⟨S256, .f32⟩
  | 67 => ⟨S256, .f32⟩
  | 68 => ⟨S1x256, .f32⟩
  | 69 => ⟨S50000x256, .f32⟩
  | 70 => ⟨S50000x256, .f32⟩
  | 71 => ⟨S1x256, .f32⟩
  | 72 => ⟨S50000x256, .f32⟩
  | 73 => ⟨S50000x256, .f32⟩
  | 74 => ⟨S1x256, .f32⟩
  | 75 => ⟨S50000x256, .f32⟩
  | 76 => ⟨S50000x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_1 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_2 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_3 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_c_4 : Ref sig .tc := ⟨.hbm, 89, rfl⟩
abbrev main_v52 : Ref sig .tc := ⟨.hbm, 90, rfl⟩
abbrev main_v53 : Ref sig .tc := ⟨.hbm, 91, rfl⟩
abbrev main_c_5 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_6 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_7 : Ref sig .tc := ⟨.hbm, 107, rfl⟩
abbrev main_call2_cst : Ref sig .tc := ⟨.hbm, 108, rfl⟩
abbrev main_call2_v0 : Ref sig .tc := ⟨.hbm, 109, rfl⟩
abbrev main_call2_v1 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_cst_8 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_9 : Ref sig .tc := ⟨.hbm, 135, rfl⟩
abbrev main_call3_cst : Ref sig .tc := ⟨.hbm, 136, rfl⟩
abbrev main_call3_v0 : Ref sig .tc := ⟨.hbm, 137, rfl⟩
abbrev main_call3_v1 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_c_10 : Ref sig .tc := ⟨.hbm, 159, rfl⟩
abbrev main_v104 : Ref sig .tc := ⟨.hbm, 160, rfl⟩
abbrev main_v105 : Ref sig .tc := ⟨.hbm, 161, rfl⟩
abbrev main_c_11 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_cst_12 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_cst_13 : Ref sig .tc := ⟨.hbm, 177, rfl⟩
abbrev main_call4_cst : Ref sig .tc := ⟨.hbm, 178, rfl⟩
abbrev main_call4_v0 : Ref sig .tc := ⟨.hbm, 179, rfl⟩
abbrev main_call4_v1 : Ref sig .tc := ⟨.hbm, 180, rfl⟩
abbrev main_call4_v2 : Ref sig .tc := ⟨.hbm, 181, rfl⟩
abbrev main_call4_v3 : Ref sig .tc := ⟨.hbm, 182, rfl⟩
abbrev main_call4_v4 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_cst_14 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S_S256 : S_.BroadcastsInDim S256 (![] : Fin 0 → Fin S256.rank)
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  slices_S2x256x256_S1x256x256_1_0_0 : S2x256x256.Slices ![1, 0, 0] S1x256x256
  slices_S2x256_S1x256_1_0 : S2x256.Slices ![1, 0] S1x256
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.KRun.lean ====
/-
  The idealized program's run with EVERY unscoped TensorCore buffer named: after the last of the three kernel
  regions each buffer holds the contents the fold through @main assigns it (three stretches of host operations,
  each followed by a region that leaves its arrays at what its write-backs leave). The frame claim keeps of this
  only the argument arrays; the value claim also reads the result array, so the launch is stated once more with the
  whole final valuation in its post.
-/
import proofs.«180986_j63608465654042_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from a memory with zero counters terminates without a fault, and in
    every final state each unscoped TensorCore buffer holds what the fold through @main's six segments leaves
    there (`Gen.W6`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.Whole

end
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.Spec.lean ====
/-
  One graph layer, one output row at a time, on the extended reals.

  A layer takes a node's feature row `h` and the sum `s` of its neighbours' rows, adds them, multiplies by a
  first weight matrix and adds a bias, applies the leaky rectifier (slope the 32-bit float nearest 0.01), multiplies
  by a second weight matrix and adds a bias, normalises with running statistics —
  `(y - μ) · (σ² + ε)^(-1/2) · γ + β` with ε the 32-bit float nearest 1e-5 — and, except in the last layer, applies the
  rectifier again. Entry `q` of a node's output row depends on the node's own two rows only; that is why the same
  function describes a tile of 2000 rows and the whole array of 50000.
-/
import Idealize.ShloMosaic.PureOps.Ideal
import Idealize.ShloMosaic.PureOps.Ideal.Laws
import Idealize.ShloMosaic.Lib.ValueIdx
import proofs.«180986_j63608465654042_1_alg».proof.Proof.LibMatProd

noncomputable section

namespace Cert.Gin

open Idealize.ShloMosaic Idealize.ShloMosaic.ValueIdx

/-- An `a × b` array of extended reals. -/
abbrev Mat (a b : Nat) : Type := (⟨2, ![a, b]⟩ : Shape).Idx → EReal

/-- The rectifier's threshold, the float zero. -/
def zeroF : EReal := Ideal.ofBits .f32 0x00000000#32
/-- The rectifier's slope on the negative side: the 32-bit float nearest 0.01. -/
def slope : EReal := Ideal.ofBits .f32 0x3C23D70A#32
/-- The normalisation's ε: the 32-bit float nearest 1e-5. -/
def eps : EReal := Ideal.ofBits .f32 0x3727C5AC#32

/-- The leaky rectifier: `a` where `a ≥ 0`, `slope · a` elsewhere. -/
def lrelu (a : EReal) : EReal :=
  Scalar.select (FloatOps.cmpf (F := Ideal) (φ := .f32) .oge a zeroF) a (slope * a)

/-- Entry `j` of the hidden row: the rectifier of `Σ_k (h k + s k) · w1 (k, j) + b1 j`. -/
def hidden {K : Nat} (h s : Fin K → EReal) (w1 : Mat K 256) (b1 : Fin 256 → EReal) (j : Fin 256) : EReal :=
  lrelu ((∑ k : Fin K, (h k + s k) * w1 (ix2 k j)) + b1 j)

/-- Entry `q` of the normalised second product: `(Σ_j hidden j · w2 (j, q) + b2 q - μ q) · (σ² q + ε)^(-1/2) · γ q + β q`. -/
def normed {K : Nat} (h s : Fin K → EReal) (w1 : Mat K 256) (b1 : Fin 256 → EReal) (w2 : Mat 256 256)
    (b2 g be mu var : Fin 256 → EReal) (q : Fin 256) : EReal :=
  ((∑ j : Fin 256, hidden h s w1 b1 j * w2 (ix2 j q)) + b2 q - mu q) * Ideal.rsqrt (var q + eps) * g q + be q

/-- Entry `q` of a layer's output row: the normalised value, rectified unless the layer is the last. -/
def layerRow {K : Nat} (last : Bool) (h s : Fin K → EReal) (w1 : Mat K 256) (b1 : Fin 256 → EReal) (w2 : Mat 256 256)
    (b2 g be mu var : Fin 256 → EReal) (q : Fin 256) : EReal :=
  bif last then normed h s w1 b1 w2 b2 g be mu var q else lrelu (normed h s w1 b1 w2 b2 g be mu var q)

/-- A whole layer over `M` nodes: row `r` of the output is `layerRow` of row `r` of the features and of the
    neighbour sums. -/
def layer {M K : Nat} (last : Bool) (H S : Mat M K) (w1 : Mat K 256) (b1 : Fin 256 → EReal) (w2 : Mat 256 256)
    (b2 g be mu var : Fin 256 → EReal) : Mat M 256 :=
  fun i => layerRow last (fun k => H (ix2 (i 0) k)) (fun k => S (ix2 (i 0) k)) w1 b1 w2 b2 g be mu var (i 1)

end Cert.Gin

end
-- ==== Proof.Rows.lean ====
/-
  Row vectors against matrices, read at an index.

  A bias or a per-feature statistic reaches a matrix of `M` rows in one of two ways: as a `1 × 256` array stretched
  over the rows (a tile's way), or as a length-256 vector given a leading unit axis and then stretched (the host's
  way). Either way entry `(r, q)` of the stretched array is entry `q` of the vector. A scalar constant stretched to
  any shape is that constant everywhere. A matrix product into a zero accumulator, and a host contraction, of an
  `M × K` array with a `K × 256` array are both `Σ_k x (r, k) · w (k, q)` once the contraction's index set is
  identified with `k < K`.
-/
import Idealize.ShloMosaic.PureOps.Ideal
import Idealize.ShloMosaic.PureOps.Ideal.Laws
import Idealize.ShloMosaic.Lib.ValueIdx
import Idealize.ShloMosaic.Lib.Pipeline.Value

noncomputable section

namespace Cert.Gin.Rows

open Idealize.ShloMosaic Idealize.ShloMosaic.ValueIdx

variable {α : Type}

/-- A `1 × 256` array stretched over `M` rows: entry `(p, q)` is entry `(0, q)`. -/
theorem rowStretch_apply {M : Nat} (x : (⟨2, ![1, 256]⟩ : Shape).Idx → α)
    (h : (⟨2, ![1, 256]⟩ : Shape).Broadcasts ⟨2, ![M, 256]⟩) (p : Fin M) (q : Fin 256) :
    broadcastTo ⟨2, ![M, 256]⟩ x h (ix2 p q) = x (ix2 0 q) :=
  broadcastTo_apply x h (ix2 p q) (ix2 0 q) fun a => by
    match a with
    | ⟨0, _⟩ => rfl
    | ⟨1, _⟩ => rfl

/-- A length-256 vector given a leading unit axis: entry `(0, q)` is entry `q`. -/
theorem unitAxis_apply (b : (⟨1, ![256]⟩ : Shape).Idx → α) (h : (⟨1, ![256]⟩ : Shape).BroadcastsInDim ⟨2, ![1, 256]⟩ ![1])
    (z : Fin 1) (q : Fin 256) :
    broadcastInDim ⟨2, ![1, 256]⟩ ![1] h b (ix2 z q) = b (ix1 q) :=
  broadcastInDim_apply ![1] h b (ix2 z q) (ix1 q) fun a => by
    match a with
    | ⟨0, _⟩ => rfl

/-- The host's stretch of a `1 × 256` array over `M` rows: entry `(r, q)` is entry `(0, q)`. -/
theorem hostStretch_apply {M : Nat} (x : (⟨2, ![1, 256]⟩ : Shape).Idx → α)
    (h : (⟨2, ![1, 256]⟩ : Shape).BroadcastsInDim ⟨2, ![M, 256]⟩ ![0, 1]) (r : Fin M) (q : Fin 256) :
    broadcastInDim ⟨2, ![M, 256]⟩ ![0, 1] h x (ix2 r q) = x (ix2 0 q) :=
  broadcastInDim_apply ![0, 1] h x (ix2 r q) (ix2 0 q) fun a => by
    match a with
    | ⟨0, _⟩ => rfl
    | ⟨1, _⟩ => rfl

/-- A length-256 vector reshaped to `1 × 256`: entry `(0, q)` is entry `q`. -/
theorem reshapeRow_apply (b : (⟨1, ![256]⟩ : Shape).Idx → α) (h : (⟨1, ![256]⟩ : Shape).ShapeCasts ⟨2, ![1, 256]⟩)
    (z : Fin 1) (q : Fin 256) :
    shapeCast ⟨2, ![1, 256]⟩ b h (ix2 z q) = b (ix1 q) := by
  have e := shapeCast_addUnit_apply ![256] b h (ix2 z q)
  exact e.trans (congrArg b (funext fun a => by match a with | ⟨0, _⟩ => rfl))

/-- A scalar stretched to any shape is that scalar at every index. -/
theorem scalarStretch_apply {t : Shape} (x : (⟨0, ![]⟩ : Shape).Idx → α) (h : (⟨0, ![]⟩ : Shape).BroadcastsInDim t ![])
    (j : t.Idx) : broadcastInDim t ![] h x j = x ix0 :=
  broadcastInDim_apply ![] h x j ix0 fun a => a.elim0

end Cert.Gin.Rows

end
-- ==== Proof.KTile0.lean ====
/-
  What one grid point of kernel region 0 leaves in its output tile, entry by entry: the layer's output row
  (`Cert.Gin.layerRow`) of the tile's own rows. The tile's 2000 rows are rows of the node features and of the
  neighbour sums; the weights and the per-feature vectors are whole in every tile. The two matrix products start from
  a zero accumulator, so each is the plain sum over the contracted axis; a change of float format is the identity on
  the extended reals.
-/
import proofs.«180986_j63608465654042_1_alg».proof.Proof.Gen.KernelIdeal.Frame
import proofs.«180986_j63608465654042_1_alg».proof.Proof.Spec
import proofs.«180986_j63608465654042_1_alg».proof.Proof.Rows
import Idealize.ShloMosaic.Lib.Pipeline.Value

set_option maxRecDepth 16384

noncomputable section

namespace Cert.KernelIdeal.Tile0

open Cert.KernelIdeal Cert.KernelIdeal.Gen Idealize.ShloMosaic Idealize.ShloMosaic.ValueIdx Cert.Gin Cert.Gin.Rows Cert.Gcn.Dense

theorem hz : (![0, 0] : Fin 2 → Nat) = fun _ => 0 := funext fun a => by fin_cases a <;> rfl

/-- The first product of a tile: `Σ_k z (p, k) · w (k, j)`. -/
theorem prod1_apply (Z : FVec Ideal S2000x128 .bf16) (W : FVec Ideal S128x256 .bf16) (p : Fin 2000) (j : Fin 256) :
    matmul dot_S2000x128_S128x256_S2000x256_1_0_0_1_n_n none Z W (constant S2000x256 .f32 0x00000000#32) (ix2 p j)
      = ∑ k : Fin 128, Z (ix2 p k) * W (ix2 k j) :=
  (Ideal.matmul_constant_zero_apply dot_S2000x128_S128x256_S2000x256_1_0_0_1_n_n none Z W (ix2 p j)).trans
    (sum_contr_eq_prod (M := 2000) (K := 128) (N := 256) dot_S2000x128_S128x256_S2000x256_1_0_0_1_n_n rfl rfl
      (fun _ _ => rfl) (fun i q => dot_S2000x128_S128x256_S2000x256_1_0_0_1_n_n.lhsIdx_val_of_single rfl i q)
      (fun i q => dot_S2000x128_S128x256_S2000x256_1_0_0_1_n_n.rhsIdx_val_of_single rfl i q) (fun _ _ => rfl) Z W (ix2 p j))

/-- The second product of a tile: `Σ_j a (p, j) · w (j, q)`. -/
theorem prod2_apply (Z : FVec Ideal S2000x256 .bf16) (W : FVec Ideal S256x256 .bf16) (p : Fin 2000) (q : Fin 256) :
    matmul dot_S2000x256_S256x256_S2000x256_1_0_0_1_n_n none Z W (constant S2000x256 .f32 0x00000000#32) (ix2 p q)
      = ∑ j : Fin 256, Z (ix2 p j) * W (ix2 j q) :=
  (Ideal.matmul_constant_zero_apply dot_S2000x256_S256x256_S2000x256_1_0_0_1_n_n none Z W (ix2 p q)).trans
    (sum_contr_eq_prod (M := 2000) (K := 256) (N := 256) dot_S2000x256_S256x256_S2000x256_1_0_0_1_n_n rfl rfl
      (fun _ _ => rfl) (fun i q => dot_S2000x256_S256x256_S2000x256_1_0_0_1_n_n.lhsIdx_val_of_single rfl i q)
      (fun i q => dot_S2000x256_S256x256_S2000x256_1_0_0_1_n_n.rhsIdx_val_of_single rfl i q) (fun _ _ => rfl) Z W (ix2 p q))

theorem rsqrt_apply {s : Shape} (x : FVec Ideal s .f32) (i : s.Idx) : rsqrt x i = Ideal.rsqrt (x i) := rfl

/-- Entry `(p, q)` of what the body stores in the output tile: the layer's row function of row `p` of the two
    feature tiles, the weights and the per-feature vectors. -/
theorem out_apply (x0 x1 : Vec Ideal S2000x128 .f32) (x2 : Vec Ideal S128x256 .bf16) (x3 : Vec Ideal S1x256 .f32)
    (x4 : Vec Ideal S256x256 .bf16) (x5 x6 x7 x8 x9 : Vec Ideal S1x256 .f32) (p : Fin 2000) (q : Fin 256) :
    out0_10 x0 x1 x2 x3 x4 x5 x6 x7 x8 x9 (ix2 p q)
      = layerRow false (fun k => x0 (ix2 p k)) (fun k => x1 (ix2 p k)) x2 (fun j => x3 (ix2 0 j)) x4
          (fun j => x5 (ix2 0 j)) (fun j => x6 (ix2 0 j)) (fun j => x7 (ix2 0 j)) (fun j => x8 (ix2 0 j))
          (fun j => x9 (ix2 0 j)) q := by
  unfold out0_10
  rw [View.canon_unit_zero hz]
  simp only [View.ld_unit_zero (S := S2000x128) hz, View.ld_unit_zero (S := S128x256) hz, View.ld_unit_zero (S := S1x256) hz,
    View.ld_unit_zero (S := S256x256) hz]
  unfold k0_pay1 k0_pay2
  simp only [shapeCast_self, select_apply, cmpf_apply, mulf_apply, addf_apply, subf_apply, broadcast_apply, truncf_apply,
    rsqrt_apply, rowStretch_apply, prod1_apply, prod2_apply]
  rfl

end Cert.KernelIdeal.Tile0

end
-- ==== Proof.KArr0.lean ====
/-
  Kernel region 0's output array after its 25 grid points: the whole layer (`Cert.Gin.layer`) of the arrays the
  region finds. Point `t` reads rows `2000 t … 2000 t + 1999` of the node features and of the neighbour sums and the
  whole of every weight and per-feature array, and writes back rows `2000 t … 2000 t + 1999` of the output; the 25
  tiles cover the 50000 rows, and the layer's row function of a tile's row is the layer's row of the whole arrays.
-/
import proofs.«180986_j63608465654042_1_alg».proof.Proof.KTile0

set_option maxRecDepth 16384

noncomputable section

namespace Cert.KernelIdeal.Arr0

open Cert.KernelIdeal Cert.KernelIdeal.Gen Idealize.ShloMosaic Idealize.ShloMosaic.TcCoe Idealize.ShloMosaic.ValueIdx Cert.Gin
open Idealize.ShloMosaic.Pipeline (Dat)

variable (V : (c : Dev nD) → (b : Ref sig .tc) → Buf (Elt Ideal) ((c : Thread nD τ).loc b))

/-- The layer of the arrays the region finds, the per-feature vectors read off their `1 × 256` arrays. -/
def G (c : Dev nD) : S50000x256.Idx → EReal :=
  layer (M := 50000) (K := 128) false (V c main_arg0 : S50000x128.Idx → EReal)
    (V c main_v9 : S50000x128.Idx → EReal)
    (V c main_v10 : S128x256.Idx → EReal)
    (fun j => (V c main_v12 : S1x256.Idx → EReal) (ix2 0 j))
    (V c main_v11 : S256x256.Idx → EReal)
    (fun j => (V c main_v13 : S1x256.Idx → EReal) (ix2 0 j))
    (fun j => (V c main_v14 : S1x256.Idx → EReal) (ix2 0 j))
    (fun j => (V c main_v15 : S1x256.Idx → EReal) (ix2 0 j))
    (fun j => (V c main_v16 : S1x256.Idx → EReal) (ix2 0 j))
    (fun j => (V c main_v17 : S1x256.Idx → EReal) (ix2 0 j))

/-- The printed index maps over the grid: the row tiles move with the point, every other block is block 0. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = t.val
    ∧ win0_10.index t (1 : Fin 2) = 0 :=
  (by decide +kernel : ∀ t : Fin grid0.N, _)

set_option maxHeartbeats 4000000 in
/-- What point `t` writes back is tile `t` of the layer of the region's arrays. -/
theorem flushed_eq (c : Dev nD) (t : Fin cfg0.N) :
    (dat0 (F := Ideal) V c).flushed 10 t = ((cfg0.win 10).blk t).view.read (Elt Ideal) (G V c) := by
  show (cfg0.win 10).cut (grid0.coords t) ((dat0 (F := Ideal) V c).after 10 t) = _
  rw [after0_10]
  obtain ⟨i0_0, i0_1, i1_0, i1_1, i2_0, i2_1, i3_0, i3_1, i4_0, i4_1, i5_0, i5_1, i6_0, i6_1, i7_0, i7_1, i8_0, i8_1, i9_0, i9_1, i10_0, i10_1⟩ := idx_facts t
  have ht : t.val < 25 := t.isLt
  have r0 : ∀ (p : Fin 2000) (k : Fin 128), iblk0 V c 0 t (ix2 p k) = (V c main_arg0 : S50000x128.Idx → EReal) (ix2 ⟨t.val * 2000 + p.val, by omega⟩ k) := fun p k => by
    show (V c main_arg0 : S50000x128.Idx → EReal) (((cfg0.win 0).blk t).view.emb (ix2 p k)) = _
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  have r1 : ∀ (p : Fin 2000) (k : Fin 128), iblk0 V c 1 t (ix2 p k) = (V c main_v9 : S50000x128.Idx → EReal) (ix2 ⟨t.val * 2000 + p.val, by omega⟩ k) := fun p k => by
    show (V c main_v9 : S50000x128.Idx → EReal) (((cfg0.win 1).blk t).view.emb (ix2 p k)) = _
    refine congrArg _ (funext fun a => Fin.ext ?_)
    match a with
    | ⟨0, _⟩ => show win0_1.index t (0 : Fin 2) * 2000 + 1 * p.val = t.val * 2000 + p.val; omega
    | ⟨1, _⟩ => show win0_1.index t (1 : Fin 2) * 128 + 1 * k.val = k.val; omega
  have r2 : ∀ (a : Fin 128) (b : Fin 256), iblk0 V c 2 t (ix2 a b) = (V c main_v10 : S128x256.Idx → EReal) (ix2 a b) := fun a b => by
    show (V c main_v10 : S128x256.Idx → EReal) (((cfg0.win 2).blk t).view.emb (ix2 a b)) = _
    refine congrArg _ (funext fun d => Fin.ext ?_)
    match d with
    | ⟨0, _⟩ => show win0_2.index t (0 : Fin 2) * 128 + 1 * a.val = a.val; omega
    | ⟨1, _⟩ => show win0_2.index t (1 : Fin 2) * 256 + 1 * b.val = b.val; omega
  have r3 : ∀ (a : Fin 1) (b : Fin 256), iblk0 V c 3 t (ix2 a b) = (V c main_v12 : S1x256.Idx → EReal) (ix2 a b) := fun a b => by
    show (V c main_v12 : S1x256.Idx → EReal) (((cfg0.win 3).blk t).view.emb (ix2 a b)) = _
    refine congrArg _ (funext fun d => Fin.ext ?_)
    match d with
    | ⟨0, _⟩ => show win0_3.index t (0 : Fin 2) * 1 + 1 * a.val = a.val; omega
    | ⟨1, _⟩ => show win0_3.index t (1 : Fin 2) * 256 + 1 * b.val = b.val; omega
  have r4 : ∀ (a : Fin 256) (b : Fin 256), iblk0 V c 4 t (ix2 a b) = (V c main_v11 : S256x256.Idx → EReal) (ix2 a b) := fun a b => by
    show (V c main_v11 : S256x256.Idx → EReal) (((cfg0.win 4).blk t).view.emb (ix2 a b)) = _
    refine congrArg _ (funext fun d => Fin.ext ?_)
    match d with
    | ⟨0, _⟩ => show win0_4.index t (0 : Fin 2) * 256 + 1 * a.val = a.val; omega
    | ⟨1, _⟩ => show win0_4.index t (1 : Fin 2) * 256 + 1 * b.val = b.val; omega
  have r5 : ∀ (a : Fin 1) (b : Fin 256), iblk0 V c 5 t (ix2 a b) = (V c main_v13 : S1x256.Idx → EReal) (ix2 a b) := fun a b => by
    show (V c main_v13 : S1x256.Idx → EReal) (((cfg0.win 5).blk t).view.emb (ix2 a b)) = _
    refine congrArg _ (funext fun d => Fin.ext ?_)
    match d with
    | ⟨0, _⟩ => show win0_5.index t (0 : Fin 2) * 1 + 1 * a.val = a.val; omega
    | ⟨1, _⟩ => show win0_5.index t (1 : Fin 2) * 256 + 1 * b.val = b.val; omega
  have r6 : ∀ (a : Fin 1) (b : Fin 256), iblk0 V c 6 t (ix2 a b) = (V c main_v14 : S1x256.Idx → EReal) (ix2 a b) := fun a b => by
    show (V c main_v14 : S1x256.Idx → EReal) (((cfg0.win 6).blk t).view.emb (ix2 a b)) = _
    refine congrArg _ (funext fun d => Fin.ext ?_)
    match d with
    | ⟨0, _⟩ => show win0_6.index t (0 : Fin 2) * 1 + 1 * a.val = a.val; omega
    | ⟨1, _⟩ => show win0_6.index t (1 : Fin 2) * 256 + 1 * b.val = b.val; omega
  have r7 : ∀ (a : Fin 1) (b : Fin 256), iblk0 V c 7 t (ix2 a b) = (V c main_v15 : S1x256.Idx → EReal) (ix2 a b) := fun a b => by
    show (V c main_v15 : S1x256.Idx → EReal) (((cfg0.win 7).blk t).view.emb (ix2 a b)) = _
    refine congrArg _ (funext fun d => Fin.ext ?_)
    match d with
    | ⟨0, _⟩ => show win0_7.index t (0 : Fin 2) * 1 + 1 * a.val = a.val; omega
    | ⟨1, _⟩ => show win0_7.index t (1 : Fin 2) * 256 + 1 * b.val = b.val; omega
  have r8 : ∀ (a : Fin 1) (b : Fin 256), iblk0 V c 8 t (ix2 a b) = (V c main_v16 : S1x256.Idx → EReal) (ix2 a b) := fun a b => by
    show (V c main_v16 : S1x256.Idx → EReal) (((cfg0.win 8).blk t).view.emb (ix2 a b)) = _
    refine congrArg _ (funext fun d => Fin.ext ?_)
    match d with
    | ⟨0, _⟩ => show win0_8.index t (0 : Fin 2) * 1 + 1 * a.val = a.val; omega
    | ⟨1, _⟩ => show win0_8.index t (1 : Fin 2) * 256 + 1 * b.val = b.val; omega
  have r9 : ∀ (a : Fin 1) (b : Fin 256), iblk0 V c 9 t (ix2 a b) = (V c main_v17 : S1x256.Idx → EReal) (ix2 a b) := fun a b => by
    show (V c main_v17 : S1x256.Idx → EReal) (((cfg0.win 9).blk t).view.emb (ix2 a b)) = _
    refine congrArg _ (funext fun d => Fin.ext ?_)
    match d with
    | ⟨0, _⟩ => show win0_9.index t (0 : Fin 2) * 1 + 1 * a.val = a.val; omega
    | ⟨1, _⟩ => show win0_9.index t (1 : Fin 2) * 256 + 1 * b.val = b.val; omega
  funext y
  obtain ⟨p, q, rfl⟩ : ∃ (p : Fin 2000) (q : Fin 256), y = ix2 p q := ⟨y 0, y 1, eq_ix2 y⟩
  have hE : ((cfg0.win 10).blk t).view.emb (ix2 p q) = (ix2 ⟨t.val * 2000 + p.val, by omega⟩ q : S50000x256.Idx) :=
    funext fun a => Fin.ext (by
      match a with
      | ⟨0, _⟩ => show win0_10.index t (0 : Fin 2) * 2000 + 1 * p.val = t.val * 2000 + p.val; omega
      | ⟨1, _⟩ => show win0_10.index t (1 : Fin 2) * 256 + 1 * q.val = q.val; omega)
  show out0_10 (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (ix2 p q)
    = G V c (((cfg0.win 10).blk t).view.emb (ix2 p q))
  refine (Tile0.out_apply (iblk0 V c 0 t) (iblk0 V c 1 t) (iblk0 V c 2 t) (iblk0 V c 3 t) (iblk0 V c 4 t)
    (iblk0 V c 5 t) (iblk0 V c 6 t) (iblk0 V c 7 t) (iblk0 V c 8 t) (iblk0 V c 9 t) p q).trans ?_
  rw [hE]
  have f2 : iblk0 V c 2 t = (V c main_v10 : S128x256.Idx → EReal) := funext fun y => (eq_ix2 y) ▸ r2 (y 0) (y 1)
  have f4 : iblk0 V c 4 t = (V c main_v11 : S256x256.Idx → EReal) := funext fun y => (eq_ix2 y) ▸ r4 (y 0) (y 1)
  simp only [r0, r1, r3, r5, r6, r7, r8, r9]
  rw [f2, f4]
  rfl

/-- An index of the output array is in point `t`'s tile iff each coordinate is in the tile's range on its axis. -/
theorem mem_blk (t : Fin cfg0.N) (i : S50000x256.Idx) :
    i ∈ ((cfg0.win 10).blk t).view.set ↔ ∀ a : Fin 2, win0_10.index t a * S2000x256.size a ≤ (i a).val
      ∧ (i a).val < win0_10.index t a * S2000x256.size a + S2000x256.size a := by
  show i ∈ ((View.whole main_v18).slice (win0_10.rect t)).set ↔ _
  rw [View.set_slice_whole, Rect.mem_set_unit]
  exact Iff.rfl

/-- Row `r` of the output is written back by point `r / 2000`. -/
theorem cover (i : S50000x256.Idx) :
    ∃ t : Fin cfg0.N, (cfg0.win 10).flush t = true ∧ i ∈ ((cfg0.win 10).blk t).view.set := by
  have hi0 : (i 0).val < 50000 := (i 0).isLt
  have hi1 : (i 1).val < 256 := (i 1).isLt
  have hlt : (i 0).val / 2000 < 25 := by omega
  refine ⟨⟨(i 0).val / 2000, hlt⟩, flush0_10 _, ?_⟩
  rw [mem_blk]
  obtain ⟨-, -, -, -, -, -, -, -, -, -, -, -, -, -, -, -, -, -, -, -, i10_0, i10_1⟩ := idx_facts ⟨(i 0).val / 2000, hlt⟩
  have e0 : win0_10.index ⟨(i 0).val / 2000, hlt⟩ (0 : Fin 2) = (i 0).val / 2000 := i10_0
  intro a
  match a with
  | ⟨0, _⟩ => show win0_10.index ⟨(i 0).val / 2000, hlt⟩ (0 : Fin 2) * 2000 ≤ (i 0).val
      ∧ (i 0).val < win0_10.index ⟨(i 0).val / 2000, hlt⟩ (0 : Fin 2) * 2000 + 2000; omega
  | ⟨1, _⟩ => show win0_10.index ⟨(i 0).val / 2000, hlt⟩ (1 : Fin 2) * 256 ≤ (i 1).val
      ∧ (i 1).val < win0_10.index ⟨(i 0).val / 2000, hlt⟩ (1 : Fin 2) * 256 + 256; omega

/-- The output array after the region: the layer of the arrays the region finds. -/
theorem arr_eq (c : Dev nD) : (dat0 (F := Ideal) V c).arrAt 10 cfg0.N = G V c :=
  (dat0 (F := Ideal) V c).arrAt_eq_of_cover 10 (G V c) (fun t _ => flushed_eq V c t) cover

end Cert.KernelIdeal.Arr0

end
-- ==== Proof.KTile1.lean ====
/-
  What one grid point of kernel region 1 leaves in its output tile, entry by entry: the layer's output row
  (`Cert.Gin.layerRow`) of the tile's own rows. The tile's 2000 rows are rows of the node features and of the
  neighbour sums; the weights and the per-feature vectors are whole in every tile. The two matrix products start from
  a zero accumulator, so each is the plain sum over the contracted axis; a change of float format is the identity on
  the extended reals.
-/
import proofs.«180986_j63608465654042_1_alg».proof.Proof.Gen.KernelIdeal.Frame
import proofs.«180986_j63608465654042_1_alg».proof.Proof.Spec
import proofs.«180986_j63608465654042_1_alg».proof.Proof.Rows
import Idealize.ShloMosaic.Lib.Pipeline.Value

set_option maxRecDepth 16384

noncomputable section

namespace Cert.KernelIdeal.Tile1

open Cert.KernelIdeal Cert.KernelIdeal.Gen Idealize.ShloMosaic Idealize.ShloMosaic.ValueIdx Cert.Gin Cert.Gin.Rows Cert.Gcn.Dense

theorem hz : (![0, 0] : Fin 2 → Nat) = fun _ => 0 := funext fun a => by fin_cases a <;> rfl

/-- The first product of a tile: `Σ_k z (p, k) · w (k, j)`. -/
theorem prod1_apply (Z : FVec Ideal S2000x256 .bf16) (W : FVec Ideal S256x256 .bf16) (p : Fin 2000) (j : Fin 256) :
    matmul dot_S2000x256_S256x256_S2000x256_1_0_0_1_n_n none Z W (constant S2000x256 .f32 0x00000000#32) (ix2 p j)
      = ∑ k : Fin 256, Z (ix2 p k) * W (ix2 k j) :=
  (Ideal.matmul_constant_zero_apply dot_S2000x256_S256x256_S2000x256_1_0_0_1_n_n none Z W (ix2 p j)).trans
    (sum_contr_eq_prod (M := 2000) (K := 256) (N := 256) dot_S2000x256_S256x256_S2000x256_1_0_0_1_n_n rfl rfl
      (fun _ _ => rfl) (fun i q => dot_S2000x256_S256x256_S2000x256_1_0_0_1_n_n.lhsIdx_val_of_single rfl i q)
      (fun i q => dot_S2000x256_S256x256_S2000x256_1_0_0_1_n_n.rhsIdx_val_of_single rfl i q) (fun _ _ => rfl) Z W (ix2 p j))

/-- The second product of a tile: `Σ_j a (p, j) · w (j, q)`. -/
theorem prod2_apply (Z : FVec Ideal S2000x256 .bf16) (W : FVec Ideal S256x256 .bf16) (p : Fin 2000) (q : Fin 256) :
    matmul dot_S2000x256_S256x256_S2000x256_1_0_0_1_n_n none Z W (constant S2000x256 .f32 0x00000000#32) (ix2 p q)
      = ∑ j : Fin 256, Z (ix2 p j) * W (ix2 j q) :=
  (Ideal.matmul_constant_zero_apply dot_S2000x256_S256x256_S2000x256_1_0_0_1_n_n none Z W (ix2 p q)).trans
    (sum_contr_eq_prod (M := 2000) (K := 256) (N := 256) dot_S2000x256_S256x256_S2000x256_1_0_0_1_n_n rfl rfl
      (fun _ _ => rfl) (fun i q => dot_S2000x256_S256x256_S2000x256_1_0_0_1_n_n.lhsIdx_val_of_single rfl i q)
      (fun i q => dot_S2000x256_S256x256_S2000x256_1_0_0_1_n_n.rhsIdx_val_of_single rfl i q) (fun _ _ => rfl) Z W (ix2 p q))

theorem rsqrt_apply {s : Shape} (x : FVec Ideal s .f32) (i : s.Idx) : rsqrt x i = Ideal.rsqrt (x i) := rfl

/-- Entry `(p, q)` of what the body stores in the output tile: the layer's row function of row `p` of the two
    feature tiles, the weights and the per-feature vectors. -/
theorem out_apply (x0 x1 : Vec Ideal S2000x256 .f32) (x2 : Vec Ideal S256x256 .bf16) (x3 : Vec Ideal S1x256 .f32)
    (x4 : Vec Ideal S256x256 .bf16) (x5 x6 x7 x8 x9 : Vec Ideal S1x256 .f32) (p : Fin 2000) (q : Fin 256) :
    out1_10 x0 x1 x2 x3 x4 x5 x6 x7 x8 x9 (ix2 p q)
      = layerRow false (fun k => x0 (ix2 p k)) (fun k => x1 (ix2 p k)) x2 (fun j => x3 (ix2 0 j)) x4
          (fun j => x5 (ix2 0 j)) (fun j => x6 (ix2 0 j)) (fun j => x7 (ix2 0 j)) (fun j => x8 (ix2 0 j))
          (fun j => x9 (ix2 0 j)) q := by
  unfold out1_10
  rw [View.canon_unit_zero hz]
  simp only [View.ld_unit_zero (S := S2000x256) hz, View.ld_unit_zero (S := S256x256) hz, View.ld_unit_zero (S := S1x256) hz,
    View.ld_unit_zero (S := S256x256) hz]
  unfold k1_pay1 k1_pay2
  simp only [shapeCast_self, select_apply, cmpf_apply, mulf_apply, addf_apply, subf_apply, broadcast_apply, truncf_apply,
    rsqrt_apply, rowStretch_apply, prod1_apply, prod2_apply]
  rfl

end Cert.KernelIdeal.Tile1

end
-- ==== Proof.KArr1.lean ====
/-
  Kernel region 1's output array after its 25 grid points: the whole layer (`Cert.Gin.layer`) of the arrays the
  region finds. Point `t` reads rows `2000 t … 2000 t + 1999` of the node features and of the neighbour sums and the
  whole of every weight and per-feature array, and writes back rows `2000 t … 2000 t + 1999` of the output; the 25
  tiles cover the 50000 rows, and the layer's row function of a tile's row is the layer's row of the whole arrays.
-/
import proofs.«180986_j63608465654042_1_alg».proof.Proof.KTile1

set_option maxRecDepth 16384

noncomputable section

namespace Cert.KernelIdeal.Arr1

open Cert.KernelIdeal Cert.KernelIdeal.Gen Idealize.ShloMosaic Idealize.ShloMosaic.TcCoe Idealize.ShloMosaic.ValueIdx Cert.Gin
open Idealize.ShloMosaic.Pipeline (Dat)

variable (V : (c : Dev nD) → (b : Ref sig .tc) → Buf (Elt Ideal) ((c : Thread nD τ).loc b))

/-- The layer of the arrays the region finds, the per-feature vectors read off their `1 × 256` arrays. -/
def G (c : Dev nD) : S50000x256.Idx → EReal :=
  layer (M := 50000) (K := 256) false (V c main_v18 : S50000x256.Idx → EReal)
    (V c main_v28 : S50000x256.Idx → EReal)
    (V c main_v45 : S256x256.Idx → EReal)
    (fun j => (V c main_v47 : S1x256.Idx → EReal) (ix2 0 j))
    (V c main_v46 : S256x256.Idx → EReal)
    (fun j => (V c main_v48 : S1x256.Idx → EReal) (ix2 0 j))
    (fun j => (V c main_v49 : S1x256.Idx → EReal) (ix2 0 j))
    (fun j => (V c main_v50 : S1x256.Idx → EReal) (ix2 0 j))
    (fun j => (V c main_v51 : S1x256.Idx → EReal) (ix2 0 j))
    (fun j => (V c main_v52 : S1x256.Idx → EReal) (ix2 0 j))

/-- The printed index maps over the grid: the row tiles move with the point, every other block is block 0. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = t.val
    ∧ win1_10.index t (1 : Fin 2) = 0 :=
  (by decide +kernel : ∀ t : Fin grid1.N, _)

set_option maxHeartbeats 4000000 in
/-- What point `t` writes back is tile `t` of the layer of the region's arrays. -/
theorem flushed_eq (c : Dev nD) (t : Fin cfg1.N) :
    (dat1 (F := Ideal) V c).flushed 10 t = ((cfg1.win 10).blk t).view.read (Elt Ideal) (G V c) := by
  show (cfg1.win 10).cut (grid1.coords t) ((dat1 (F := Ideal) V c).after 10 t) = _
  rw [after1_10]
  obtain ⟨i0_0, i0_1, i1_0, i1_1, i2_0, i2_1, i3_0, i3_1, i4_0, i4_1, i5_0, i5_1, i6_0, i6_1, i7_0, i7_1, i8_0, i8_1, i9_0, i9_1, i10_0, i10_1⟩ := idx_facts t
  have ht : t.val < 25 := t.isLt
  have r0 : ∀ (p : Fin 2000) (k : Fin 256), iblk1 V c 0 t (ix2 p k) = (V c main_v18 : S50000x256.Idx → EReal) (ix2 ⟨t.val * 2000 + p.val, by omega⟩ k) := fun p k => by
    show (V c main_v18 : S50000x256.Idx → EReal) (((cfg1.win 0).blk t).view.emb (ix2 p k)) = _
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 256 + 1 * k.val = k.val; omega
  have r1 : ∀ (p : Fin 2000) (k : Fin 256), iblk1 V c 1 t (ix2 p k) = (V c main_v28 : S50000x256.Idx → EReal) (ix2 ⟨t.val * 2000 + p.val, by omega⟩ k) := fun p k => by
    show (V c main_v28 : S50000x256.Idx → EReal) (((cfg1.win 1).blk t).view.emb (ix2 p k)) = _
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 256 + 1 * k.val = k.val; omega
  have r2 : ∀ (a : Fin 256) (b : Fin 256), iblk1 V c 2 t (ix2 a b) = (V c main_v45 : S256x256.Idx → EReal) (ix2 a b) := fun a b => by
    show (V c main_v45 : S256x256.Idx → EReal) (((cfg1.win 2).blk t).view.emb (ix2 a b)) = _
    refine congrArg _ (funext fun d => Fin.ext ?_)
    match d with
    | ⟨0, _⟩ => show win1_2.index t (0 : Fin 2) * 256 + 1 * a.val = a.val; omega
    | ⟨1, _⟩ => show win1_2.index t (1 : Fin 2) * 256 + 1 * b.val = b.val; omega
  have r3 : ∀ (a : Fin 1) (b : Fin 256), iblk1 V c 3 t (ix2 a b) = (V c main_v47 : S1x256.Idx → EReal) (ix2 a b) := fun a b => by
    show (V c main_v47 : S1x256.Idx → EReal) (((cfg1.win 3).blk t).view.emb (ix2 a b)) = _
    refine congrArg _ (funext fun d => Fin.ext ?_)
    match d with
    | ⟨0, _⟩ => show win1_3.index t (0 : Fin 2) * 1 + 1 * a.val = a.val; omega
    | ⟨1, _⟩ => show win1_3.index t (1 : Fin 2) * 256 + 1 * b.val = b.val; omega
  have r4 : ∀ (a : Fin 256) (b : Fin 256), iblk1 V c 4 t (ix2 a b) = (V c main_v46 : S256x256.Idx → EReal) (ix2 a b) := fun a b => by
    show (V c main_v46 : S256x256.Idx → EReal) (((cfg1.win 4).blk t).view.emb (ix2 a b)) = _
    refine congrArg _ (funext fun d => Fin.ext ?_)
    match d with
    | ⟨0, _⟩ => show win1_4.index t (0 : Fin 2) * 256 + 1 * a.val = a.val; omega
    | ⟨1, _⟩ => show win1_4.index t (1 : Fin 2) * 256 + 1 * b.val = b.val; omega
  have r5 : ∀ (a : Fin 1) (b : Fin 256), iblk1 V c 5 t (ix2 a b) = (V c main_v48 : S1x256.Idx → EReal) (ix2 a b) := fun a b => by
    show (V c main_v48 : S1x256.Idx → EReal) (((cfg1.win 5).blk t).view.emb (ix2 a b)) = _
    refine congrArg _ (funext fun d => Fin.ext ?_)
    match d with
    | ⟨0, _⟩ => show win1_5.index t (0 : Fin 2) * 1 + 1 * a.val = a.val; omega
    | ⟨1, _⟩ => show win1_5.index t (1 : Fin 2) * 256 + 1 * b.val = b.val; omega
  have r6 : ∀ (a : Fin 1) (b : Fin 256), iblk1 V c 6 t (ix2 a b) = (V c main_v49 : S1x256.Idx → EReal) (ix2 a b) := fun a b => by
    show (V c main_v49 : S1x256.Idx → EReal) (((cfg1.win 6).blk t).view.emb (ix2 a b)) = _
    refine congrArg _ (funext fun d => Fin.ext ?_)
    match d with
    | ⟨0, _⟩ => show win1_6.index t (0 : Fin 2) * 1 + 1 * a.val = a.val; omega
    | ⟨1, _⟩ => show win1_6.index t (1 : Fin 2) * 256 + 1 * b.val = b.val; omega
  have r7 : ∀ (a : Fin 1) (b : Fin 256), iblk1 V c 7 t (ix2 a b) = (V c main_v50 : S1x256.Idx → EReal) (ix2 a b) := fun a b => by
    show (V c main_v50 : S1x256.Idx → EReal) (((cfg1.win 7).blk t).view.emb (ix2 a b)) = _
    refine congrArg _ (funext fun d => Fin.ext ?_)
    match d with
    | ⟨0, _⟩ => show win1_7.index t (0 : Fin 2) * 1 + 1 * a.val = a.val; omega
    | ⟨1, _⟩ => show win1_7.index t (1 : Fin 2) * 256 + 1 * b.val = b.val; omega
  have r8 : ∀ (a : Fin 1) (b : Fin 256), iblk1 V c 8 t (ix2 a b) = (V c main_v51 : S1x256.Idx → EReal) (ix2 a b) := fun a b => by
    show (V c main_v51 : S1x256.Idx → EReal) (((cfg1.win 8).blk t).view.emb (ix2 a b)) = _
    refine congrArg _ (funext fun d => Fin.ext ?_)
    match d with
    | ⟨0, _⟩ => show win1_8.index t (0 : Fin 2) * 1 + 1 * a.val = a.val; omega
    | ⟨1, _⟩ => show win1_8.index t (1 : Fin 2) * 256 + 1 * b.val = b.val; omega
  have r9 : ∀ (a : Fin 1) (b : Fin 256), iblk1 V c 9 t (ix2 a b) = (V c main_v52 : S1x256.Idx → EReal) (ix2 a b) := fun a b => by
    show (V c main_v52 : S1x256.Idx → EReal) (((cfg1.win 9).blk t).view.emb (ix2 a b)) = _
    refine congrArg _ (funext fun d => Fin.ext ?_)
    match d with
    | ⟨0, _⟩ => show win1_9.index t (0 : Fin 2) * 1 + 1 * a.val = a.val; omega
    | ⟨1, _⟩ => show win1_9.index t (1 : Fin 2) * 256 + 1 * b.val = b.val; omega
  funext y
  obtain ⟨p, q, rfl⟩ : ∃ (p : Fin 2000) (q : Fin 256), y = ix2 p q := ⟨y 0, y 1, eq_ix2 y⟩
  have hE : ((cfg1.win 10).blk t).view.emb (ix2 p q) = (ix2 ⟨t.val * 2000 + p.val, by omega⟩ q : S50000x256.Idx) :=
    funext fun a => Fin.ext (by
      match a with
      | ⟨0, _⟩ => show win1_10.index t (0 : Fin 2) * 2000 + 1 * p.val = t.val * 2000 + p.val; omega
      | ⟨1, _⟩ => show win1_10.index t (1 : Fin 2) * 256 + 1 * q.val = q.val; omega)
  show out1_10 (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) (ix2 p q)
    = G V c (((cfg1.win 10).blk t).view.emb (ix2 p q))
  refine (Tile1.out_apply (iblk1 V c 0 t) (iblk1 V c 1 t) (iblk1 V c 2 t) (iblk1 V c 3 t) (iblk1 V c 4 t)
    (iblk1 V c 5 t) (iblk1 V c 6 t) (iblk1 V c 7 t) (iblk1 V c 8 t) (iblk1 V c 9 t) p q).trans ?_
  rw [hE]
  have f2 : iblk1 V c 2 t = (V c main_v45 : S256x256.Idx → EReal) := funext fun y => (eq_ix2 y) ▸ r2 (y 0) (y 1)
  have f4 : iblk1 V c 4 t = (V c main_v46 : S256x256.Idx → EReal) := funext fun y => (eq_ix2 y) ▸ r4 (y 0) (y 1)
  simp only [r0, r1, r3, r5, r6, r7, r8, r9]
  rw [f2, f4]
  rfl

/-- An index of the output array is in point `t`'s tile iff each coordinate is in the tile's range on its axis. -/
theorem mem_blk (t : Fin cfg1.N) (i : S50000x256.Idx) :
    i ∈ ((cfg1.win 10).blk t).view.set ↔ ∀ a : Fin 2, win1_10.index t a * S2000x256.size a ≤ (i a).val
      ∧ (i a).val < win1_10.index t a * S2000x256.size a + S2000x256.size a := by
  show i ∈ ((View.whole main_v53).slice (win1_10.rect t)).set ↔ _
  rw [View.set_slice_whole, Rect.mem_set_unit]
  exact Iff.rfl

/-- Row `r` of the output is written back by point `r / 2000`. -/
theorem cover (i : S50000x256.Idx) :
    ∃ t : Fin cfg1.N, (cfg1.win 10).flush t = true ∧ i ∈ ((cfg1.win 10).blk t).view.set := by
  have hi0 : (i 0).val < 50000 := (i 0).isLt
  have hi1 : (i 1).val < 256 := (i 1).isLt
  have hlt : (i 0).val / 2000 < 25 := by omega
  refine ⟨⟨(i 0).val / 2000, hlt⟩, flush1_10 _, ?_⟩
  rw [mem_blk]
  obtain ⟨-, -, -, -, -, -, -, -, -, -, -, -, -, -, -, -, -, -, -, -, i10_0, i10_1⟩ := idx_facts ⟨(i 0).val / 2000, hlt⟩
  have e0 : win1_10.index ⟨(i 0).val / 2000, hlt⟩ (0 : Fin 2) = (i 0).val / 2000 := i10_0
  intro a
  match a with
  | ⟨0, _⟩ => show win1_10.index ⟨(i 0).val / 2000, hlt⟩ (0 : Fin 2) * 2000 ≤ (i 0).val
      ∧ (i 0).val < win1_10.index ⟨(i 0).val / 2000, hlt⟩ (0 : Fin 2) * 2000 + 2000; omega
  | ⟨1, _⟩ => show win1_10.index ⟨(i 0).val / 2000, hlt⟩ (1 : Fin 2) * 256 ≤ (i 1).val
      ∧ (i 1).val < win1_10.index ⟨(i 0).val / 2000, hlt⟩ (1 : Fin 2) * 256 + 256; omega

/-- The output array after the region: the layer of the arrays the region finds. -/
theorem arr_eq (c : Dev nD) : (dat1 (F := Ideal) V c).arrAt 10 cfg1.N = G V c :=
  (dat1 (F := Ideal) V c).arrAt_eq_of_cover 10 (G V c) (fun t _ => flushed_eq V c t) cover

end Cert.KernelIdeal.Arr1

end
-- ==== Proof.KTile2.lean ====
/-
  What one grid point of kernel region 2 leaves in its output tile, entry by entry: the layer's output row
  (`Cert.Gin.layerRow`) of the tile's own rows. The tile's 2000 rows are rows of the node features and of the
  neighbour sums; the weights and the per-feature vectors are whole in every tile. The two matrix products start from
  a zero accumulator, so each is the plain sum over the contracted axis; a change of float format is the identity on
  the extended reals.
-/
import proofs.«180986_j63608465654042_1_alg».proof.Proof.Gen.KernelIdeal.Frame
import proofs.«180986_j63608465654042_1_alg».proof.Proof.Spec
import proofs.«180986_j63608465654042_1_alg».proof.Proof.Rows
import Idealize.ShloMosaic.Lib.Pipeline.Value

set_option maxRecDepth 16384

noncomputable section

namespace Cert.KernelIdeal.Tile2

open Cert.KernelIdeal Cert.KernelIdeal.Gen Idealize.ShloMosaic Idealize.ShloMosaic.ValueIdx Cert.Gin Cert.Gin.Rows Cert.Gcn.Dense

theorem hz : (![0, 0] : Fin 2 → Nat) = fun _ => 0 := funext fun a => by fin_cases a <;> rfl

/-- The first product of a tile: `Σ_k z (p, k) · w (k, j)`. -/
theorem prod1_apply (Z : FVec Ideal S2000x256 .bf16) (W : FVec Ideal S256x256 .bf16) (p : Fin 2000) (j : Fin 256) :
    matmul dot_S2000x256_S256x256_S2000x256_1_0_0_1_n_n none Z W (constant S2000x256 .f32 0x00000000#32) (ix2 p j)
      = ∑ k : Fin 256, Z (ix2 p k) * W (ix2 k j) :=
  (Ideal.matmul_constant_zero_apply dot_S2000x256_S256x256_S2000x256_1_0_0_1_n_n none Z W (ix2 p j)).trans
    (sum_contr_eq_prod (M := 2000) (K := 256) (N := 256) dot_S2000x256_S256x256_S2000x256_1_0_0_1_n_n rfl rfl
      (fun _ _ => rfl) (fun i q => dot_S2000x256_S256x256_S2000x256_1_0_0_1_n_n.lhsIdx_val_of_single rfl i q)
      (fun i q => dot_S2000x256_S256x256_S2000x256_1_0_0_1_n_n.rhsIdx_val_of_single rfl i q) (fun _ _ => rfl) Z W (ix2 p j))

/-- The second product of a tile: `Σ_j a (p, j) · w (j, q)`. -/
theorem prod2_apply (Z : FVec Ideal S2000x256 .bf16) (W : FVec Ideal S256x256 .bf16) (p : Fin 2000) (q : Fin 256) :
    matmul dot_S2000x256_S256x256_S2000x256_1_0_0_1_n_n none Z W (constant S2000x256 .f32 0x00000000#32) (ix2 p q)
      = ∑ j : Fin 256, Z (ix2 p j) * W (ix2 j q) :=
  (Ideal.matmul_constant_zero_apply dot_S2000x256_S256x256_S2000x256_1_0_0_1_n_n none Z W (ix2 p q)).trans
    (sum_contr_eq_prod (M := 2000) (K := 256) (N := 256) dot_S2000x256_S256x256_S2000x256_1_0_0_1_n_n rfl rfl
      (fun _ _ => rfl) (fun i q => dot_S2000x256_S256x256_S2000x256_1_0_0_1_n_n.lhsIdx_val_of_single rfl i q)
      (fun i q => dot_S2000x256_S256x256_S2000x256_1_0_0_1_n_n.rhsIdx_val_of_single rfl i q) (fun _ _ => rfl) Z W (ix2 p q))

theorem rsqrt_apply {s : Shape} (x : FVec Ideal s .f32) (i : s.Idx) : rsqrt x i = Ideal.rsqrt (x i) := rfl

/-- Entry `(p, q)` of what the body stores in the output tile: the layer's row function of row `p` of the two
    feature tiles, the weights and the per-feature vectors. -/
theorem out_apply (x0 x1 : Vec Ideal S2000x256 .f32) (x2 : Vec Ideal S256x256 .bf16) (x3 : Vec Ideal S1x256 .f32)
    (x4 : Vec Ideal S256x256 .bf16) (x5 x6 x7 x8 x9 : Vec Ideal S1x256 .f32) (p : Fin 2000) (q : Fin 256) :
    out2_10 x0 x1 x2 x3 x4 x5 x6 x7 x8 x9 (ix2 p q)
      = layerRow true (fun k => x0 (ix2 p k)) (fun k => x1 (ix2 p k)) x2 (fun j => x3 (ix2 0 j)) x4
          (fun j => x5 (ix2 0 j)) (fun j => x6 (ix2 0 j)) (fun j => x7 (ix2 0 j)) (fun j => x8 (ix2 0 j))
          (fun j => x9 (ix2 0 j)) q := by
  unfold out2_10
  rw [View.canon_unit_zero hz]
  simp only [View.ld_unit_zero (S := S2000x256) hz, View.ld_unit_zero (S := S256x256) hz, View.ld_unit_zero (S := S1x256) hz,
    View.ld_unit_zero (S := S256x256) hz]
  unfold k2_pay1 k2_pay2
  simp only [shapeCast_self, select_apply, cmpf_apply, mulf_apply, addf_apply, subf_apply, broadcast_apply, truncf_apply,
    rsqrt_apply, rowStretch_apply, prod1_apply, prod2_apply]
  rfl

end Cert.KernelIdeal.Tile2

end
-- ==== Proof.KArr2.lean ====
/-
  Kernel region 2's output array after its 25 grid points: the whole layer (`Cert.Gin.layer`) of the arrays the
  region finds. Point `t` reads rows `2000 t … 2000 t + 1999` of the node features and of the neighbour sums and the
  whole of every weight and per-feature array, and writes back rows `2000 t … 2000 t + 1999` of the output; the 25
  tiles cover the 50000 rows, and the layer's row function of a tile's row is the layer's row of the whole arrays.
-/
import proofs.«180986_j63608465654042_1_alg».proof.Proof.KTile2

set_option maxRecDepth 16384

noncomputable section

namespace Cert.KernelIdeal.Arr2

open Cert.KernelIdeal Cert.KernelIdeal.Gen Idealize.ShloMosaic Idealize.ShloMosaic.TcCoe Idealize.ShloMosaic.ValueIdx Cert.Gin
open Idealize.ShloMosaic.Pipeline (Dat)

variable (V : (c : Dev nD) → (b : Ref sig .tc) → Buf (Elt Ideal) ((c : Thread nD τ).loc b))

/-- The layer of the arrays the region finds, the per-feature vectors read off their `1 × 256` arrays. -/
def G (c : Dev nD) : S50000x256.Idx → EReal :=
  layer (M := 50000) (K := 256) true (V c main_v53 : S50000x256.Idx → EReal)
    (V c main_v63 : S50000x256.Idx → EReal)
    (V c main_v80 : S256x256.Idx → EReal)
    (fun j => (V c main_v82 : S1x256.Idx → EReal) (ix2 0 j))
    (V c main_v81 : S256x256.Idx → EReal)
    (fun j => (V c main_v83 : S1x256.Idx → EReal) (ix2 0 j))
    (fun j => (V c main_v84 : S1x256.Idx → EReal) (ix2 0 j))
    (fun j => (V c main_v85 : S1x256.Idx → EReal) (ix2 0 j))
    (fun j => (V c main_v86 : S1x256.Idx → EReal) (ix2 0 j))
    (fun j => (V c main_v87 : S1x256.Idx → EReal) (ix2 0 j))

/-- The printed index maps over the grid: the row tiles move with the point, every other block is block 0. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = t.val
    ∧ win2_10.index t (1 : Fin 2) = 0 :=
  (by decide +kernel : ∀ t : Fin grid2.N, _)

set_option maxHeartbeats 4000000 in
/-- What point `t` writes back is tile `t` of the layer of the region's arrays. -/
theorem flushed_eq (c : Dev nD) (t : Fin cfg2.N) :
    (dat2 (F := Ideal) V c).flushed 10 t = ((cfg2.win 10).blk t).view.read (Elt Ideal) (G V c) := by
  show (cfg2.win 10).cut (grid2.coords t) ((dat2 (F := Ideal) V c).after 10 t) = _
  rw [after2_10]
  obtain ⟨i0_0, i0_1, i1_0, i1_1, i2_0, i2_1, i3_0, i3_1, i4_0, i4_1, i5_0, i5_1, i6_0, i6_1, i7_0, i7_1, i8_0, i8_1, i9_0, i9_1, i10_0, i10_1⟩ := idx_facts t
  have ht : t.val < 25 := t.isLt
  have r0 : ∀ (p : Fin 2000) (k : Fin 256), iblk2 V c 0 t (ix2 p k) = (V c main_v53 : S50000x256.Idx → EReal) (ix2 ⟨t.val * 2000 + p.val, by omega⟩ k) := fun p k => by
    show (V c main_v53 : S50000x256.Idx → EReal) (((cfg2.win 0).blk t).view.emb (ix2 p k)) = _
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 256 + 1 * k.val = k.val; omega
  have r1 : ∀ (p : Fin 2000) (k : Fin 256), iblk2 V c 1 t (ix2 p k) = (V c main_v63 : S50000x256.Idx → EReal) (ix2 ⟨t.val * 2000 + p.val, by omega⟩ k) := fun p k => by
    show (V c main_v63 : S50000x256.Idx → EReal) (((cfg2.win 1).blk t).view.emb (ix2 p k)) = _
    refine congrArg _ (funext fun a => Fin.ext ?_)
    match a with
    | ⟨0, _⟩ => show win2_1.index t (0 : Fin 2) * 2000 + 1 * p.val = t.val * 2000 + p.val; omega
    | ⟨1, _⟩ => show win2_1.index t (1 : Fin 2) * 256 + 1 * k.val = k.val; omega
  have r2 : ∀ (a : Fin 256) (b : Fin 256), iblk2 V c 2 t (ix2 a b) = (V c main_v80 : S256x256.Idx → EReal) (ix2 a b) := fun a b => by
    show (V c main_v80 : S256x256.Idx → EReal) (((cfg2.win 2).blk t).view.emb (ix2 a b)) = _
    refine congrArg _ (funext fun d => Fin.ext ?_)
    match d with
    | ⟨0, _⟩ => show win2_2.index t (0 : Fin 2) * 256 + 1 * a.val = a.val; omega
    | ⟨1, _⟩ => show win2_2.index t (1 : Fin 2) * 256 + 1 * b.val = b.val; omega
  have r3 : ∀ (a : Fin 1) (b : Fin 256), iblk2 V c 3 t (ix2 a b) = (V c main_v82 : S1x256.Idx → EReal) (ix2 a b) := fun a b => by
    show (V c main_v82 : S1x256.Idx → EReal) (((cfg2.win 3).blk t).view.emb (ix2 a b)) = _
    refine congrArg _ (funext fun d => Fin.ext ?_)
    match d with
    | ⟨0, _⟩ => show win2_3.index t (0 : Fin 2) * 1 + 1 * a.val = a.val; omega
    | ⟨1, _⟩ => show win2_3.index t (1 : Fin 2) * 256 + 1 * b.val = b.val; omega
  have r4 : ∀ (a : Fin 256) (b : Fin 256), iblk2 V c 4 t (ix2 a b) = (V c main_v81 : S256x256.Idx → EReal) (ix2 a b) := fun a b => by
    show (V c main_v81 : S256x256.Idx → EReal) (((cfg2.win 4).blk t).view.emb (ix2 a b)) = _
    refine congrArg _ (funext fun d => Fin.ext ?_)
    match d with
    | ⟨0, _⟩ => show win2_4.index t (0 : Fin 2) * 256 + 1 * a.val = a.val; omega
    | ⟨1, _⟩ => show win2_4.index t (1 : Fin 2) * 256 + 1 * b.val = b.val; omega
  have r5 : ∀ (a : Fin 1) (b : Fin 256), iblk2 V c 5 t (ix2 a b) = (V c main_v83 : S1x256.Idx → EReal) (ix2 a b) := fun a b => by
    show (V c main_v83 : S1x256.Idx → EReal) (((cfg2.win 5).blk t).view.emb (ix2 a b)) = _
    refine congrArg _ (funext fun d => Fin.ext ?_)
    match d with
    | ⟨0, _⟩ => show win2_5.index t (0 : Fin 2) * 1 + 1 * a.val = a.val; omega
    | ⟨1, _⟩ => show win2_5.index t (1 : Fin 2) * 256 + 1 * b.val = b.val; omega
  have r6 : ∀ (a : Fin 1) (b : Fin 256), iblk2 V c 6 t (ix2 a b) = (V c main_v84 : S1x256.Idx → EReal) (ix2 a b) := fun a b => by
    show (V c main_v84 : S1x256.Idx → EReal) (((cfg2.win 6).blk t).view.emb (ix2 a b)) = _
    refine congrArg _ (funext fun d => Fin.ext ?_)
    match d with
    | ⟨0, _⟩ => show win2_6.index t (0 : Fin 2) * 1 + 1 * a.val = a.val; omega
    | ⟨1, _⟩ => show win2_6.index t (1 : Fin 2) * 256 + 1 * b.val = b.val; omega
  have r7 : ∀ (a : Fin 1) (b : Fin 256), iblk2 V c 7 t (ix2 a b) = (V c main_v85 : S1x256.Idx → EReal) (ix2 a b) := fun a b => by
    show (V c main_v85 : S1x256.Idx → EReal) (((cfg2.win 7).blk t).view.emb (ix2 a b)) = _
    refine congrArg _ (funext fun d => Fin.ext ?_)
    match d with
    | ⟨0, _⟩ => show win2_7.index t (0 : Fin 2) * 1 + 1 * a.val = a.val; omega
    | ⟨1, _⟩ => show win2_7.index t (1 : Fin 2) * 256 + 1 * b.val = b.val; omega
  have r8 : ∀ (a : Fin 1) (b : Fin 256), iblk2 V c 8 t (ix2 a b) = (V c main_v86 : S1x256.Idx → EReal) (ix2 a b) := fun a b => by
    show (V c main_v86 : S1x256.Idx → EReal) (((cfg2.win 8).blk t).view.emb (ix2 a b)) = _
    refine congrArg _ (funext fun d => Fin.ext ?_)
    match d with
    | ⟨0, _⟩ => show win2_8.index t (0 : Fin 2) * 1 + 1 * a.val = a.val; omega
    | ⟨1, _⟩ => show win2_8.index t (1 : Fin 2) * 256 + 1 * b.val = b.val; omega
  have r9 : ∀ (a : Fin 1) (b : Fin 256), iblk2 V c 9 t (ix2 a b) = (V c main_v87 : S1x256.Idx → EReal) (ix2 a b) := fun a b => by
    show (V c main_v87 : S1x256.Idx → EReal) (((cfg2.win 9).blk t).view.emb (ix2 a b)) = _
    refine congrArg _ (funext fun d => Fin.ext ?_)
    match d with
    | ⟨0, _⟩ => show win2_9.index t (0 : Fin 2) * 1 + 1 * a.val = a.val; omega
    | ⟨1, _⟩ => show win2_9.index t (1 : Fin 2) * 256 + 1 * b.val = b.val; omega
  funext y
  obtain ⟨p, q, rfl⟩ : ∃ (p : Fin 2000) (q : Fin 256), y = ix2 p q := ⟨y 0, y 1, eq_ix2 y⟩
  have hE : ((cfg2.win 10).blk t).view.emb (ix2 p q) = (ix2 ⟨t.val * 2000 + p.val, by omega⟩ q : S50000x256.Idx) :=
    funext fun a => Fin.ext (by
      match a with
      | ⟨0, _⟩ => show win2_10.index t (0 : Fin 2) * 2000 + 1 * p.val = t.val * 2000 + p.val; omega
      | ⟨1, _⟩ => show win2_10.index t (1 : Fin 2) * 256 + 1 * q.val = q.val; omega)
  show out2_10 (iblk2 V c 0 t) (iblk2 V c 1 t) (iblk2 V c 2 t) (iblk2 V c 3 t) (iblk2 V c 4 t) (iblk2 V c 5 t)
      (iblk2 V c 6 t) (iblk2 V c 7 t) (iblk2 V c 8 t) (iblk2 V c 9 t) (ix2 p q)
    = G V c (((cfg2.win 10).blk t).view.emb (ix2 p q))
  refine (Tile2.out_apply (iblk2 V c 0 t) (iblk2 V c 1 t) (iblk2 V c 2 t) (iblk2 V c 3 t) (iblk2 V c 4 t)
    (iblk2 V c 5 t) (iblk2 V c 6 t) (iblk2 V c 7 t) (iblk2 V c 8 t) (iblk2 V c 9 t) p q).trans ?_
  rw [hE]
  have f2 : iblk2 V c 2 t = (V c main_v80 : S256x256.Idx → EReal) := funext fun y => (eq_ix2 y) ▸ r2 (y 0) (y 1)
  have f4 : iblk2 V c 4 t = (V c main_v81 : S256x256.Idx → EReal) := funext fun y => (eq_ix2 y) ▸ r4 (y 0) (y 1)
  simp only [r0, r1, r3, r5, r6, r7, r8, r9]
  rw [f2, f4]
  rfl

/-- An index of the output array is in point `t`'s tile iff each coordinate is in the tile's range on its axis. -/
theorem mem_blk (t : Fin cfg2.N) (i : S50000x256.Idx) :
    i ∈ ((cfg2.win 10).blk t).view.set ↔ ∀ a : Fin 2, win2_10.index t a * S2000x256.size a ≤ (i a).val
      ∧ (i a).val < win2_10.index t a * S2000x256.size a + S2000x256.size a := by
  show i ∈ ((View.whole main_v88).slice (win2_10.rect t)).set ↔ _
  rw [View.set_slice_whole, Rect.mem_set_unit]
  exact Iff.rfl

/-- Row `r` of the output is written back by point `r / 2000`. -/
theorem cover (i : S50000x256.Idx) :
    ∃ t : Fin cfg2.N, (cfg2.win 10).flush t = true ∧ i ∈ ((cfg2.win 10).blk t).view.set := by
  have hi0 : (i 0).val < 50000 := (i 0).isLt
  have hi1 : (i 1).val < 256 := (i 1).isLt
  have hlt : (i 0).val / 2000 < 25 := by omega
  refine ⟨⟨(i 0).val / 2000, hlt⟩, flush2_10 _, ?_⟩
  rw [mem_blk]
  obtain ⟨-, -, -, -, -, -, -, -, -, -, -, -, -, -, -, -, -, -, -, -, i10_0, i10_1⟩ := idx_facts ⟨(i 0).val / 2000, hlt⟩
  have e0 : win2_10.index ⟨(i 0).val / 2000, hlt⟩ (0 : Fin 2) = (i 0).val / 2000 := i10_0
  intro a
  match a with
  | ⟨0, _⟩ => show win2_10.index ⟨(i 0).val / 2000, hlt⟩ (0 : Fin 2) * 2000 ≤ (i 0).val
      ∧ (i 0).val < win2_10.index ⟨(i 0).val / 2000, hlt⟩ (0 : Fin 2) * 2000 + 2000; omega
  | ⟨1, _⟩ => show win2_10.index ⟨(i 0).val / 2000, hlt⟩ (1 : Fin 2) * 256 ≤ (i 1).val
      ∧ (i 1).val < win2_10.index ⟨(i 0).val / 2000, hlt⟩ (1 : Fin 2) * 256 + 256; omega

/-- The output array after the region: the layer of the arrays the region finds. -/
theorem arr_eq (c : Dev nD) : (dat2 (F := Ideal) V c).arrAt 10 cfg2.N = G V c :=
  (dat2 (F := Ideal) V c).arrAt_eq_of_cover 10 (G V c) (fun t _ => flushed_eq V c t) cover

end Cert.KernelIdeal.Arr2

end
-- ==== Proof.NetSpec.lean ====
/-
  The whole network on the extended reals: three graph layers. Each layer adds to a node's feature row the sum of its
  neighbours' rows (a gather along the edges' sources followed by a scatter-add at their targets, taken here as one
  given function of the feature array) and applies `Cert.Gin.layer`. The first layer has its own parameters; the
  second and third read theirs as member 0 and member 1 of stacked arrays.
-/
import proofs.«180986_j63608465654042_1_alg».proof.Proof.Spec
import Idealize.ShloMosaic.Lib.Pipeline.Value

noncomputable section

namespace Cert.Gin

open Idealize.ShloMosaic Idealize.ShloMosaic.ValueIdx

/-- A length-256 vector as a function of the feature index. -/
def vec (b : (⟨1, ![256]⟩ : Shape).Idx → EReal) : Fin 256 → EReal := fun j => b (ix1 j)

/-- Member 0 of a stack of two `256 × 256` matrices. -/
def mat0 (a : (⟨3, ![2, 256, 256]⟩ : Shape).Idx → EReal) : Mat 256 256 :=
  shapeCast ⟨2, ![256, 256]⟩ (extractStridedSlice ⟨3, ![1, 256, 256]⟩ ![0, 0, 0] a (by decide)) (by decide)
/-- Member 1 of a stack of two `256 × 256` matrices. -/
def mat1 (a : (⟨3, ![2, 256, 256]⟩ : Shape).Idx → EReal) : Mat 256 256 :=
  shapeCast ⟨2, ![256, 256]⟩ (extractStridedSlice ⟨3, ![1, 256, 256]⟩ ![1, 0, 0] a (by decide)) (by decide)
/-- Member 0 of a stack of two length-256 vectors. -/
def row0 (a : (⟨2, ![2, 256]⟩ : Shape).Idx → EReal) : (⟨1, ![256]⟩ : Shape).Idx → EReal :=
  shapeCast ⟨1, ![256]⟩ (extractStridedSlice ⟨2, ![1, 256]⟩ ![0, 0] a (by decide)) (by decide)
/-- Member 1 of a stack of two length-256 vectors. -/
def row1 (a : (⟨2, ![2, 256]⟩ : Shape).Idx → EReal) : (⟨1, ![256]⟩ : Shape).Idx → EReal :=
  shapeCast ⟨1, ![256]⟩ (extractStridedSlice ⟨2, ![1, 256]⟩ ![1, 0] a (by decide)) (by decide)

/-- The three layers composed. `sg0` and `sg1` are the neighbour sums of a 128-feature and of a 256-feature array. -/
def net (sg0 : Mat 50000 128 → Mat 50000 128) (sg1 : Mat 50000 256 → Mat 50000 256)
    (x : Mat 50000 128) (w1 : Mat 128 256) (b1 : (⟨1, ![256]⟩ : Shape).Idx → EReal) (w2 : Mat 256 256)
    (b2 g be mu var : (⟨1, ![256]⟩ : Shape).Idx → EReal)
    (w1r : (⟨3, ![2, 256, 256]⟩ : Shape).Idx → EReal) (b1r : (⟨2, ![2, 256]⟩ : Shape).Idx → EReal)
    (w2r : (⟨3, ![2, 256, 256]⟩ : Shape).Idx → EReal) (b2r gr ber mur varr : (⟨2, ![2, 256]⟩ : Shape).Idx → EReal) :
    Mat 50000 256 :=
  let h1 := layer false x (sg0 x) w1 (vec b1) w2 (vec b2) (vec g) (vec be) (vec mu) (vec var)
  let h2 := layer false h1 (sg1 h1) (mat0 w1r) (vec (row0 b1r)) (mat0 w2r) (vec (row0 b2r)) (vec (row0 gr)) (vec (row0 ber))
    (vec (row0 mur)) (vec (row0 varr))
  layer true h2 (sg1 h2) (mat1 w1r) (vec (row1 b1r)) (mat1 w2r) (vec (row1 b2r)) (vec (row1 gr)) (vec (row1 ber))
    (vec (row1 mur)) (vec (row1 varr))

end Cert.Gin

end
-- ==== Proof.KHost.lean ====
/-
  The arrays each kernel region finds, and so the whole program's result. The host lines before a region compute the
  neighbour sums of the current node features (a gather and a scatter-add), take the layer's parameters (for the
  second and third layer, a member of each stacked array), recast the weights (the identity on the extended reals)
  and give each per-feature vector a leading unit axis. A region's output array is the layer of what it finds, and
  no host line or region writes an argument array. Composing the three stages gives the network of the arguments.
-/
import proofs.«180986_j63608465654042_1_alg».proof.Proof.KArr0
import proofs.«180986_j63608465654042_1_alg».proof.Proof.KArr1
import proofs.«180986_j63608465654042_1_alg».proof.Proof.KArr2
import proofs.«180986_j63608465654042_1_alg».proof.Proof.NetSpec
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.ShloMosaic.ValueIdx
open Idealize.ShloMosaic.StableHlo Cert.Gin Cert.Gin.Rows

/-- The neighbour sums of a 128-feature array: the rows gathered at the edges' sources (a negative index wrapped
    once by the row count), scatter-added into zeros at the edges' targets. -/
def SG0 (src dst : IVec S800000 32) (h : FVec Ideal S50000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The neighbour sums of a 256-feature array. -/
def SG1 (src dst : IVec S800000 32) (h : FVec Ideal S50000x256 .f32) : FVec Ideal S50000x256 .f32 :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 dst)
    (Host.gather gather_S50000x256_S800000x1_S800000x256_1_0_n_n_0_1_1256 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

variable (m : (ℓ : Loc nD τ sig) → Buf (Elt Ideal) ℓ) (ρ : Dev nD → PrngReg)

/-! ## The argument arrays as the later stages find them -/

theorem w2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results_simp <;> rfl)
theorem w4_arg1 (c : Dev nD) : W4 m ρ c (Proc.devRef .tc main_arg1) = m ((c : Thread nD τ).loc main_arg1) :=
  (W4_of_ne m ρ c main_arg1 (by decide)).trans ((by
    show StableHlo.after hostOps1 (W2 m ρ c) (Proc.devRef .tc main_arg1) = W2 m ρ c (Proc.devRef .tc main_arg1)
    after_results_simp <;> rfl : W3 m ρ c (Proc.devRef .tc main_arg1) = W2 m ρ c (Proc.devRef .tc main_arg1)).trans (w2_arg1 m ρ c))
theorem w2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results_simp <;> rfl)
theorem w4_arg2 (c : Dev nD) : W4 m ρ c (Proc.devRef .tc main_arg2) = m ((c : Thread nD τ).loc main_arg2) :=
  (W4_of_ne m ρ c main_arg2 (by decide)).trans ((by
    show StableHlo.after hostOps1 (W2 m ρ c) (Proc.devRef .tc main_arg2) = W2 m ρ c (Proc.devRef .tc main_arg2)
    after_results_simp <;> rfl : W3 m ρ c (Proc.devRef .tc main_arg2) = W2 m ρ c (Proc.devRef .tc main_arg2)).trans (w2_arg2 m ρ c))
theorem w2_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results_simp <;> rfl)
theorem w4_arg11 (c : Dev nD) : W4 m ρ c (Proc.devRef .tc main_arg11) = m ((c : Thread nD τ).loc main_arg11) :=
  (W4_of_ne m ρ c main_arg11 (by decide)).trans ((by
    show StableHlo.after hostOps1 (W2 m ρ c) (Proc.devRef .tc main_arg11) = W2 m ρ c (Proc.devRef .tc main_arg11)
    after_results_simp <;> rfl : W3 m ρ c (Proc.devRef .tc main_arg11) = W2 m ρ c (Proc.devRef .tc main_arg11)).trans (w2_arg11 m ρ c))
theorem w2_arg12 (c : Dev nD) : W2 m ρ c (Proc.devRef .tc main_arg12) = m ((c : Thread nD τ).loc main_arg12) :=
  (W2_of_ne m ρ c main_arg12 (by decide)).trans (by
    show StableHlo.after hostOps0 (W0 m ρ c) (Proc.devRef .tc main_arg12) = _
    after_results_simp <;> rfl)
theorem w4_arg12 (c : Dev nD) : W4 m ρ c (Proc.devRef .tc main_arg12) = m ((c : Thread nD τ).loc main_arg12) :=
  (W4_of_ne m ρ c main_arg12 (by decide)).trans ((by
    show StableHlo.after hostOps1 (W2 m ρ c) (Proc.devRef .tc main_arg12) = W2 m ρ c (Proc.devRef .tc main_arg12)
    after_results_simp <;> rfl : W3 m ρ c (Proc.devRef .tc main_arg12) = W2 m ρ c (Proc.devRef .tc main_arg12)).trans (w2_arg12 m ρ c))
theorem w2_arg13 (c : Dev nD) : W2 m ρ c (Proc.devRef .tc main_arg13) = m ((c : Thread nD τ).loc main_arg13) :=
  (W2_of_ne m ρ c main_arg13 (by decide)).trans (by
    show StableHlo.after hostOps0 (W0 m ρ c) (Proc.devRef .tc main_arg13) = _
    after_results_simp <;> rfl)
theorem w4_arg13 (c : Dev nD) : W4 m ρ c (Proc.devRef .tc main_arg13) = m ((c : Thread nD τ).loc main_arg13) :=
  (W4_of_ne m ρ c main_arg13 (by decide)).trans ((by
    show StableHlo.after hostOps1 (W2 m ρ c) (Proc.devRef .tc main_arg13) = W2 m ρ c (Proc.devRef .tc main_arg13)
    after_results_simp <;> rfl : W3 m ρ c (Proc.devRef .tc main_arg13) = W2 m ρ c (Proc.devRef .tc main_arg13)).trans (w2_arg13 m ρ c))
theorem w2_arg14 (c : Dev nD) : W2 m ρ c (Proc.devRef .tc main_arg14) = m ((c : Thread nD τ).loc main_arg14) :=
  (W2_of_ne m ρ c main_arg14 (by decide)).trans (by
    show StableHlo.after hostOps0 (W0 m ρ c) (Proc.devRef .tc main_arg14) = _
    after_results_simp <;> rfl)
theorem w4_arg14 (c : Dev nD) : W4 m ρ c (Proc.devRef .tc main_arg14) = m ((c : Thread nD τ).loc main_arg14) :=
  (W4_of_ne m ρ c main_arg14 (by decide)).trans ((by
    show StableHlo.after hostOps1 (W2 m ρ c) (Proc.devRef .tc main_arg14) = W2 m ρ c (Proc.devRef .tc main_arg14)
    after_results_simp <;> rfl : W3 m ρ c (Proc.devRef .tc main_arg14) = W2 m ρ c (Proc.devRef .tc main_arg14)).trans (w2_arg14 m ρ c))
theorem w2_arg15 (c : Dev nD) : W2 m ρ c (Proc.devRef .tc main_arg15) = m ((c : Thread nD τ).loc main_arg15) :=
  (W2_of_ne m ρ c main_arg15 (by decide)).trans (by
    show StableHlo.after hostOps0 (W0 m ρ c) (Proc.devRef .tc main_arg15) = _
    after_results_simp <;> rfl)
theorem w4_arg15 (c : Dev nD) : W4 m ρ c (Proc.devRef .tc main_arg15) = m ((c : Thread nD τ).loc main_arg15) :=
  (W4_of_ne m ρ c main_arg15 (by decide)).trans ((by
    show StableHlo.after hostOps1 (W2 m ρ c) (Proc.devRef .tc main_arg15) = W2 m ρ c (Proc.devRef .tc main_arg15)
    after_results_simp <;> rfl : W3 m ρ c (Proc.devRef .tc main_arg15) = W2 m ρ c (Proc.devRef .tc main_arg15)).trans (w2_arg15 m ρ c))
theorem w2_arg16 (c : Dev nD) : W2 m ρ c (Proc.devRef .tc main_arg16) = m ((c : Thread nD τ).loc main_arg16) :=
  (W2_of_ne m ρ c main_arg16 (by decide)).trans (by
    show StableHlo.after hostOps0 (W0 m ρ c) (Proc.devRef .tc main_arg16) = _
    after_results_simp <;> rfl)
theorem w4_arg16 (c : Dev nD) : W4 m ρ c (Proc.devRef .tc main_arg16) = m ((c : Thread nD τ).loc main_arg16) :=
  (W4_of_ne m ρ c main_arg16 (by decide)).trans ((by
    show StableHlo.after hostOps1 (W2 m ρ c) (Proc.devRef .tc main_arg16) = W2 m ρ c (Proc.devRef .tc main_arg16)
    after_results_simp <;> rfl : W3 m ρ c (Proc.devRef .tc main_arg16) = W2 m ρ c (Proc.devRef .tc main_arg16)).trans (w2_arg16 m ρ c))
theorem w2_arg17 (c : Dev nD) : W2 m ρ c (Proc.devRef .tc main_arg17) = m ((c : Thread nD τ).loc main_arg17) :=
  (W2_of_ne m ρ c main_arg17 (by decide)).trans (by
    show StableHlo.after hostOps0 (W0 m ρ c) (Proc.devRef .tc main_arg17) = _
    after_results_simp <;> rfl)
theorem w4_arg17 (c : Dev nD) : W4 m ρ c (Proc.devRef .tc main_arg17) = m ((c : Thread nD τ).loc main_arg17) :=
  (W4_of_ne m ρ c main_arg17 (by decide)).trans ((by
    show StableHlo.after hostOps1 (W2 m ρ c) (Proc.devRef .tc main_arg17) = W2 m ρ c (Proc.devRef .tc main_arg17)
    after_results_simp <;> rfl : W3 m ρ c (Proc.devRef .tc main_arg17) = W2 m ρ c (Proc.devRef .tc main_arg17)).trans (w2_arg17 m ρ c))
theorem w2_arg18 (c : Dev nD) : W2 m ρ c (Proc.devRef .tc main_arg18) = m ((c : Thread nD τ).loc main_arg18) :=
  (W2_of_ne m ρ c main_arg18 (by decide)).trans (by
    show StableHlo.after hostOps0 (W0 m ρ c) (Proc.devRef .tc main_arg18) = _
    after_results_simp <;> rfl)
theorem w4_arg18 (c : Dev nD) : W4 m ρ c (Proc.devRef .tc main_arg18) = m ((c : Thread nD τ).loc main_arg18) :=
  (W4_of_ne m ρ c main_arg18 (by decide)).trans ((by
    show StableHlo.after hostOps1 (W2 m ρ c) (Proc.devRef .tc main_arg18) = W2 m ρ c (Proc.devRef .tc main_arg18)
    after_results_simp <;> rfl : W3 m ρ c (Proc.devRef .tc main_arg18) = W2 m ρ c (Proc.devRef .tc main_arg18)).trans (w2_arg18 m ρ c))

/-! ## The three stages -/

/-- The node features after the first layer. -/
def H1 (c : Dev nD) : S50000x256.Idx → EReal :=
  layer (M := 50000) (K := 128) false (m ((c : Thread nD τ).loc main_arg0) : S50000x128.Idx → EReal) (SG0 (m ((c : Thread nD τ).loc main_arg1) : IVec S800000 32) (m ((c : Thread nD τ).loc main_arg2) : IVec S800000 32) (m ((c : Thread nD τ).loc main_arg0) : S50000x128.Idx → EReal))
    (m ((c : Thread nD τ).loc main_arg3) : S128x256.Idx → EReal) (vec (m ((c : Thread nD τ).loc main_arg4) : S256.Idx → EReal)) (m ((c : Thread nD τ).loc main_arg5) : S256x256.Idx → EReal) (vec (m ((c : Thread nD τ).loc main_arg6) : S256.Idx → EReal)) (vec (m ((c : Thread nD τ).loc main_arg7) : S256.Idx → EReal)) (vec (m ((c : Thread nD τ).loc main_arg8) : S256.Idx → EReal)) (vec (m ((c : Thread nD τ).loc main_arg9) : S256.Idx → EReal)) (vec (m ((c : Thread nD τ).loc main_arg10) : S256.Idx → EReal))

/-- The node features after the second layer. -/
def H2 (c : Dev nD) : S50000x256.Idx → EReal :=
  layer (M := 50000) (K := 256) false (H1 m c) (SG1 (m ((c : Thread nD τ).loc main_arg1) : IVec S800000 32) (m ((c : Thread nD τ).loc main_arg2) : IVec S800000 32) (H1 m c))
    (mat0 (m ((c : Thread nD τ).loc main_arg11) : S2x256x256.Idx → EReal)) (vec (row0 (m ((c : Thread nD τ).loc main_arg12) : S2x256.Idx → EReal))) (mat0 (m ((c : Thread nD τ).loc main_arg13) : S2x256x256.Idx → EReal)) (vec (row0 (m ((c : Thread nD τ).loc main_arg14) : S2x256.Idx → EReal))) (vec (row0 (m ((c : Thread nD τ).loc main_arg15) : S2x256.Idx → EReal)))
    (vec (row0 (m ((c : Thread nD τ).loc main_arg16) : S2x256.Idx → EReal))) (vec (row0 (m ((c : Thread nD τ).loc main_arg17) : S2x256.Idx → EReal))) (vec (row0 (m ((c : Thread nD τ).loc main_arg18) : S2x256.Idx → EReal)))

/-- The node features after the third layer: the program's result. -/
def H3 (c : Dev nD) : S50000x256.Idx → EReal :=
  layer (M := 50000) (K := 256) true (H2 m c) (SG1 (m ((c : Thread nD τ).loc main_arg1) : IVec S800000 32) (m ((c : Thread nD τ).loc main_arg2) : IVec S800000 32) (H2 m c))
    (mat1 (m ((c : Thread nD τ).loc main_arg11) : S2x256x256.Idx → EReal)) (vec (row1 (m ((c : Thread nD τ).loc main_arg12) : S2x256.Idx → EReal))) (mat1 (m ((c : Thread nD τ).loc main_arg13) : S2x256x256.Idx → EReal)) (vec (row1 (m ((c : Thread nD τ).loc main_arg14) : S2x256.Idx → EReal))) (vec (row1 (m ((c : Thread nD τ).loc main_arg15) : S2x256.Idx → EReal)))
    (vec (row1 (m ((c : Thread nD τ).loc main_arg16) : S2x256.Idx → EReal))) (vec (row1 (m ((c : Thread nD τ).loc main_arg17) : S2x256.Idx → EReal))) (vec (row1 (m ((c : Thread nD τ).loc main_arg18) : S2x256.Idx → EReal)))

theorem vecRow (b : S256.Idx → EReal) (h : S256.ShapeCasts S1x256) :
    (fun j : Fin 256 => shapeCast S1x256 b h (ix2 0 j)) = vec b :=
  funext fun j => reshapeRow_apply b h 0 j

set_option maxHeartbeats 16000000 in
attribute [local irreducible] Host.scatterAdd Host.gather in
/-- Region 0 finds the arguments, their neighbour sums and the first layer's parameters: it leaves `H1`. -/
theorem stage0 (c : Dev nD) : Arr0.G (V1 m ρ) c = H1 m c := by
  have e0 : V1 m ρ c main_arg0 = m ((c : Thread nD τ).loc main_arg0) := by
    show StableHlo.after hostOps0 (W0 m ρ c) (Proc.devRef .tc main_arg0) = _
    after_results_simp <;> rfl
  have e1 : V1 m ρ c main_v9 = SG0 (m ((c : Thread nD τ).loc main_arg1) : IVec S800000 32) (m ((c : Thread nD τ).loc main_arg2) : IVec S800000 32) (m ((c : Thread nD τ).loc main_arg0) : S50000x128.Idx → EReal) := by
    show StableHlo.after hostOps0 (W0 m ρ c) (Proc.devRef .tc main_v9) = _
    after_results_simp <;> rfl
  have e2 : V1 m ρ c main_v10 = (m ((c : Thread nD τ).loc main_arg3) : S128x256.Idx → EReal) := by
    show StableHlo.after hostOps0 (W0 m ρ c) (Proc.devRef .tc main_v10) = _
    after_results_simp <;> rfl
  have e4 : V1 m ρ c main_v11 = (m ((c : Thread nD τ).loc main_arg5) : S256x256.Idx → EReal) := by
    show StableHlo.after hostOps0 (W0 m ρ c) (Proc.devRef .tc main_v11) = _
    after_results_simp <;> rfl
  have e3 : V1 m ρ c main_v12 = shapeCast S1x256 (m ((c : Thread nD τ).loc main_arg4) : S256.Idx → EReal) shapeCasts_S256_S1x256 := by
    show StableHlo.after hostOps0 (W0 m ρ c) (Proc.devRef .tc main_v12) = _
    after_results_simp <;> rfl
  have e5 : V1 m ρ c main_v13 = shapeCast S1x256 (m ((c : Thread nD τ).loc main_arg6) : S256.Idx → EReal) shapeCasts_S256_S1x256 := by
    show StableHlo.after hostOps0 (W0 m ρ c) (Proc.devRef .tc main_v13) = _
    after_results_simp <;> rfl
  have e6 : V1 m ρ c main_v14 = shapeCast S1x256 (m ((c : Thread nD τ).loc main_arg7) : S256.Idx → EReal) shapeCasts_S256_S1x256 := by
    show StableHlo.after hostOps0 (W0 m ρ c) (Proc.devRef .tc main_v14) = _
    after_results_simp <;> rfl
  have e7 : V1 m ρ c main_v15 = shapeCast S1x256 (m ((c : Thread nD τ).loc main_arg8) : S256.Idx → EReal) shapeCasts_S256_S1x256 := by
    show StableHlo.after hostOps0 (W0 m ρ c) (Proc.devRef .tc main_v15) = _
    after_results_simp <;> rfl
  have e8 : V1 m ρ c main_v16 = shapeCast S1x256 (m ((c : Thread nD τ).loc main_arg9) : S256.Idx → EReal) shapeCasts_S256_S1x256 := by
    show StableHlo.after hostOps0 (W0 m ρ c) (Proc.devRef .tc main_v16) = _
    after_results_simp <;> rfl
  have e9 : V1 m ρ c main_v17 = shapeCast S1x256 (m ((c : Thread nD τ).loc main_arg10) : S256.Idx → EReal) shapeCasts_S256_S1x256 := by
    show StableHlo.after hostOps0 (W0 m ρ c) (Proc.devRef .tc main_v17) = _
    after_results_simp <;> rfl
  unfold Arr0.G H1
  rw [e0, e1, e2, e3, e4, e5, e6, e7, e8, e9]
  simp only [vecRow]

set_option maxHeartbeats 16000000 in
attribute [local irreducible] Host.scatterAdd Host.gather in
/-- Region 1 finds the previous layer's output, its neighbour sums and member 0 of each stacked parameter array:
    it leaves `H2`. -/
theorem stage1 (c : Dev nD) : Arr1.G (V3 m ρ) c = H2 m c := by
  have hp : W2 m ρ c (Proc.devRef .tc main_v18) = H1 m c :=
    (W2_arr m ρ c 10).trans ((Arr0.arr_eq (V1 m ρ) c).trans (stage0 m ρ c))
  have e0 : V3 m ρ c main_v18 = H1 m c := by
    show StableHlo.after hostOps1 (W2 m ρ c) (Proc.devRef .tc main_v18) = _
    after_results_simp
    exact hp
  have e1 : V3 m ρ c main_v28 = SG1 (m ((c : Thread nD τ).loc main_arg1) : IVec S800000 32) (m ((c : Thread nD τ).loc main_arg2) : IVec S800000 32) (H1 m c) := by
    show StableHlo.after hostOps1 (W2 m ρ c) (Proc.devRef .tc main_v28) = _
    after_results_simp
    rw [w2_arg1, w2_arg2, hp]
    rfl
  have e2 : V3 m ρ c main_v45 = (mat0 (m ((c : Thread nD τ).loc main_arg11) : S2x256x256.Idx → EReal)) := by
    show StableHlo.after hostOps1 (W2 m ρ c) (Proc.devRef .tc main_v45) = _
    after_results_simp
    rw [w2_arg11]
    rfl
  have e4 : V3 m ρ c main_v46 = (mat0 (m ((c : Thread nD τ).loc main_arg13) : S2x256x256.Idx → EReal)) := by
    show StableHlo.after hostOps1 (W2 m ρ c) (Proc.devRef .tc main_v46) = _
    after_results_simp
    rw [w2_arg13]
    rfl
  have e3 : V3 m ρ c main_v47 = shapeCast S1x256 (row0 (m ((c : Thread nD τ).loc main_arg12) : S2x256.Idx → EReal)) shapeCasts_S256_S1x256 := by
    show StableHlo.after hostOps1 (W2 m ρ c) (Proc.devRef .tc main_v47) = _
    after_results_simp
    rw [w2_arg12]
    rfl
  have e5 : V3 m ρ c main_v48 = shapeCast S1x256 (row0 (m ((c : Thread nD τ).loc main_arg14) : S2x256.Idx → EReal)) shapeCasts_S256_S1x256 := by
    show StableHlo.after hostOps1 (W2 m ρ c) (Proc.devRef .tc main_v48) = _
    after_results_simp
    rw [w2_arg14]
    rfl
  have e6 : V3 m ρ c main_v49 = shapeCast S1x256 (row0 (m ((c : Thread nD τ).loc main_arg15) : S2x256.Idx → EReal)) shapeCasts_S256_S1x256 := by
    show StableHlo.after hostOps1 (W2 m ρ c) (Proc.devRef .tc main_v49) = _
    after_results_simp
    rw [w2_arg15]
    rfl
  have e7 : V3 m ρ c main_v50 = shapeCast S1x256 (row0 (m ((c : Thread nD τ).loc main_arg16) : S2x256.Idx → EReal)) shapeCasts_S256_S1x256 := by
    show StableHlo.after hostOps1 (W2 m ρ c) (Proc.devRef .tc main_v50) = _
    after_results_simp
    rw [w2_arg16]
    rfl
  have e8 : V3 m ρ c main_v51 = shapeCast S1x256 (row0 (m ((c : Thread nD τ).loc main_arg17) : S2x256.Idx → EReal)) shapeCasts_S256_S1x256 := by
    show StableHlo.after hostOps1 (W2 m ρ c) (Proc.devRef .tc main_v51) = _
    after_results_simp
    rw [w2_arg17]
    rfl
  have e9 : V3 m ρ c main_v52 = shapeCast S1x256 (row0 (m ((c : Thread nD τ).loc main_arg18) : S2x256.Idx → EReal)) shapeCasts_S256_S1x256 := by
    show StableHlo.after hostOps1 (W2 m ρ c) (Proc.devRef .tc main_v52) = _
    after_results_simp
    rw [w2_arg18]
    rfl
  unfold Arr1.G H2
  rw [e0, e1, e2, e3, e4, e5, e6, e7, e8, e9]
  simp only [vecRow]

set_option maxHeartbeats 16000000 in
attribute [local irreducible] Host.scatterAdd Host.gather in
/-- Region 2 finds the previous layer's output, its neighbour sums and member 1 of each stacked parameter array:
    it leaves `H3`. -/
theorem stage2 (c : Dev nD) : Arr2.G (V5 m ρ) c = H3 m c := by
  have hp : W4 m ρ c (Proc.devRef .tc main_v53) = H2 m c :=
    (W4_arr m ρ c 10).trans ((Arr1.arr_eq (V3 m ρ) c).trans (stage1 m ρ c))
  have e0 : V5 m ρ c main_v53 = H2 m c := by
    show StableHlo.after hostOps2 (W4 m ρ c) (Proc.devRef .tc main_v53) = _
    after_results_simp
    exact hp
  have e1 : V5 m ρ c main_v63 = SG1 (m ((c : Thread nD τ).loc main_arg1) : IVec S800000 32) (m ((c : Thread nD τ).loc main_arg2) : IVec S800000 32) (H2 m c) := by
    show StableHlo.after hostOps2 (W4 m ρ c) (Proc.devRef .tc main_v63) = _
    after_results_simp
    rw [w4_arg1, w4_arg2, hp]
    rfl
  have e2 : V5 m ρ c main_v80 = (mat1 (m ((c : Thread nD τ).loc main_arg11) : S2x256x256.Idx → EReal)) := by
    show StableHlo.after hostOps2 (W4 m ρ c) (Proc.devRef .tc main_v80) = _
    after_results_simp
    rw [w4_arg11]
    rfl
  have e4 : V5 m ρ c main_v81 = (mat1 (m ((c : Thread nD τ).loc main_arg13) : S2x256x256.Idx → EReal)) := by
    show StableHlo.after hostOps2 (W4 m ρ c) (Proc.devRef .tc main_v81) = _
    after_results_simp
    rw [w4_arg13]
    rfl
  have e3 : V5 m ρ c main_v82 = shapeCast S1x256 (row1 (m ((c : Thread nD τ).loc main_arg12) : S2x256.Idx → EReal)) shapeCasts_S256_S1x256 := by
    show StableHlo.after hostOps2 (W4 m ρ c) (Proc.devRef .tc main_v82) = _
    after_results_simp
    rw [w4_arg12]
    rfl
  have e5 : V5 m ρ c main_v83 = shapeCast S1x256 (row1 (m ((c : Thread nD τ).loc main_arg14) : S2x256.Idx → EReal)) shapeCasts_S256_S1x256 := by
    show StableHlo.after hostOps2 (W4 m ρ c) (Proc.devRef .tc main_v83) = _
    after_results_simp
    rw [w4_arg14]
    rfl
  have e6 : V5 m ρ c main_v84 = shapeCast S1x256 (row1 (m ((c : Thread nD τ).loc main_arg15) : S2x256.Idx → EReal)) shapeCasts_S256_S1x256 := by
    show StableHlo.after hostOps2 (W4 m ρ c) (Proc.devRef .tc main_v84) = _
    after_results_simp
    rw [w4_arg15]
    rfl
  have e7 : V5 m ρ c main_v85 = shapeCast S1x256 (row1 (m ((c : Thread nD τ).loc main_arg16) : S2x256.Idx → EReal)) shapeCasts_S256_S1x256 := by
    show StableHlo.after hostOps2 (W4 m ρ c) (Proc.devRef .tc main_v85) = _
    after_results_simp
    rw [w4_arg16]
    rfl
  have e8 : V5 m ρ c main_v86 = shapeCast S1x256 (row1 (m ((c : Thread nD τ).loc main_arg17) : S2x256.Idx → EReal)) shapeCasts_S256_S1x256 := by
    show StableHlo.after hostOps2 (W4 m ρ c) (Proc.devRef .tc main_v86) = _
    after_results_simp
    rw [w4_arg17]
    rfl
  have e9 : V5 m ρ c main_v87 = shapeCast S1x256 (row1 (m ((c : Thread nD τ).loc main_arg18) : S2x256.Idx → EReal)) shapeCasts_S256_S1x256 := by
    show StableHlo.after hostOps2 (W4 m ρ c) (Proc.devRef .tc main_v87) = _
    after_results_simp
    rw [w4_arg18]
    rfl
  unfold Arr2.G H3
  rw [e0, e1, e2, e3, e4, e5, e6, e7, e8, e9]
  simp only [vecRow]

/-- The program's result array after the third region: the third layer's output. -/
theorem result (c : Dev nD) : W6 m ρ c (Proc.devRef .tc main_v88) = H3 m c :=
  (W6_arr m ρ c 10).trans ((Arr2.arr_eq (V5 m ρ) c).trans (stage2 m ρ c))

end Cert.KernelIdeal.Stages

end
-- ==== Proof.RefRun.lean ====
/-
  The reference program's run. Its @main is a straight line of host operations once the two outlined functions
  (the leaky rectifier, and the selection it calls) are written out at their five call sites over each call's own
  buffers: three graph layers, each a gather and a scatter-add of the node features along the edges, two matrix
  products with their biases, the rectifier between them, the normalisation by the running statistics and — in the
  first two layers — the rectifier again. Every weakly fair execution terminates with each buffer at the fold of
  these operations over the launch contents.
-/
import proofs.«180986_j63608465654042_1_alg».proof.Proof.Gen.ReferenceIdeal
import Idealize.ShloMosaic.Lib.StableHlo.Run

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]

/-- The first layer's operations (up to its second rectifier's result). -/
abbrev ops0 : List (HloOp τ sig (Elt F)) :=
  [ nullary main_c (constantI S_ 32 0#32),
    unary main_c main_v0 (broadcastInDim S800000 ![] bcast_S_S800000 : (⟨S_, .i32⟩ : BufTy).Contents (Elt F) → (⟨S800000, .i32⟩ : BufTy).Contents (Elt F)),
    binary main_arg1 main_v0 main_v1 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v2 (broadcastInDim S800000 ![] bcast_S_S800000 : (⟨S_, .i32⟩ : BufTy).Contents (Elt F) → (⟨S800000, .i32⟩ : BufTy).Contents (Elt F)),
    binary main_arg1 main_v2 main_v3 (addi : (⟨S800000, .i32⟩ : BufTy).Contents (Elt F) → (⟨S800000, .i32⟩ : BufTy).Contents (Elt F) → (⟨S800000, .i32⟩ : BufTy).Contents (Elt F)),
    ternary main_v1 main_v3 main_arg1 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v4 main_v5 (broadcastInDim S800000x1 ![0] bcast_S800000_S800000x1_0 : (⟨S800000, .i32⟩ : BufTy).Contents (Elt F) → (⟨S800000x1, .i32⟩ : BufTy).Contents (Elt F)),
    binary main_arg0 main_v5 main_v6 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v7 (broadcastInDim S50000x128 ![] bcast_S_S50000x128 : (⟨S_, .f32⟩ : BufTy).Contents (Elt F) → (⟨S50000x128, .f32⟩ : BufTy).Contents (Elt F)),
    unary main_arg2 main_v8 (broadcastInDim S800000x1 ![0] bcast_S800000_S800000x1_0 : (⟨S800000, .i32⟩ : BufTy).Contents (Elt F) → (⟨S800000x1, .i32⟩ : BufTy).Contents (Elt F)),
    ternary main_v7 main_v8 main_v6 main_v9 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_arg0 main_v9 main_v10 (addf : (⟨S50000x128, .f32⟩ : BufTy).Contents (Elt F) → (⟨S50000x128, .f32⟩ : BufTy).Contents (Elt F) → (⟨S50000x128, .f32⟩ : BufTy).Contents (Elt F)),
    binary main_v10 main_arg3 main_v11 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg4 main_v12 (broadcastInDim S1x256 ![1] bcast_S256_S1x256_1 : (⟨S256, .f32⟩ : BufTy).Contents (Elt F) → (⟨S1x256, .f32⟩ : BufTy).Contents (Elt F)),
    unary main_v12 main_v13 (broadcastInDim S50000x256 ![0, 1] bcast_S1x256_S50000x256_0_1 : (⟨S1x256, .f32⟩ : BufTy).Contents (Elt F) → (⟨S50000x256, .f32⟩ : BufTy).Contents (Elt F)),
    binary main_v11 main_v13 main_v14 (addf : (⟨S50000x256, .f32⟩ : BufTy).Contents (Elt F) → (⟨S50000x256, .f32⟩ : BufTy).Contents (Elt F) → (⟨S50000x256, .f32⟩ : BufTy).Contents (Elt F)),
    nullary main_cst_1 (constant S_ .f32 0x3C23D70A#32),
    TRef.nullary main_call0.cst (constant S_ .f32 0x00000000#32),
    TRef.unary main_call0.cst main_call0.v0 (broadcastInDim S50000x256 ![] bcast_S_S50000x256),
    TRef.binary (.of main_v14) main_call0.v0 main_call0.v1 (cmpf .oge),
    TRef.unary (.of main_cst_1) main_call0.v2 id,
    TRef.unary main_call0.v2 main_call0.v3 (broadcastInDim S50000x256 ![] bcast_S_S50000x256),
    TRef.binary main_call0.v3 (.of main_v14) main_call0.v4 mulf,
    TRef.ternary main_call0.v1 (.of main_v14) main_call0.v4 main_call0.call0.v0 select,
    binary main_v15 main_arg5 main_v16 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg6 main_v17 (broadcastInDim S1x256 ![1] bcast_S256_S1x256_1 : (⟨S256, .f32⟩ : BufTy).Contents (Elt F) → (⟨S1x256, .f32⟩ : BufTy).Contents (Elt F)),
    unary main_v17 main_v18 (broadcastInDim S50000x256 ![0, 1] bcast_S1x256_S50000x256_0_1 : (⟨S1x256, .f32⟩ : BufTy).Contents (Elt F) → (⟨S50000x256, .f32⟩ : BufTy).Contents (Elt F)),
    binary main_v16 main_v18 main_v19 (addf : (⟨S50000x256, .f32⟩ : BufTy).Contents (Elt F) → (⟨S50000x256, .f32⟩ : BufTy).Contents (Elt F) → (⟨S50000x256, .f32⟩ : BufTy).Contents (Elt F)),
    unary main_arg9 main_v20 (broadcastInDim S1x256 ![1] bcast_S256_S1x256_1 : (⟨S256, .f32⟩ : BufTy).Contents (Elt F) → (⟨S1x256, .f32⟩ : BufTy).Contents (Elt F)),
    unary main_v20 main_v21 (broadcastInDim S50000x256 ![0, 1] bcast_S1x256_S50000x256_0_1 : (⟨S1x256, .f32⟩ : BufTy).Contents (Elt F) → (⟨S50000x256, .f32⟩ : BufTy).Contents (Elt F)),
    binary main_v19 main_v21 main_v22 (subf : (⟨S50000x256, .f32⟩ : BufTy).Contents (Elt F) → (⟨S50000x256, .f32⟩ : BufTy).Contents (Elt F) → (⟨S50000x256, .f32⟩ : BufTy).Contents (Elt F)),
    nullary main_cst_2 (constant S_ .f32 0x3727C5AC#32),
    unary main_cst_2 main_v23 (broadcastInDim S256 ![] bcast_S_S256 : (⟨S_, .f32⟩ : BufTy).Contents (Elt F) → (⟨S256, .f32⟩ : BufTy).Contents (Elt F)),
    binary main_arg10 main_v23 main_v24 (addf : (⟨S256, .f32⟩ : BufTy).Contents (Elt F) → (⟨S256, .f32⟩ : BufTy).Contents (Elt F) → (⟨S256, .f32⟩ : BufTy).Contents (Elt F)),
    unary main_v24 main_v25 (Host.rsqrt : (⟨S256, .f32⟩ : BufTy).Contents (Elt F) → (⟨S256, .f32⟩ : BufTy).Contents (Elt F)),
    unary main_v25 main_v26 (broadcastInDim S1x256 ![1] bcast_S256_S1x256_1 : (⟨S256, .f32⟩ : BufTy).Contents (Elt F) → (⟨S1x256, .f32⟩ : BufTy).Contents (Elt F)),
    unary main_v26 main_v27 (broadcastInDim S50000x256 ![0, 1] bcast_S1x256_S50000x256_0_1 : (⟨S1x256, .f32⟩ : BufTy).Contents (Elt F) → (⟨S50000x256, .f32⟩ : BufTy).Contents (Elt F)),
    binary main_v22 main_v27 main_v28 (mulf : (⟨S50000x256, .f32⟩ : BufTy).Contents (Elt F) → (⟨S50000x256, .f32⟩ : BufTy).Contents (Elt F) → (⟨S50000x256, .f32⟩ : BufTy).Contents (Elt F)),
    unary main_arg7 main_v29 (broadcastInDim S1x256 ![1] bcast_S256_S1x256_1 : (⟨S256, .f32⟩ : BufTy).Contents (Elt F) → (⟨S1x256, .f32⟩ : BufTy).Contents (Elt F)),
    unary main_v29 main_v30 (broadcastInDim S50000x256 ![0, 1] bcast_S1x256_S50000x256_0_1 : (⟨S1x256, .f32⟩ : BufTy).Contents (Elt F) → (⟨S50000x256, .f32⟩ : BufTy).Contents (Elt F)),
    binary main_v28 main_v30 main_v31 (mulf : (⟨S50000x256, .f32⟩ : BufTy).Contents (Elt F) → (⟨S50000x256, .f32⟩ : BufTy).Contents (Elt F) → (⟨S50000x256, .f32⟩ : BufTy).Contents (Elt F)),
    unary main_arg8 main_v32 (broadcastInDim S1x256 ![1] bcast_S256_S1x256_1 : (⟨S256, .f32⟩ : BufTy).Contents (Elt F) → (⟨S1x256, .f32⟩ : BufTy).Contents (Elt F)),
    unary main_v32 main_v33 (broadcastInDim S50000x256 ![0, 1] bcast_S1x256_S50000x256_0_1 : (⟨S1x256, .f32⟩ : BufTy).Contents (Elt F) → (⟨S50000x256, .f32⟩ : BufTy).Contents (Elt F)),
    binary main_v31 main_v33 main_v34 (addf : (⟨S50000x256, .f32⟩ : BufTy).Contents (Elt F) → (⟨S50000x256, .f32⟩ : BufTy).Contents (Elt F) → (⟨S50000x256, .f32⟩ : BufTy).Contents (Elt F)),
    nullary main_cst_3 (constant S_ .f32 0x3C23D70A#32),
    TRef.nullary main_call1.cst (constant S_ .f32 0x00000000#32),
    TRef.unary main_call1.cst main_call1.v0 (broadcastInDim S50000x256 ![] bcast_S_S50000x256),
    TRef.binary (.of main_v34) main_call1.v0 main_call1.v1 (cmpf .oge),
    TRef.unary (.of main_cst_3) main_call1.v2 id,
    TRef.unary main_call1.v2 main_call1.v3 (broadcastInDim S50000x256 ![] bcast_S_S50000x256),
    TRef.binary main_call1.v3 (.of main_v34) main_call1.v4 mulf,
    TRef.ternary main_call1.v1 (.of main_v34) main_call1.v4 main_call1.call0.v0 select ]

/-- The second layer's operations. -/
abbrev ops1 : List (HloOp τ sig (Elt F)) :=
  [ unary main_arg11 main_v36 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v36 main_v37 rfl shapeCasts_S1x256x256_S256x256,
    unary main_arg12 main_v38 ((extractStridedSlice S1x256 ![0, 0] · slices_S2x256_S1x256_0_0) : (⟨S2x256, .f32⟩ : BufTy).Contents (Elt F) → (⟨S1x256, .f32⟩ : BufTy).Contents (Elt F)),
    reshape main_v38 main_v39 rfl shapeCasts_S1x256_S256,
    unary main_arg13 main_v40 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v40 main_v41 rfl shapeCasts_S1x256x256_S256x256,
    unary main_arg14 main_v42 ((extractStridedSlice S1x256 ![0, 0] · slices_S2x256_S1x256_0_0) : (⟨S2x256, .f32⟩ : BufTy).Contents (Elt F) → (⟨S1x256, .f32⟩ : BufTy).Contents (Elt F)),
    reshape main_v42 main_v43 rfl shapeCasts_S1x256_S256,
    unary main_arg15 main_v44 ((extractStridedSlice S1x256 ![0, 0] · slices_S2x256_S1x256_0_0) : (⟨S2x256, .f32⟩ : BufTy).Contents (Elt F) → (⟨S1x256, .f32⟩ : BufTy).Contents (Elt F)),
    reshape main_v44 main_v45 rfl shapeCasts_S1x256_S256,
    unary main_arg16 main_v46 ((extractStridedSlice S1x256 ![0, 0] · slices_S2x256_S1x256_0_0) : (⟨S2x256, .f32⟩ : BufTy).Contents (Elt F) → (⟨S1x256, .f32⟩ : BufTy).Contents (Elt F)),
    reshape main_v46 main_v47 rfl shapeCasts_S1x256_S256,
    unary main_arg17 main_v48 ((extractStridedSlice S1x256 ![0, 0] · slices_S2x256_S1x256_0_0) : (⟨S2x256, .f32⟩ : BufTy).Contents (Elt F) → (⟨S1x256, .f32⟩ : BufTy).Contents (Elt F)),
    reshape main_v48 main_v49 rfl shapeCasts_S1x256_S256,
    unary main_arg18 main_v50 ((extractStridedSlice S1x256 ![0, 0] · slices_S2x256_S1x256_0_0) : (⟨S2x256, .f32⟩ : BufTy).Contents (Elt F) → (⟨S1x256, .f32⟩ : BufTy).Contents (Elt F)),
    reshape main_v50 main_v51 rfl shapeCasts_S1x256_S256,
    nullary main_c_4 (constantI S_ 32 0#32),
    unary main_c_4 main_v52 (broadcastInDim S800000 ![] bcast_S_S800000 : (⟨S_, .i32⟩ : BufTy).Contents (Elt F) → (⟨S800000, .i32⟩ : BufTy).Contents (Elt F)),
    binary main_arg1 main_v52 main_v53 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v54 (broadcastInDim S800000 ![] bcast_S_S800000 : (⟨S_, .i32⟩ : BufTy).Contents (Elt F) → (⟨S800000, .i32⟩ : BufTy).Contents (Elt F)),
    binary main_arg1 main_v54 main_v55 (addi : (⟨S800000, .i32⟩ : BufTy).Contents (Elt F) → (⟨S800000, .i32⟩ : BufTy).Contents (Elt F) → (⟨S800000, .i32⟩ : BufTy).Contents (Elt F)),
    ternary main_v53 main_v55 main_arg1 main_v56 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v56 main_v57 (broadcastInDim S800000x1 ![0] bcast_S800000_S800000x1_0 : (⟨S800000, .i32⟩ : BufTy).Contents (Elt F) → (⟨S800000x1, .i32⟩ : BufTy).Contents (Elt F)),
    binary main_v35 main_v57 main_v58 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_6 (constant S_ .f32 0x00000000#32),
    unary main_cst_6 main_v59 (broadcastInDim S50000x256 ![] bcast_S_S50000x256 : (⟨S_, .f32⟩ : BufTy).Contents (Elt F) → (⟨S50000x256, .f32⟩ : BufTy).Contents (Elt F)),
    unary main_arg2 main_v60 (broadcastInDim S800000x1 ![0] bcast_S800000_S800000x1_0 : (⟨S800000, .i32⟩ : BufTy).Contents (Elt F) → (⟨S800000x1, .i32⟩ : BufTy).Contents (Elt F)),
    ternary main_v59 main_v60 main_v58 main_v61 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    binary main_v35 main_v61 main_v62 (addf : (⟨S50000x256, .f32⟩ : BufTy).Contents (Elt F) → (⟨S50000x256, .f32⟩ : BufTy).Contents (Elt F) → (⟨S50000x256, .f32⟩ : BufTy).Contents (Elt F)),
    binary main_v62 main_v37 main_v63 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v39 main_v64 (broadcastInDim S1x256 ![1] bcast_S256_S1x256_1 : (⟨S256, .f32⟩ : BufTy).Contents (Elt F) → (⟨S1x256, .f32⟩ : BufTy).Contents (Elt F)),
    unary main_v64 main_v65 (broadcastInDim S50000x256 ![0, 1] bcast_S1x256_S50000x256_0_1 : (⟨S1x256, .f32⟩ : BufTy).Contents (Elt F) → (⟨S50000x256, .f32⟩ : BufTy).Contents (Elt F)),
    binary main_v63 main_v65 main_v66 (addf : (⟨S50000x256, .f32⟩ : BufTy).Contents (Elt F) → (⟨S50000x256, .f32⟩ : BufTy).Contents (Elt F) → (⟨S50000x256, .f32⟩ : BufTy).Contents (Elt F)),
    nullary main_cst_7 (constant S_ .f32 0x3C23D70A#32),
    TRef.nullary main_call2.cst (constant S_ .f32 0x00000000#32),
    TRef.unary main_call2.cst main_call2.v0 (broadcastInDim S50000x256 ![] bcast_S_S50000x256),
    TRef.binary (.of main_v66) main_call2.v0 main_call2.v1 (cmpf .oge),
    TRef.unary (.of main_cst_7) main_call2.v2 id,
    TRef.unary main_call2.v2 main_call2.v3 (broadcastInDim S50000x256 ![] bcast_S_S50000x256),
    TRef.binary main_call2.v3 (.of main_v66) main_call2.v4 mulf,
    TRef.ternary main_call2.v1 (.of main_v66) main_call2.v4 main_call2.call0.v0 select,
    binary main_v67 main_v41 main_v68 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v43 main_v69 (broadcastInDim S1x256 ![1] bcast_S256_S1x256_1 : (⟨S256, .f32⟩ : BufTy).Contents (Elt F) → (⟨S1x256, .f32⟩ : BufTy).Contents (Elt F)),
    unary main_v69 main_v70 (broadcastInDim S50000x256 ![0, 1] bcast_S1x256_S50000x256_0_1 : (⟨S1x256, .f32⟩ : BufTy).Contents (Elt F) → (⟨S50000x256, .f32⟩ : BufTy).Contents (Elt F)),
    binary main_v68 main_v70 main_v71 (addf : (⟨S50000x256, .f32⟩ : BufTy).Contents (Elt F) → (⟨S50000x256, .f32⟩ : BufTy).Contents (Elt F) → (⟨S50000x256, .f32⟩ : BufTy).Contents (Elt F)),
    unary main_v49 main_v72 (broadcastInDim S1x256 ![1] bcast_S256_S1x256_1 : (⟨S256, .f32⟩ : BufTy).Contents (Elt F) → (⟨S1x256, .f32⟩ : BufTy).Contents (Elt F)),
    unary main_v72 main_v73 (broadcastInDim S50000x256 ![0, 1] bcast_S1x256_S50000x256_0_1 : (⟨S1x256, .f32⟩ : BufTy).Contents (Elt F) → (⟨S50000x256, .f32⟩ : BufTy).Contents (Elt F)),
    binary main_v71 main_v73 main_v74 (subf : (⟨S50000x256, .f32⟩ : BufTy).Contents (Elt F) → (⟨S50000x256, .f32⟩ : BufTy).Contents (Elt F) → (⟨S50000x256, .f32⟩ : BufTy).Contents (Elt F)),
    nullary main_cst_8 (constant S_ .f32 0x3727C5AC#32),
    unary main_cst_8 main_v75 (broadcastInDim S256 ![] bcast_S_S256 : (⟨S_, .f32⟩ : BufTy).Contents (Elt F) → (⟨S256, .f32⟩ : BufTy).Contents (Elt F)),
    binary main_v51 main_v75 main_v76 (addf : (⟨S256, .f32⟩ : BufTy).Contents (Elt F) → (⟨S256, .f32⟩ : BufTy).Contents (Elt F) → (⟨S256, .f32⟩ : BufTy).Contents (Elt F)),
    unary main_v76 main_v77 (Host.rsqrt : (⟨S256, .f32⟩ : BufTy).Contents (Elt F) → (⟨S256, .f32⟩ : BufTy).Contents (Elt F)),
    unary main_v77 main_v78 (broadcastInDim S1x256 ![1] bcast_S256_S1x256_1 : (⟨S256, .f32⟩ : BufTy).Contents (Elt F) → (⟨S1x256, .f32⟩ : BufTy).Contents (Elt F)),
    unary main_v78 main_v79 (broadcastInDim S50000x256 ![0, 1] bcast_S1x256_S50000x256_0_1 : (⟨S1x256, .f32⟩ : BufTy).Contents (Elt F) → (⟨S50000x256, .f32⟩ : BufTy).Contents (Elt F)),
    binary main_v74 main_v79 main_v80 (mulf : (⟨S50000x256, .f32⟩ : BufTy).Contents (Elt F) → (⟨S50000x256, .f32⟩ : BufTy).Contents (Elt F) → (⟨S50000x256, .f32⟩ : BufTy).Contents (Elt F)),
    unary main_v45 main_v81 (broadcastInDim S1x256 ![1] bcast_S256_S1x256_1 : (⟨S256, .f32⟩ : BufTy).Contents (Elt F) → (⟨S1x256, .f32⟩ : BufTy).Contents (Elt F)),
    unary main_v81 main_v82 (broadcastInDim S50000x256 ![0, 1] bcast_S1x256_S50000x256_0_1 : (⟨S1x256, .f32⟩ : BufTy).Contents (Elt F) → (⟨S50000x256, .f32⟩ : BufTy).Contents (Elt F)),
    binary main_v80 main_v82 main_v83 (mulf : (⟨S50000x256, .f32⟩ : BufTy).Contents (Elt F) → (⟨S50000x256, .f32⟩ : BufTy).Contents (Elt F) → (⟨S50000x256, .f32⟩ : BufTy).Contents (Elt F)),
    unary main_v47 main_v84 (broadcastInDim S1x256 ![1] bcast_S256_S1x256_1 : (⟨S256, .f32⟩ : BufTy).Contents (Elt F) → (⟨S1x256, .f32⟩ : BufTy).Contents (Elt F)),
    unary main_v84 main_v85 (broadcastInDim S50000x256 ![0, 1] bcast_S1x256_S50000x256_0_1 : (⟨S1x256, .f32⟩ : BufTy).Contents (Elt F) → (⟨S50000x256, .f32⟩ : BufTy).Contents (Elt F)),
    binary main_v83 main_v85 main_v86 (addf : (⟨S50000x256, .f32⟩ : BufTy).Contents (Elt F) → (⟨S50000x256, .f32⟩ : BufTy).Contents (Elt F) → (⟨S50000x256, .f32⟩ : BufTy).Contents (Elt F)),
    nullary main_cst_9 (constant S_ .f32 0x3C23D70A#32),
    TRef.nullary main_call3.cst (constant S_ .f32 0x00000000#32),
    TRef.unary main_call3.cst main_call3.v0 (broadcastInDim S50000x256 ![] bcast_S_S50000x256),
    TRef.binary (.of main_v86) main_call3.v0 main_call3.v1 (cmpf .oge),
    TRef.unary (.of main_cst_9) main_call3.v2 id,
    TRef.unary main_call3.v2 main_call3.v3 (broadcastInDim S50000x256 ![] bcast_S_S50000x256),
    TRef.binary main_call3.v3 (.of main_v86) main_call3.v4 mulf,
    TRef.ternary main_call3.v1 (.of main_v86) main_call3.v4 main_call3.call0.v0 select ]

/-- The third layer's operations (no rectifier after its normalisation). -/
abbrev ops2 : List (HloOp τ sig (Elt F)) :=
  [ unary main_arg11 main_v88 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v88 main_v89 rfl shapeCasts_S1x256x256_S256x256,
    unary main_arg12 main_v90 ((extractStridedSlice S1x256 ![1, 0] · slices_S2x256_S1x256_1_0) : (⟨S2x256, .f32⟩ : BufTy).Contents (Elt F) → (⟨S1x256, .f32⟩ : BufTy).Contents (Elt F)),
    reshape main_v90 main_v91 rfl shapeCasts_S1x256_S256,
    unary main_arg13 main_v92 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v92 main_v93 rfl shapeCasts_S1x256x256_S256x256,
    unary main_arg14 main_v94 ((extractStridedSlice S1x256 ![1, 0] · slices_S2x256_S1x256_1_0) : (⟨S2x256, .f32⟩ : BufTy).Contents (Elt F) → (⟨S1x256, .f32⟩ : BufTy).Contents (Elt F)),
    reshape main_v94 main_v95 rfl shapeCasts_S1x256_S256,
    unary main_arg15 main_v96 ((extractStridedSlice S1x256 ![1, 0] · slices_S2x256_S1x256_1_0) : (⟨S2x256, .f32⟩ : BufTy).Contents (Elt F) → (⟨S1x256, .f32⟩ : BufTy).Contents (Elt F)),
    reshape main_v96 main_v97 rfl shapeCasts_S1x256_S256,
    unary main_arg16 main_v98 ((extractStridedSlice S1x256 ![1, 0] · slices_S2x256_S1x256_1_0) : (⟨S2x256, .f32⟩ : BufTy).Contents (Elt F) → (⟨S1x256, .f32⟩ : BufTy).Contents (Elt F)),
    reshape main_v98 main_v99 rfl shapeCasts_S1x256_S256,
    unary main_arg17 main_v100 ((extractStridedSlice S1x256 ![1, 0] · slices_S2x256_S1x256_1_0) : (⟨S2x256, .f32⟩ : BufTy).Contents (Elt F) → (⟨S1x256, .f32⟩ : BufTy).Contents (Elt F)),
    reshape main_v100 main_v101 rfl shapeCasts_S1x256_S256,
    unary main_arg18 main_v102 ((extractStridedSlice S1x256 ![1, 0] · slices_S2x256_S1x256_1_0) : (⟨S2x256, .f32⟩ : BufTy).Contents (Elt F) → (⟨S1x256, .f32⟩ : BufTy).Contents (Elt F)),
    reshape main_v102 main_v103 rfl shapeCasts_S1x256_S256,
    nullary main_c_10 (constantI S_ 32 0#32),
    unary main_c_10 main_v104 (broadcastInDim S800000 ![] bcast_S_S800000 : (⟨S_, .i32⟩ : BufTy).Contents (Elt F) → (⟨S800000, .i32⟩ : BufTy).Contents (Elt F)),
    binary main_arg1 main_v104 main_v105 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v106 (broadcastInDim S800000 ![] bcast_S_S800000 : (⟨S_, .i32⟩ : BufTy).Contents (Elt F) → (⟨S800000, .i32⟩ : BufTy).Contents (Elt F)),
    binary main_arg1 main_v106 main_v107 (addi : (⟨S800000, .i32⟩ : BufTy).Contents (Elt F) → (⟨S800000, .i32⟩ : BufTy).Contents (Elt F) → (⟨S800000, .i32⟩ : BufTy).Contents (Elt F)),
    ternary main_v105 main_v107 main_arg1 main_v108 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v108 main_v109 (broadcastInDim S800000x1 ![0] bcast_S800000_S800000x1_0 : (⟨S800000, .i32⟩ : BufTy).Contents (Elt F) → (⟨S800000x1, .i32⟩ : BufTy).Contents (Elt F)),
    binary main_v87 main_v109 main_v110 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_12 (constant S_ .f32 0x00000000#32),
    unary main_cst_12 main_v111 (broadcastInDim S50000x256 ![] bcast_S_S50000x256 : (⟨S_, .f32⟩ : BufTy).Contents (Elt F) → (⟨S50000x256, .f32⟩ : BufTy).Contents (Elt F)),
    unary main_arg2 main_v112 (broadcastInDim S800000x1 ![0] bcast_S800000_S800000x1_0 : (⟨S800000, .i32⟩ : BufTy).Contents (Elt F) → (⟨S800000x1, .i32⟩ : BufTy).Contents (Elt F)),
    ternary main_v111 main_v112 main_v110 main_v113 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    binary main_v87 main_v113 main_v114 (addf : (⟨S50000x256, .f32⟩ : BufTy).Contents (Elt F) → (⟨S50000x256, .f32⟩ : BufTy).Contents (Elt F) → (⟨S50000x256, .f32⟩ : BufTy).Contents (Elt F)),
    binary main_v114 main_v89 main_v115 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v91 main_v116 (broadcastInDim S1x256 ![1] bcast_S256_S1x256_1 : (⟨S256, .f32⟩ : BufTy).Contents (Elt F) → (⟨S1x256, .f32⟩ : BufTy).Contents (Elt F)),
    unary main_v116 main_v117 (broadcastInDim S50000x256 ![0, 1] bcast_S1x256_S50000x256_0_1 : (⟨S1x256, .f32⟩ : BufTy).Contents (Elt F) → (⟨S50000x256, .f32⟩ : BufTy).Contents (Elt F)),
    binary main_v115 main_v117 main_v118 (addf : (⟨S50000x256, .f32⟩ : BufTy).Contents (Elt F) → (⟨S50000x256, .f32⟩ : BufTy).Contents (Elt F) → (⟨S50000x256, .f32⟩ : BufTy).Contents (Elt F)),
    nullary main_cst_13 (constant S_ .f32 0x3C23D70A#32),
    TRef.nullary main_call4.cst (constant S_ .f32 0x00000000#32),
    TRef.unary main_call4.cst main_call4.v0 (broadcastInDim S50000x256 ![] bcast_S_S50000x256),
    TRef.binary (.of main_v118) main_call4.v0 main_call4.v1 (cmpf .oge),
    TRef.unary (.of main_cst_13) main_call4.v2 id,
    TRef.unary main_call4.v2 main_call4.v3 (broadcastInDim S50000x256 ![] bcast_S_S50000x256),
    TRef.binary main_call4.v3 (.of main_v118) main_call4.v4 mulf,
    TRef.ternary main_call4.v1 (.of main_v118) main_call4.v4 main_call4.call0.v0 select,
    binary main_v119 main_v93 main_v120 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v95 main_v121 (broadcastInDim S1x256 ![1] bcast_S256_S1x256_1 : (⟨S256, .f32⟩ : BufTy).Contents (Elt F) → (⟨S1x256, .f32⟩ : BufTy).Contents (Elt F)),
    unary main_v121 main_v122 (broadcastInDim S50000x256 ![0, 1] bcast_S1x256_S50000x256_0_1 : (⟨S1x256, .f32⟩ : BufTy).Contents (Elt F) → (⟨S50000x256, .f32⟩ : BufTy).Contents (Elt F)),
    binary main_v120 main_v122 main_v123 (addf : (⟨S50000x256, .f32⟩ : BufTy).Contents (Elt F) → (⟨S50000x256, .f32⟩ : BufTy).Contents (Elt F) → (⟨S50000x256, .f32⟩ : BufTy).Contents (Elt F)),
    unary main_v101 main_v124 (broadcastInDim S1x256 ![1] bcast_S256_S1x256_1 : (⟨S256, .f32⟩ : BufTy).Contents (Elt F) → (⟨S1x256, .f32⟩ : BufTy).Contents (Elt F)),
    unary main_v124 main_v125 (broadcastInDim S50000x256 ![0, 1] bcast_S1x256_S50000x256_0_1 : (⟨S1x256, .f32⟩ : BufTy).Contents (Elt F) → (⟨S50000x256, .f32⟩ : BufTy).Contents (Elt F)),
    binary main_v123 main_v125 main_v126 (subf : (⟨S50000x256, .f32⟩ : BufTy).Contents (Elt F) → (⟨S50000x256, .f32⟩ : BufTy).Contents (Elt F) → (⟨S50000x256, .f32⟩ : BufTy).Contents (Elt F)),
    nullary main_cst_14 (constant S_ .f32 0x3727C5AC#32),
    unary main_cst_14 main_v127 (broadcastInDim S256 ![] bcast_S_S256 : (⟨S_, .f32⟩ : BufTy).Contents (Elt F) → (⟨S256, .f32⟩ : BufTy).Contents (Elt F)),
    binary main_v103 main_v127 main_v128 (addf : (⟨S256, .f32⟩ : BufTy).Contents (Elt F) → (⟨S256, .f32⟩ : BufTy).Contents (Elt F) → (⟨S256, .f32⟩ : BufTy).Contents (Elt F)),
    unary main_v128 main_v129 (Host.rsqrt : (⟨S256, .f32⟩ : BufTy).Contents (Elt F) → (⟨S256, .f32⟩ : BufTy).Contents (Elt F)),
    unary main_v129 main_v130 (broadcastInDim S1x256 ![1] bcast_S256_S1x256_1 : (⟨S256, .f32⟩ : BufTy).Contents (Elt F) → (⟨S1x256, .f32⟩ : BufTy).Contents (Elt F)),
    unary main_v130 main_v131 (broadcastInDim S50000x256 ![0, 1] bcast_S1x256_S50000x256_0_1 : (⟨S1x256, .f32⟩ : BufTy).Contents (Elt F) → (⟨S50000x256, .f32⟩ : BufTy).Contents (Elt F)),
    binary main_v126 main_v131 main_v132 (mulf : (⟨S50000x256, .f32⟩ : BufTy).Contents (Elt F) → (⟨S50000x256, .f32⟩ : BufTy).Contents (Elt F) → (⟨S50000x256, .f32⟩ : BufTy).Contents (Elt F)),
    unary main_v97 main_v133 (broadcastInDim S1x256 ![1] bcast_S256_S1x256_1 : (⟨S256, .f32⟩ : BufTy).Contents (Elt F) → (⟨S1x256, .f32⟩ : BufTy).Contents (Elt F)),
    unary main_v133 main_v134 (broadcastInDim S50000x256 ![0, 1] bcast_S1x256_S50000x256_0_1 : (⟨S1x256, .f32⟩ : BufTy).Contents (Elt F) → (⟨S50000x256, .f32⟩ : BufTy).Contents (Elt F)),
    binary main_v132 main_v134 main_v135 (mulf : (⟨S50000x256, .f32⟩ : BufTy).Contents (Elt F) → (⟨S50000x256, .f32⟩ : BufTy).Contents (Elt F) → (⟨S50000x256, .f32⟩ : BufTy).Contents (Elt F)),
    unary main_v99 main_v136 (broadcastInDim S1x256 ![1] bcast_S256_S1x256_1 : (⟨S256, .f32⟩ : BufTy).Contents (Elt F) → (⟨S1x256, .f32⟩ : BufTy).Contents (Elt F)),
    unary main_v136 main_v137 (broadcastInDim S50000x256 ![0, 1] bcast_S1x256_S50000x256_0_1 : (⟨S1x256, .f32⟩ : BufTy).Contents (Elt F) → (⟨S50000x256, .f32⟩ : BufTy).Contents (Elt F)),
    binary main_v135 main_v137 main_v138 (addf : (⟨S50000x256, .f32⟩ : BufTy).Contents (Elt F) → (⟨S50000x256, .f32⟩ : BufTy).Contents (Elt F) → (⟨S50000x256, .f32⟩ : BufTy).Contents (Elt F)) ]

/-- @main's operations, in order: the three layers one after the other. -/
abbrev ops : List (HloOp τ sig (Elt F)) := ops0 ++ (ops1 ++ ops2)

set_option maxRecDepth 8192 in
/-- @main is that straight line: the two functions' bodies unfolded at their calls, sequencing reassociated. -/
theorem main_eq (c : Dev nD) : main (F := F) c = seq ops := by
  simp only [main, main_part0, main_part1, main_part2, fn_leaky_relu.body, fn_where.body, seq, bind_assoc, pure_bind,
    ops, ops0, ops1, ops2, List.cons_append, List.nil_append]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem ops1_sub : (ops1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem ops2_sub : (ops2 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op hop => by
    rcases List.mem_append.mp hop with h | h
    · exact List.forall_iff_forall_mem.mp ops0_sub op h
    · rcases List.mem_append.mp h with h | h
      · exact List.forall_iff_forall_mem.mp ops1_sub op h
      · exact List.forall_iff_forall_mem.mp ops2_sub op h

/-- Contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- On every device, from any memory with zero counters: every weakly fair execution of @main terminates, and in
    every final state each TensorCore buffer holds the fold of the three layers' operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after ops2 (after ops1 (after ops0 (launchContents m c))) (b : DevRef τ sig) :=
  (θ_run defs _ _).mono (fun _ h c b => (h c b).trans (by rw [after_append, after_append]))
    (run_seq scopedRefs_eq scopedSems_eq defs main (fun _ => ops) main_eq (fun _ => ops_sub) m ρ)

end Cert.ReferenceIdeal.Whole

end
-- ==== Proof.RefKeep.lean ====
/-
  No operation of the reference writes an argument buffer: after each layer's operations, and so after all three,
  every argument holds what it held before.
-/
import proofs.«180986_j63608465654042_1_alg».proof.Proof.RefRun

set_option maxRecDepth 16384

noncomputable section

namespace Cert.ReferenceIdeal.Layers

open Cert.ReferenceIdeal Cert.ReferenceIdeal.Gen Cert.ReferenceIdeal.Whole Idealize.ShloMosaic Idealize.ShloMosaic.TcCoe
open Idealize.ShloMosaic.StableHlo

variable {F : FTy → Type} [FloatOps F]

theorem keep0_arg0 (V : Valuation τ sig (Elt F)) : after ops0 V (main_arg0 : DevRef τ sig) = V (main_arg0 : DevRef τ sig) := by after_results_simp
theorem keep0_arg1 (V : Valuation τ sig (Elt F)) : after ops0 V (main_arg1 : DevRef τ sig) = V (main_arg1 : DevRef τ sig) := by after_results_simp
theorem keep0_arg2 (V : Valuation τ sig (Elt F)) : after ops0 V (main_arg2 : DevRef τ sig) = V (main_arg2 : DevRef τ sig) := by after_results_simp
theorem keep0_arg3 (V : Valuation τ sig (Elt F)) : after ops0 V (main_arg3 : DevRef τ sig) = V (main_arg3 : DevRef τ sig) := by after_results_simp
theorem keep0_arg4 (V : Valuation τ sig (Elt F)) : after ops0 V (main_arg4 : DevRef τ sig) = V (main_arg4 : DevRef τ sig) := by after_results_simp
theorem keep0_arg5 (V : Valuation τ sig (Elt F)) : after ops0 V (main_arg5 : DevRef τ sig) = V (main_arg5 : DevRef τ sig) := by after_results_simp
theorem keep0_arg6 (V : Valuation τ sig (Elt F)) : after ops0 V (main_arg6 : DevRef τ sig) = V (main_arg6 : DevRef τ sig) := by after_results_simp
theorem keep0_arg7 (V : Valuation τ sig (Elt F)) : after ops0 V (main_arg7 : DevRef τ sig) = V (main_arg7 : DevRef τ sig) := by after_results_simp
theorem keep0_arg8 (V : Valuation τ sig (Elt F)) : after ops0 V (main_arg8 : DevRef τ sig) = V (main_arg8 : DevRef τ sig) := by after_results_simp
theorem keep0_arg9 (V : Valuation τ sig (Elt F)) : after ops0 V (main_arg9 : DevRef τ sig) = V (main_arg9 : DevRef τ sig) := by after_results_simp
theorem keep0_arg10 (V : Valuation τ sig (Elt F)) : after ops0 V (main_arg10 : DevRef τ sig) = V (main_arg10 : DevRef τ sig) := by after_results_simp
theorem keep0_arg11 (V : Valuation τ sig (Elt F)) : after ops0 V (main_arg11 : DevRef τ sig) = V (main_arg11 : DevRef τ sig) := by after_results_simp
theorem keep0_arg12 (V : Valuation τ sig (Elt F)) : after ops0 V (main_arg12 : DevRef τ sig) = V (main_arg12 : DevRef τ sig) := by after_results_simp
theorem keep0_arg13 (V : Valuation τ sig (Elt F)) : after ops0 V (main_arg13 : DevRef τ sig) = V (main_arg13 : DevRef τ sig) := by after_results_simp
theorem keep0_arg14 (V : Valuation τ sig (Elt F)) : after ops0 V (main_arg14 : DevRef τ sig) = V (main_arg14 : DevRef τ sig) := by after_results_simp
theorem keep0_arg15 (V : Valuation τ sig (Elt F)) : after ops0 V (main_arg15 : DevRef τ sig) = V (main_arg15 : DevRef τ sig) := by after_results_simp
theorem keep0_arg16 (V : Valuation τ sig (Elt F)) : after ops0 V (main_arg16 : DevRef τ sig) = V (main_arg16 : DevRef τ sig) := by after_results_simp
theorem keep0_arg17 (V : Valuation τ sig (Elt F)) : after ops0 V (main_arg17 : DevRef τ sig) = V (main_arg17 : DevRef τ sig) := by after_results_simp
theorem keep0_arg18 (V : Valuation τ sig (Elt F)) : after ops0 V (main_arg18 : DevRef τ sig) = V (main_arg18 : DevRef τ sig) := by after_results_simp
theorem keep1_arg0 (V : Valuation τ sig (Elt F)) : after ops1 V (main_arg0 : DevRef τ sig) = V (main_arg0 : DevRef τ sig) := by after_results_simp
theorem keep1_arg1 (V : Valuation τ sig (Elt F)) : after ops1 V (main_arg1 : DevRef τ sig) = V (main_arg1 : DevRef τ sig) := by after_results_simp
theorem keep1_arg2 (V : Valuation τ sig (Elt F)) : after ops1 V (main_arg2 : DevRef τ sig) = V (main_arg2 : DevRef τ sig) := by after_results_simp
theorem keep1_arg3 (V : Valuation τ sig (Elt F)) : after ops1 V (main_arg3 : DevRef τ sig) = V (main_arg3 : DevRef τ sig) := by after_results_simp
theorem keep1_arg4 (V : Valuation τ sig (Elt F)) : after ops1 V (main_arg4 : DevRef τ sig) = V (main_arg4 : DevRef τ sig) := by after_results_simp
theorem keep1_arg5 (V : Valuation τ sig (Elt F)) : after ops1 V (main_arg5 : DevRef τ sig) = V (main_arg5 : DevRef τ sig) := by after_results_simp
theorem keep1_arg6 (V : Valuation τ sig (Elt F)) : after ops1 V (main_arg6 : DevRef τ sig) = V (main_arg6 : DevRef τ sig) := by after_results_simp
theorem keep1_arg7 (V : Valuation τ sig (Elt F)) : after ops1 V (main_arg7 : DevRef τ sig) = V (main_arg7 : DevRef τ sig) := by after_results_simp
theorem keep1_arg8 (V : Valuation τ sig (Elt F)) : after ops1 V (main_arg8 : DevRef τ sig) = V (main_arg8 : DevRef τ sig) := by after_results_simp
theorem keep1_arg9 (V : Valuation τ sig (Elt F)) : after ops1 V (main_arg9 : DevRef τ sig) = V (main_arg9 : DevRef τ sig) := by after_results_simp
theorem keep1_arg10 (V : Valuation τ sig (Elt F)) : after ops1 V (main_arg10 : DevRef τ sig) = V (main_arg10 : DevRef τ sig) := by after_results_simp
theorem keep1_arg11 (V : Valuation τ sig (Elt F)) : after ops1 V (main_arg11 : DevRef τ sig) = V (main_arg11 : DevRef τ sig) := by after_results_simp
theorem keep1_arg12 (V : Valuation τ sig (Elt F)) : after ops1 V (main_arg12 : DevRef τ sig) = V (main_arg12 : DevRef τ sig) := by after_results_simp
theorem keep1_arg13 (V : Valuation τ sig (Elt F)) : after ops1 V (main_arg13 : DevRef τ sig) = V (main_arg13 : DevRef τ sig) := by after_results_simp
theorem keep1_arg14 (V : Valuation τ sig (Elt F)) : after ops1 V (main_arg14 : DevRef τ sig) = V (main_arg14 : DevRef τ sig) := by after_results_simp
theorem keep1_arg15 (V : Valuation τ sig (Elt F)) : after ops1 V (main_arg15 : DevRef τ sig) = V (main_arg15 : DevRef τ sig) := by after_results_simp
theorem keep1_arg16 (V : Valuation τ sig (Elt F)) : after ops1 V (main_arg16 : DevRef τ sig) = V (main_arg16 : DevRef τ sig) := by after_results_simp
theorem keep1_arg17 (V : Valuation τ sig (Elt F)) : after ops1 V (main_arg17 : DevRef τ sig) = V (main_arg17 : DevRef τ sig) := by after_results_simp
theorem keep1_arg18 (V : Valuation τ sig (Elt F)) : after ops1 V (main_arg18 : DevRef τ sig) = V (main_arg18 : DevRef τ sig) := by after_results_simp
theorem keep2_arg0 (V : Valuation τ sig (Elt F)) : after ops2 V (main_arg0 : DevRef τ sig) = V (main_arg0 : DevRef τ sig) := by after_results_simp
theorem keep2_arg1 (V : Valuation τ sig (Elt F)) : after ops2 V (main_arg1 : DevRef τ sig) = V (main_arg1 : DevRef τ sig) := by after_results_simp
theorem keep2_arg2 (V : Valuation τ sig (Elt F)) : after ops2 V (main_arg2 : DevRef τ sig) = V (main_arg2 : DevRef τ sig) := by after_results_simp
theorem keep2_arg3 (V : Valuation τ sig (Elt F)) : after ops2 V (main_arg3 : DevRef τ sig) = V (main_arg3 : DevRef τ sig) := by after_results_simp
theorem keep2_arg4 (V : Valuation τ sig (Elt F)) : after ops2 V (main_arg4 : DevRef τ sig) = V (main_arg4 : DevRef τ sig) := by after_results_simp
theorem keep2_arg5 (V : Valuation τ sig (Elt F)) : after ops2 V (main_arg5 : DevRef τ sig) = V (main_arg5 : DevRef τ sig) := by after_results_simp
theorem keep2_arg6 (V : Valuation τ sig (Elt F)) : after ops2 V (main_arg6 : DevRef τ sig) = V (main_arg6 : DevRef τ sig) := by after_results_simp
theorem keep2_arg7 (V : Valuation τ sig (Elt F)) : after ops2 V (main_arg7 : DevRef τ sig) = V (main_arg7 : DevRef τ sig) := by after_results_simp
theorem keep2_arg8 (V : Valuation τ sig (Elt F)) : after ops2 V (main_arg8 : DevRef τ sig) = V (main_arg8 : DevRef τ sig) := by after_results_simp
theorem keep2_arg9 (V : Valuation τ sig (Elt F)) : after ops2 V (main_arg9 : DevRef τ sig) = V (main_arg9 : DevRef τ sig) := by after_results_simp
theorem keep2_arg10 (V : Valuation τ sig (Elt F)) : after ops2 V (main_arg10 : DevRef τ sig) = V (main_arg10 : DevRef τ sig) := by after_results_simp
theorem keep2_arg11 (V : Valuation τ sig (Elt F)) : after ops2 V (main_arg11 : DevRef τ sig) = V (main_arg11 : DevRef τ sig) := by after_results_simp
theorem keep2_arg12 (V : Valuation τ sig (Elt F)) : after ops2 V (main_arg12 : DevRef τ sig) = V (main_arg12 : DevRef τ sig) := by after_results_simp
theorem keep2_arg13 (V : Valuation τ sig (Elt F)) : after ops2 V (main_arg13 : DevRef τ sig) = V (main_arg13 : DevRef τ sig) := by after_results_simp
theorem keep2_arg14 (V : Valuation τ sig (Elt F)) : after ops2 V (main_arg14 : DevRef τ sig) = V (main_arg14 : DevRef τ sig) := by after_results_simp
theorem keep2_arg15 (V : Valuation τ sig (Elt F)) : after ops2 V (main_arg15 : DevRef τ sig) = V (main_arg15 : DevRef τ sig) := by after_results_simp
theorem keep2_arg16 (V : Valuation τ sig (Elt F)) : after ops2 V (main_arg16 : DevRef τ sig) = V (main_arg16 : DevRef τ sig) := by after_results_simp
theorem keep2_arg17 (V : Valuation τ sig (Elt F)) : after ops2 V (main_arg17 : DevRef τ sig) = V (main_arg17 : DevRef τ sig) := by after_results_simp
theorem keep2_arg18 (V : Valuation τ sig (Elt F)) : after ops2 V (main_arg18 : DevRef τ sig) = V (main_arg18 : DevRef τ sig) := by after_results_simp

theorem kept_arg0 (V : Valuation τ sig (Elt F)) : after ops2 (after ops1 (after ops0 V)) (main_arg0 : DevRef τ sig) = V (main_arg0 : DevRef τ sig) := by
  rw [keep2_arg0, keep1_arg0, keep0_arg0]
theorem kept_arg1 (V : Valuation τ sig (Elt F)) : after ops2 (after ops1 (after ops0 V)) (main_arg1 : DevRef τ sig) = V (main_arg1 : DevRef τ sig) := by
  rw [keep2_arg1, keep1_arg1, keep0_arg1]
theorem kept_arg2 (V : Valuation τ sig (Elt F)) : after ops2 (after ops1 (after ops0 V)) (main_arg2 : DevRef τ sig) = V (main_arg2 : DevRef τ sig) := by
  rw [keep2_arg2, keep1_arg2, keep0_arg2]
theorem kept_arg3 (V : Valuation τ sig (Elt F)) : after ops2 (after ops1 (after ops0 V)) (main_arg3 : DevRef τ sig) = V (main_arg3 : DevRef τ sig) := by
  rw [keep2_arg3, keep1_arg3, keep0_arg3]
theorem kept_arg4 (V : Valuation τ sig (Elt F)) : after ops2 (after ops1 (after ops0 V)) (main_arg4 : DevRef τ sig) = V (main_arg4 : DevRef τ sig) := by
  rw [keep2_arg4, keep1_arg4, keep0_arg4]
theorem kept_arg5 (V : Valuation τ sig (Elt F)) : after ops2 (after ops1 (after ops0 V)) (main_arg5 : DevRef τ sig) = V (main_arg5 : DevRef τ sig) := by
  rw [keep2_arg5, keep1_arg5, keep0_arg5]
theorem kept_arg6 (V : Valuation τ sig (Elt F)) : after ops2 (after ops1 (after ops0 V)) (main_arg6 : DevRef τ sig) = V (main_arg6 : DevRef τ sig) := by
  rw [keep2_arg6, keep1_arg6, keep0_arg6]
theorem kept_arg7 (V : Valuation τ sig (Elt F)) : after ops2 (after ops1 (after ops0 V)) (main_arg7 : DevRef τ sig) = V (main_arg7 : DevRef τ sig) := by
  rw [keep2_arg7, keep1_arg7, keep0_arg7]
theorem kept_arg8 (V : Valuation τ sig (Elt F)) : after ops2 (after ops1 (after ops0 V)) (main_arg8 : DevRef τ sig) = V (main_arg8 : DevRef τ sig) := by
  rw [keep2_arg8, keep1_arg8, keep0_arg8]
theorem kept_arg9 (V : Valuation τ sig (Elt F)) : after ops2 (after ops1 (after ops0 V)) (main_arg9 : DevRef τ sig) = V (main_arg9 : DevRef τ sig) := by
  rw [keep2_arg9, keep1_arg9, keep0_arg9]
theorem kept_arg10 (V : Valuation τ sig (Elt F)) : after ops2 (after ops1 (after ops0 V)) (main_arg10 : DevRef τ sig) = V (main_arg10 : DevRef τ sig) := by
  rw [keep2_arg10, keep1_arg10, keep0_arg10]
theorem kept_arg11 (V : Valuation τ sig (Elt F)) : after ops2 (after ops1 (after ops0 V)) (main_arg11 : DevRef τ sig) = V (main_arg11 : DevRef τ sig) := by
  rw [keep2_arg11, keep1_arg11, keep0_arg11]
theorem kept_arg12 (V : Valuation τ sig (Elt F)) : after ops2 (after ops1 (after ops0 V)) (main_arg12 : DevRef τ sig) = V (main_arg12 : DevRef τ sig) := by
  rw [keep2_arg12, keep1_arg12, keep0_arg12]
theorem kept_arg13 (V : Valuation τ sig (Elt F)) : after ops2 (after ops1 (after ops0 V)) (main_arg13 : DevRef τ sig) = V (main_arg13 : DevRef τ sig) := by
  rw [keep2_arg13, keep1_arg13, keep0_arg13]
theorem kept_arg14 (V : Valuation τ sig (Elt F)) : after ops2 (after ops1 (after ops0 V)) (main_arg14 : DevRef τ sig) = V (main_arg14 : DevRef τ sig) := by
  rw [keep2_arg14, keep1_arg14, keep0_arg14]
theorem kept_arg15 (V : Valuation τ sig (Elt F)) : after ops2 (after ops1 (after ops0 V)) (main_arg15 : DevRef τ sig) = V (main_arg15 : DevRef τ sig) := by
  rw [keep2_arg15, keep1_arg15, keep0_arg15]
theorem kept_arg16 (V : Valuation τ sig (Elt F)) : after ops2 (after ops1 (after ops0 V)) (main_arg16 : DevRef τ sig) = V (main_arg16 : DevRef τ sig) := by
  rw [keep2_arg16, keep1_arg16, keep0_arg16]
theorem kept_arg17 (V : Valuation τ sig (Elt F)) : after ops2 (after ops1 (after ops0 V)) (main_arg17 : DevRef τ sig) = V (main_arg17 : DevRef τ sig) := by
  rw [keep2_arg17, keep1_arg17, keep0_arg17]
theorem kept_arg18 (V : Valuation τ sig (Elt F)) : after ops2 (after ops1 (after ops0 V)) (main_arg18 : DevRef τ sig) = V (main_arg18 : DevRef τ sig) := by
  rw [keep2_arg18, keep1_arg18, keep0_arg18]

end Cert.ReferenceIdeal.Layers

end
-- ==== Proof.RefLayers.lean ====
/-
  The reference's three layers read off its operations. Each layer's result buffer holds the layer function
  (`Cert.Gin.layer`) of the buffers the layer reads: the host contraction of a 50000-row array with a weight matrix is
  the sum over the contracted axis, a per-feature vector reaches the rows through a unit axis and a stretch, the
  rectifier is the outlined function's comparison, product and selection, and the reciprocal square root is taken
  per feature before it is stretched. The argument buffers are written by no operation.
-/
import proofs.«180986_j63608465654042_1_alg».proof.Proof.RefKeep
import proofs.«180986_j63608465654042_1_alg».proof.Proof.NetSpec
import proofs.«180986_j63608465654042_1_alg».proof.Proof.Rows

set_option maxRecDepth 16384

noncomputable section

namespace Cert.ReferenceIdeal.Layers

open Cert.ReferenceIdeal Cert.ReferenceIdeal.Gen Cert.ReferenceIdeal.Whole Idealize.ShloMosaic Idealize.ShloMosaic.TcCoe
open Idealize.ShloMosaic.StableHlo Idealize.ShloMosaic.ValueIdx Cert.Gin Cert.Gin.Rows Cert.Gcn.Dense

/-- The neighbour sums of a 128-feature array: the rows gathered at the edges' sources (a negative index wrapped
    once by the row count), scatter-added into zeros at the edges' targets. -/
def SG0 (src dst : IVec S800000 32) (h : FVec Ideal S50000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The neighbour sums of a 256-feature array. -/
def SG1 (src dst : IVec S800000 32) (h : FVec Ideal S50000x256 .f32) : FVec Ideal S50000x256 .f32 :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 dst)
    (Host.gather gather_S50000x256_S800000x1_S800000x256_1_0_n_n_0_1_1256 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

theorem dot128_apply (Z : FVec Ideal S50000x128 .f32) (W : FVec Ideal S128x256 .f32) (r : Fin 50000) (q : Fin 256) :
    Host.dotGeneral dot_S50000x128_S128x256_S50000x256_1_0_0_1_n_n none Z W (ix2 r q) = ∑ k : Fin 128, Z (ix2 r k) * W (ix2 k q) :=
  (Ideal.dotGeneral_apply dot_S50000x128_S128x256_S50000x256_1_0_0_1_n_n none _ Z W (ix2 r q)).trans
    (sum_contr_eq_prod (M := 50000) (K := 128) (N := 256) dot_S50000x128_S128x256_S50000x256_1_0_0_1_n_n rfl rfl
      (fun _ _ => rfl) (fun i q => dot_S50000x128_S128x256_S50000x256_1_0_0_1_n_n.lhsIdx_val_of_single rfl i q)
      (fun i q => dot_S50000x128_S128x256_S50000x256_1_0_0_1_n_n.rhsIdx_val_of_single rfl i q) (fun _ _ => rfl) Z W (ix2 r q))

theorem dot256_apply (Z : FVec Ideal S50000x256 .f32) (W : FVec Ideal S256x256 .f32) (r : Fin 50000) (q : Fin 256) :
    Host.dotGeneral dot_S50000x256_S256x256_S50000x256_1_0_0_1_n_n none Z W (ix2 r q) = ∑ k : Fin 256, Z (ix2 r k) * W (ix2 k q) :=
  (Ideal.dotGeneral_apply dot_S50000x256_S256x256_S50000x256_1_0_0_1_n_n none _ Z W (ix2 r q)).trans
    (sum_contr_eq_prod (M := 50000) (K := 256) (N := 256) dot_S50000x256_S256x256_S50000x256_1_0_0_1_n_n rfl rfl
      (fun _ _ => rfl) (fun i q => dot_S50000x256_S256x256_S50000x256_1_0_0_1_n_n.lhsIdx_val_of_single rfl i q)
      (fun i q => dot_S50000x256_S256x256_S50000x256_1_0_0_1_n_n.rhsIdx_val_of_single rfl i q) (fun _ _ => rfl) Z W (ix2 r q))

theorem hostRsqrt_apply {s : Shape} (x : FVec Ideal s .f32) (i : s.Idx) : Host.rsqrt x i = Ideal.rsqrt (x i) := rfl

theorem sg0_def (src dst : IVec S800000 32) (h : FVec Ideal S50000x128 .f32) : SG0 src dst h =
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src))) := rfl
theorem sg1_def (src dst : IVec S800000 32) (h : FVec Ideal S50000x256 .f32) : SG1 src dst h =
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 dst)
    (Host.gather gather_S50000x256_S800000x1_S800000x256_1_0_n_n_0_1_1256 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src))) := rfl

/-- A per-feature vector given a unit axis and stretched over the 50000 rows, as one function. -/
theorem rowfun_eq {α : Type} (b : S256.Idx → α) :
    broadcastInDim S50000x256 ![0, 1] bcast_S1x256_S50000x256_0_1 (broadcastInDim S1x256 ![1] bcast_S256_S1x256_1 b)
      = fun i => b (ix1 (i 1)) := funext fun i => by
  obtain ⟨r, q, rfl⟩ : ∃ (r : Fin 50000) (q : Fin 256), i = ix2 r q := ⟨i 0, i 1, eq_ix2 i⟩
  exact (hostStretch_apply _ bcast_S1x256_S50000x256_0_1 r q).trans (unitAxis_apply b bcast_S256_S1x256_1 0 q)
/-- A scalar stretched over the 50000 × 256 array, as one function. -/
theorem scalarM_eq {α : Type} (x : S_.Idx → α) :
    broadcastInDim S50000x256 ![] bcast_S_S50000x256 x = fun _ => x ix0 :=
  funext fun j => scalarStretch_apply x bcast_S_S50000x256 j
/-- A scalar stretched over a length-256 vector, as one function. -/
theorem scalarV_eq {α : Type} (x : S_.Idx → α) :
    broadcastInDim S256 ![] bcast_S_S256 x = fun _ => x ix0 :=
  funext fun j => scalarStretch_apply x bcast_S_S256 j

set_option maxHeartbeats 4000000 in
attribute [local irreducible] Host.scatterAdd Host.gather in
/-- Layer 0 of the reference, read off its operations: the layer function of the buffers it reads. -/
theorem layer0_eq (V : Valuation τ sig (Elt Ideal)) :
    after ops0 V (main_v35 : DevRef τ sig)
      = layer (M := 50000) (K := 128) false (V (main_arg0 : DevRef τ sig) : S50000x128.Idx → EReal)
          (SG0 (V (main_arg1 : DevRef τ sig) : IVec S800000 32) (V (main_arg2 : DevRef τ sig) : IVec S800000 32) (V (main_arg0 : DevRef τ sig) : S50000x128.Idx → EReal))
          (V (main_arg3 : DevRef τ sig) : S128x256.Idx → EReal)
          (vec (V (main_arg4 : DevRef τ sig) : S256.Idx → EReal))
          (V (main_arg5 : DevRef τ sig) : S256x256.Idx → EReal)
          (vec (V (main_arg6 : DevRef τ sig) : S256.Idx → EReal))
          (vec (V (main_arg7 : DevRef τ sig) : S256.Idx → EReal))
          (vec (V (main_arg8 : DevRef τ sig) : S256.Idx → EReal))
          (vec (V (main_arg9 : DevRef τ sig) : S256.Idx → EReal))
          (vec (V (main_arg10 : DevRef τ sig) : S256.Idx → EReal)) := by
  after_results_simp
  simp only [TRef.toBuf, TRef.ofBuf, cast_eq]
  rw [← sg0_def]
  repeat rw [rowfun_eq]
  repeat rw [scalarM_eq]
  repeat rw [scalarV_eq]
  funext i
  obtain ⟨r, q, rfl⟩ : ∃ (r : Fin 50000) (q : Fin 256), i = ix2 r q := ⟨i 0, i 1, eq_ix2 i⟩
  simp only [select_apply, cmpf_apply, mulf_apply, addf_apply, subf_apply,  hostRsqrt_apply, constant_apply, dot128_apply, dot256_apply, id]
  rfl

set_option maxHeartbeats 4000000 in
attribute [local irreducible] Host.scatterAdd Host.gather in
/-- Layer 1 of the reference, read off its operations: the layer function of the buffers it reads. -/
theorem layer1_eq (V : Valuation τ sig (Elt Ideal)) :
    after ops1 V (main_v87 : DevRef τ sig)
      = layer (M := 50000) (K := 256) false (V (main_v35 : DevRef τ sig) : S50000x256.Idx → EReal)
          (SG1 (V (main_arg1 : DevRef τ sig) : IVec S800000 32) (V (main_arg2 : DevRef τ sig) : IVec S800000 32) (V (main_v35 : DevRef τ sig) : S50000x256.Idx → EReal))
          (mat0 (V (main_arg11 : DevRef τ sig) : S2x256x256.Idx → EReal))
          (vec (row0 (V (main_arg12 : DevRef τ sig) : S2x256.Idx → EReal)))
          (mat0 (V (main_arg13 : DevRef τ sig) : S2x256x256.Idx → EReal))
          (vec (row0 (V (main_arg14 : DevRef τ sig) : S2x256.Idx → EReal)))
          (vec (row0 (V (main_arg15 : DevRef τ sig) : S2x256.Idx → EReal)))
          (vec (row0 (V (main_arg16 : DevRef τ sig) : S2x256.Idx → EReal)))
          (vec (row0 (V (main_arg17 : DevRef τ sig) : S2x256.Idx → EReal)))
          (vec (row0 (V (main_arg18 : DevRef τ sig) : S2x256.Idx → EReal))) := by
  after_results_simp
  simp only [TRef.toBuf, TRef.ofBuf, cast_eq]
  rw [← sg1_def]
  repeat rw [rowfun_eq]
  repeat rw [scalarM_eq]
  repeat rw [scalarV_eq]
  funext i
  obtain ⟨r, q, rfl⟩ : ∃ (r : Fin 50000) (q : Fin 256), i = ix2 r q := ⟨i 0, i 1, eq_ix2 i⟩
  simp only [select_apply, cmpf_apply, mulf_apply, addf_apply, subf_apply,  hostRsqrt_apply, constant_apply, dot128_apply, dot256_apply, id]
  rfl

set_option maxHeartbeats 4000000 in
attribute [local irreducible] Host.scatterAdd Host.gather in
/-- Layer 2 of the reference, read off its operations: the layer function of the buffers it reads. -/
theorem layer2_eq (V : Valuation τ sig (Elt Ideal)) :
    after ops2 V (main_v138 : DevRef τ sig)
      = layer (M := 50000) (K := 256) true (V (main_v87 : DevRef τ sig) : S50000x256.Idx → EReal)
          (SG1 (V (main_arg1 : DevRef τ sig) : IVec S800000 32) (V (main_arg2 : DevRef τ sig) : IVec S800000 32) (V (main_v87 : DevRef τ sig) : S50000x256.Idx → EReal))
          (mat1 (V (main_arg11 : DevRef τ sig) : S2x256x256.Idx → EReal))
          (vec (row1 (V (main_arg12 : DevRef τ sig) : S2x256.Idx → EReal)))
          (mat1 (V (main_arg13 : DevRef τ sig) : S2x256x256.Idx → EReal))
          (vec (row1 (V (main_arg14 : DevRef τ sig) : S2x256.Idx → EReal)))
          (vec (row1 (V (main_arg15 : DevRef τ sig) : S2x256.Idx → EReal)))
          (vec (row1 (V (main_arg16 : DevRef τ sig) : S2x256.Idx → EReal)))
          (vec (row1 (V (main_arg17 : DevRef τ sig) : S2x256.Idx → EReal)))
          (vec (row1 (V (main_arg18 : DevRef τ sig) : S2x256.Idx → EReal))) := by
  after_results_simp
  simp only [TRef.toBuf, TRef.ofBuf, cast_eq]
  rw [← sg1_def]
  repeat rw [rowfun_eq]
  repeat rw [scalarM_eq]
  repeat rw [scalarV_eq]
  funext i
  obtain ⟨r, q, rfl⟩ : ∃ (r : Fin 50000) (q : Fin 256), i = ix2 r q := ⟨i 0, i 1, eq_ix2 i⟩
  simp only [select_apply, cmpf_apply, mulf_apply, addf_apply, subf_apply,  hostRsqrt_apply, constant_apply, dot128_apply, dot256_apply, id]
  rfl

/-- The reference's result buffer after its three layers: the network of the launch contents of its arguments. -/
theorem value (V : Valuation τ sig (Elt Ideal)) :
    after ops2 (after ops1 (after ops0 V)) (main_v138 : DevRef τ sig)
      = net (SG0 (V (main_arg1 : DevRef τ sig) : IVec S800000 32) (V (main_arg2 : DevRef τ sig) : IVec S800000 32)) (SG1 (V (main_arg1 : DevRef τ sig) : IVec S800000 32) (V (main_arg2 : DevRef τ sig) : IVec S800000 32))
          (V (main_arg0 : DevRef τ sig) : S50000x128.Idx → EReal) (V (main_arg3 : DevRef τ sig) : S128x256.Idx → EReal) (V (main_arg4 : DevRef τ sig) : S256.Idx → EReal)
          (V (main_arg5 : DevRef τ sig) : S256x256.Idx → EReal) (V (main_arg6 : DevRef τ sig) : S256.Idx → EReal) (V (main_arg7 : DevRef τ sig) : S256.Idx → EReal) (V (main_arg8 : DevRef τ sig) : S256.Idx → EReal) (V (main_arg9 : DevRef τ sig) : S256.Idx → EReal) (V (main_arg10 : DevRef τ sig) : S256.Idx → EReal)
          (V (main_arg11 : DevRef τ sig) : S2x256x256.Idx → EReal) (V (main_arg12 : DevRef τ sig) : S2x256.Idx → EReal) (V (main_arg13 : DevRef τ sig) : S2x256x256.Idx → EReal) (V (main_arg14 : DevRef τ sig) : S2x256.Idx → EReal) (V (main_arg15 : DevRef τ sig) : S2x256.Idx → EReal) (V (main_arg16 : DevRef τ sig) : S2x256.Idx → EReal) (V (main_arg17 : DevRef τ sig) : S2x256.Idx → EReal) (V (main_arg18 : DevRef τ sig) : S2x256.Idx → EReal) := by
  rw [layer2_eq, layer1_eq, layer0_eq]
  rw [keep1_arg1, keep1_arg2, keep1_arg11, keep1_arg12, keep1_arg13, keep1_arg14, keep1_arg15, keep1_arg16, keep1_arg17, keep1_arg18, keep0_arg1, keep0_arg2, keep0_arg11, keep0_arg12, keep0_arg13, keep0_arg14, keep0_arg15, keep0_arg16, keep0_arg17, keep0_arg18]
  rfl

end Cert.ReferenceIdeal.Layers

end
-- ==== Proof.lean ====
/-
  The certificate: a three-layer graph network whose dense stage (two matrix products, a leaky rectifier, a
  normalisation by running statistics) runs as a tiled kernel, 2000 node rows at a time, against the same network
  written with whole-array host operations.

  On the extended reals the two programs compute one function. Per layer both add to each node's feature row the sum
  of its neighbours' rows — the SAME gather and scatter-add on both sides, carried as one function and never opened —
  and then apply, row by row, `Σ_k (h + s)(r,k) · w1(k,j) + b1(j)`, the rectifier, `Σ_j a(r,j) · w2(j,q) + b2(q)`, the
  normalisation `(y - μ) · (σ² + ε)^(-1/2) · γ + β` and (first two layers) the rectifier again. A tile's matrix product
  into a zero accumulator and the host's contraction are the same sum over the contracted axis; a change of float
  format is the identity; a per-feature vector stretched over the rows reads the same entry either way; and a row
  of the output depends only on the same row of the inputs, so 25 tiles of 2000 rows are the 50000 rows. No law of
  arithmetic beyond these identities of arrangement is used, so the finiteness of the inputs is never opened.
  The idealization rewrote nothing, so the kernel's idealized program is its own text read on the extended reals.
-/
import proofs.«180986_j63608465654042_1_alg».proof.Defs
import proofs.«180986_j63608465654042_1_alg».proof.Proof.Gen.Kernel
import proofs.«180986_j63608465654042_1_alg».proof.Proof.Gen.Kernel.Frame
import proofs.«180986_j63608465654042_1_alg».proof.Proof.Gen.KernelIdeal
import proofs.«180986_j63608465654042_1_alg».proof.Proof.Gen.KernelIdeal.Frame
import proofs.«180986_j63608465654042_1_alg».proof.Proof.Gen.ReferenceIdeal
import proofs.«180986_j63608465654042_1_alg».proof.Proof.Gen.Pre_finite_inputs
import proofs.«180986_j63608465654042_1_alg».proof.Proof.KRun
import proofs.«180986_j63608465654042_1_alg».proof.Proof.KHost
import proofs.«180986_j63608465654042_1_alg».proof.Proof.RefKeep
import proofs.«180986_j63608465654042_1_alg».proof.Proof.RefLayers
import Idealize.ShloMosaic.Adequacy
import Idealize.ShloMosaic.Init

set_option maxRecDepth 16384

noncomputable section

namespace Cert.Proof

open Idealize.ShloMosaic Idealize.ShloMosaic.TcCoe Idealize.SL.Sem Cert.Gin

theorem frame_kernel : Cert.frame_Kernel := fun m ρ _ => Cert.Kernel.Gen.frame m ρ

theorem frame_kernelIdeal : Cert.frame_KernelIdeal := fun m ρ _ => Cert.KernelIdeal.Gen.frame m ρ

/-- The reference terminates and writes no argument: its run, each argument read through the three layers' folds. -/
theorem frame_reference : Cert.frame_ReferenceIdeal := fun m ρ _ =>
  (θ_run Cert.ReferenceIdeal.defs _ _).mono (fun r h c =>
    ⟨(h c Cert.ReferenceIdeal.main_arg0).trans (Cert.ReferenceIdeal.Layers.kept_arg0 _),
     (h c Cert.ReferenceIdeal.main_arg1).trans (Cert.ReferenceIdeal.Layers.kept_arg1 _),
     (h c Cert.ReferenceIdeal.main_arg2).trans (Cert.ReferenceIdeal.Layers.kept_arg2 _),
     (h c Cert.ReferenceIdeal.main_arg3).trans (Cert.ReferenceIdeal.Layers.kept_arg3 _),
     (h c Cert.ReferenceIdeal.main_arg4).trans (Cert.ReferenceIdeal.Layers.kept_arg4 _),
     (h c Cert.ReferenceIdeal.main_arg5).trans (Cert.ReferenceIdeal.Layers.kept_arg5 _),
     (h c Cert.ReferenceIdeal.main_arg6).trans (Cert.ReferenceIdeal.Layers.kept_arg6 _),
     (h c Cert.ReferenceIdeal.main_arg7).trans (Cert.ReferenceIdeal.Layers.kept_arg7 _),
     (h c Cert.ReferenceIdeal.main_arg8).trans (Cert.ReferenceIdeal.Layers.kept_arg8 _),
     (h c Cert.ReferenceIdeal.main_arg9).trans (Cert.ReferenceIdeal.Layers.kept_arg9 _),
     (h c Cert.ReferenceIdeal.main_arg10).trans (Cert.ReferenceIdeal.Layers.kept_arg10 _),
     (h c Cert.ReferenceIdeal.main_arg11).trans (Cert.ReferenceIdeal.Layers.kept_arg11 _),
     (h c Cert.ReferenceIdeal.main_arg12).trans (Cert.ReferenceIdeal.Layers.kept_arg12 _),
     (h c Cert.ReferenceIdeal.main_arg13).trans (Cert.ReferenceIdeal.Layers.kept_arg13 _),
     (h c Cert.ReferenceIdeal.main_arg14).trans (Cert.ReferenceIdeal.Layers.kept_arg14 _),
     (h c Cert.ReferenceIdeal.main_arg15).trans (Cert.ReferenceIdeal.Layers.kept_arg15 _),
     (h c Cert.ReferenceIdeal.main_arg16).trans (Cert.ReferenceIdeal.Layers.kept_arg16 _),
     (h c Cert.ReferenceIdeal.main_arg17).trans (Cert.ReferenceIdeal.Layers.kept_arg17 _),
     (h c Cert.ReferenceIdeal.main_arg18).trans (Cert.ReferenceIdeal.Layers.kept_arg18 _)⟩)
    (Cert.ReferenceIdeal.Whole.run_all (F := Ideal) m ρ)

attribute [local irreducible] Host.scatterAdd Host.gather in
/-- From arguments that agree, the reference's network is the kernel program's third stage: the same layers of the
    same arrays, the neighbour sums the same host operations on both sides. -/
theorem nets_agree (c : Dev Cert.KernelIdeal.nD)
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (a0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (a1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (a2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (a3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (a4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (a5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (a6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (a7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (a8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (a9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (a10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (a11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (a12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (a13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13)))
    (a14 : (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14)))
    (a15 : (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15)))
    (a16 : (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16)))
    (a17 : (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17)))
    (a18 : (m' ((c.tc : Thread Cert.ReferenceIdeal.nD Cert.ReferenceIdeal.τ).loc Cert.ReferenceIdeal.main_arg18)) = (m ((c.tc : Thread Cert.KernelIdeal.nD Cert.KernelIdeal.τ).loc Cert.KernelIdeal.main_arg18))) :
    net (Cert.ReferenceIdeal.Layers.SG0 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))) (Cert.ReferenceIdeal.Layers.SG1 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)))
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18))
      = Cert.KernelIdeal.Stages.H3 m c := by
  rw [a0, a1, a2, a3, a4, a5, a6, a7, a8, a9, a10, a11, a12, a13, a14, a15, a16, a17, a18]
  rfl

theorem algebraic : Cert.algebraic_KernelIdeal_ReferenceIdeal := by
  intro m ρ m' ρ' _ hagree
  refine ⟨fun c => Cert.KernelIdeal.Stages.H3 m c, ?_, ?_⟩
  · exact (θ_run Cert.KernelIdeal.defs _ _).mono (fun r h c =>
      ⟨(h c _ (Cert.KernelIdeal.Gen.mem_uc Cert.KernelIdeal.main_v88 (by decide))).trans (Cert.KernelIdeal.Stages.result m ρ c),
       (h c _ (Cert.KernelIdeal.Gen.mem_uc Cert.KernelIdeal.main_arg0 (by decide))).trans (Cert.KernelIdeal.Gen.W6_main_arg0 m ρ c),
       (h c _ (Cert.KernelIdeal.Gen.mem_uc Cert.KernelIdeal.main_arg1 (by decide))).trans (Cert.KernelIdeal.Gen.W6_main_arg1 m ρ c),
       (h c _ (Cert.KernelIdeal.Gen.mem_uc Cert.KernelIdeal.main_arg2 (by decide))).trans (Cert.KernelIdeal.Gen.W6_main_arg2 m ρ c),
       (h c _ (Cert.KernelIdeal.Gen.mem_uc Cert.KernelIdeal.main_arg3 (by decide))).trans (Cert.KernelIdeal.Gen.W6_main_arg3 m ρ c),
       (h c _ (Cert.KernelIdeal.Gen.mem_uc Cert.KernelIdeal.main_arg4 (by decide))).trans (Cert.KernelIdeal.Gen.W6_main_arg4 m ρ c),
       (h c _ (Cert.KernelIdeal.Gen.mem_uc Cert.KernelIdeal.main_arg5 (by decide))).trans (Cert.KernelIdeal.Gen.W6_main_arg5 m ρ c),
       (h c _ (Cert.KernelIdeal.Gen.mem_uc Cert.KernelIdeal.main_arg6 (by decide))).trans (Cert.KernelIdeal.Gen.W6_main_arg6 m ρ c),
       (h c _ (Cert.KernelIdeal.Gen.mem_uc Cert.KernelIdeal.main_arg7 (by decide))).trans (Cert.KernelIdeal.Gen.W6_main_arg7 m ρ c),
       (h c _ (Cert.KernelIdeal.Gen.mem_uc Cert.KernelIdeal.main_arg8 (by decide))).trans (Cert.KernelIdeal.Gen.W6_main_arg8 m ρ c),
       (h c _ (Cert.KernelIdeal.Gen.mem_uc Cert.KernelIdeal.main_arg9 (by decide))).trans (Cert.KernelIdeal.Gen.W6_main_arg9 m ρ c),
       (h c _ (Cert.KernelIdeal.Gen.mem_uc Cert.KernelIdeal.main_arg10 (by decide))).trans (Cert.KernelIdeal.Gen.W6_main_arg10 m ρ c),
       (h c _ (Cert.KernelIdeal.Gen.mem_uc Cert.KernelIdeal.main_arg11 (by decide))).trans (Cert.KernelIdeal.Gen.W6_main_arg11 m ρ c),
       (h c _ (Cert.KernelIdeal.Gen.mem_uc Cert.KernelIdeal.main_arg12 (by decide))).trans (Cert.KernelIdeal.Gen.W6_main_arg12 m ρ c),
       (h c _ (Cert.KernelIdeal.Gen.mem_uc Cert.KernelIdeal.main_arg13 (by decide))).trans (Cert.KernelIdeal.Gen.W6_main_arg13 m ρ c),
       (h c _ (Cert.KernelIdeal.Gen.mem_uc Cert.KernelIdeal.main_arg14 (by decide))).trans (Cert.KernelIdeal.Gen.W6_main_arg14 m ρ c),
       (h c _ (Cert.KernelIdeal.Gen.mem_uc Cert.KernelIdeal.main_arg15 (by decide))).trans (Cert.KernelIdeal.Gen.W6_main_arg15 m ρ c),
       (h c _ (Cert.KernelIdeal.Gen.mem_uc Cert.KernelIdeal.main_arg16 (by decide))).trans (Cert.KernelIdeal.Gen.W6_main_arg16 m ρ c),
       (h c _ (Cert.KernelIdeal.Gen.mem_uc Cert.KernelIdeal.main_arg17 (by decide))).trans (Cert.KernelIdeal.Gen.W6_main_arg17 m ρ c),
       (h c _ (Cert.KernelIdeal.Gen.mem_uc Cert.KernelIdeal.main_arg18 (by decide))).trans (Cert.KernelIdeal.Gen.W6_main_arg18 m ρ c)⟩)
      (Cert.KernelIdeal.Whole.run_all (F := Ideal) m ρ)
  · refine (θ_run Cert.ReferenceIdeal.defs _ _).mono (fun r h c => ?_) (Cert.ReferenceIdeal.Whole.run_all (F := Ideal) m' ρ')
    obtain ⟨a0, a1, a2, a3, a4, a5, a6, a7, a8, a9, a10, a11, a12, a13, a14, a15, a16, a17, a18⟩ := hagree c
    exact ⟨(h c Cert.ReferenceIdeal.main_v138).trans ((Cert.ReferenceIdeal.Layers.value _).trans (nets_agree c m m' a0 a1 a2 a3 a4 a5 a6 a7 a8 a9 a10 a11 a12 a13 a14 a15 a16 a17 a18)),
       (h c Cert.ReferenceIdeal.main_arg0).trans (Cert.ReferenceIdeal.Layers.kept_arg0 _),
       (h c Cert.ReferenceIdeal.main_arg1).trans (Cert.ReferenceIdeal.Layers.kept_arg1 _),
       (h c Cert.ReferenceIdeal.main_arg2).trans (Cert.ReferenceIdeal.Layers.kept_arg2 _),
       (h c Cert.ReferenceIdeal.main_arg3).trans (Cert.ReferenceIdeal.Layers.kept_arg3 _),
       (h c Cert.ReferenceIdeal.main_arg4).trans (Cert.ReferenceIdeal.Layers.kept_arg4 _),
       (h c Cert.ReferenceIdeal.main_arg5).trans (Cert.ReferenceIdeal.Layers.kept_arg5 _),
       (h c Cert.ReferenceIdeal.main_arg6).trans (Cert.ReferenceIdeal.Layers.kept_arg6 _),
       (h c Cert.ReferenceIdeal.main_arg7).trans (Cert.ReferenceIdeal.Layers.kept_arg7 _),
       (h c Cert.ReferenceIdeal.main_arg8).trans (Cert.ReferenceIdeal.Layers.kept_arg8 _),
       (h c Cert.ReferenceIdeal.main_arg9).trans (Cert.ReferenceIdeal.Layers.kept_arg9 _),
       (h c Cert.ReferenceIdeal.main_arg10).trans (Cert.ReferenceIdeal.Layers.kept_arg10 _),
       (h c Cert.ReferenceIdeal.main_arg11).trans (Cert.ReferenceIdeal.Layers.kept_arg11 _),
       (h c Cert.ReferenceIdeal.main_arg12).trans (Cert.ReferenceIdeal.Layers.kept_arg12 _),
       (h c Cert.ReferenceIdeal.main_arg13).trans (Cert.ReferenceIdeal.Layers.kept_arg13 _),
       (h c Cert.ReferenceIdeal.main_arg14).trans (Cert.ReferenceIdeal.Layers.kept_arg14 _),
       (h c Cert.ReferenceIdeal.main_arg15).trans (Cert.ReferenceIdeal.Layers.kept_arg15 _),
       (h c Cert.ReferenceIdeal.main_arg16).trans (Cert.ReferenceIdeal.Layers.kept_arg16 _),
       (h c Cert.ReferenceIdeal.main_arg17).trans (Cert.ReferenceIdeal.Layers.kept_arg17 _),
       (h c Cert.ReferenceIdeal.main_arg18).trans (Cert.ReferenceIdeal.Layers.kept_arg18 _)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
